-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S4096x32x64 : Shape := ⟨3, ![4096, 32, 64]⟩
abbrev S4096x512 : Shape := ⟨2, ![4096, 512]⟩
abbrev S1088x4 : Shape := ⟨2, ![1088, 4]⟩
abbrev S512x512 : Shape := ⟨2, ![512, 512]⟩
abbrev S512 : Shape := ⟨1, ![512]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S4096x32x64 : S_.BroadcastsInDim S4096x32x64 (![] : Fin 0 → Fin S4096x32x64.rank)
  reducesTo_S4096x32x64_S_d0_1_2 : S4096x32x64.ReducesTo [0, 1, 2] S_
  bcast_S_S4096x512 : S_.BroadcastsInDim S4096x512 (![] : Fin 0 → Fin S4096x512.rank)
  reducesTo_S4096x512_S_d0_1 : S4096x512.ReducesTo [0, 1] S_
  bcast_S_S1088x4 : S_.BroadcastsInDim S1088x4 (![] : Fin 0 → Fin S1088x4.rank)
  reducesTo_S1088x4_S_d0_1 : S1088x4.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512 .f32) (main_arg7 : FVec F S512 .f32) (main_arg8 : FVec F S512 .f32) (main_arg9 : FVec F S512 .f32) (main_v13 : IVec S_ 1) (main_v16 : IVec S1088x4 1) : IVec S_ 1 :=
  let main_c_5 : IVec S_ 1 := constantI S_ 1 1#1
  let main_v17 : IVec S_ 1 := (fun x v => Host.reduce IntOp.andi x v reducesTo_S1088x4_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S4096x32x512 .f32) (main_arg1 : FVec F S4096x32x64 .f32) (main_arg2 : FVec F S4096x512 .f32) (main_arg3 : FVec F S1088x4 .f32) (main_arg4 : FVec F S512x512 .f32) (main_arg5 : FVec F S512 .f32) (main_arg6 : FVec F S512 .f32) (main_arg7 : FVec F S512 .f32) (main_arg8 : FVec F S512 .f32) (main_arg9 : FVec F S512 .f32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S4096x32x64 .f32 := Host.absf main_arg1
  let main_cst_0 : FVec F S_ .f32 := constant S_ .f32 0x7F800000#32
  let main_v5 : FVec F S4096x32x64 .f32 := broadcastInDim S4096x32x64 ![] bcast_S_S4096x32x64 main_cst_0
  let main_v6 : IVec S4096x32x64 1 := cmpf .olt main_v4 main_v5
  let main_c_1 : IVec S_ 1 := constantI S_ 1 1#1
  let main_v7 : IVec S_ 1 := (fun x v => Host.reduce IntOp.andi x v reducesTo_S4096x32x64_S_d0_1_2 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S1088x4 .f32 := Host.absf main_arg3
  let main_cst_4 : FVec F S_ .f32 := constant S_ .f32 0x7F800000#32
  let main_v15 : FVec F S1088x4 .f32 := broadcastInDim S1088x4 ![] bcast_S_S1088x4 main_cst_4
  let main_v16 : IVec S1088x4 1 := cmpf .olt main_v14 main_v15
  fn_part1 (F := F) main_arg4 main_arg5 main_arg6 main_arg7 main_arg8 main_arg9 main_v13 main_v16
-- ==== Kernel.lean ====
abbrev S4096x32x512 : Shape := ⟨3, ![4096, 32, 512]⟩
abbrev S4096x32x64 : Shape := ⟨3, ![4096, 32, 64]⟩
abbrev S4096x512 : Shape := ⟨2, ![4096, 512]⟩
abbrev S1088x4 : Shape := ⟨2, ![1088, 4]⟩
abbrev S512x512 : Shape := ⟨2, ![512, 512]⟩
abbrev S512 : Shape := ⟨1, ![512]⟩
abbrev S512x4 : Shape := ⟨2, ![512, 4]⟩
abbrev S64x4 : Shape := ⟨2, ![64, 4]⟩
abbrev S1x512 : Shape := ⟨2, ![1, 512]⟩
abbrev S128x32x512 : Shape := ⟨3, ![128, 32, 512]⟩
abbrev S128x32x64 : Shape := ⟨3, ![128, 32, 64]⟩
abbrev S128x512 : Shape := ⟨2, ![128, 512]⟩
abbrev S128x32x4 : Shape := ⟨3, ![128, 32, 4]⟩
abbrev S128x32x1 : Shape := ⟨3, ![128, 32, 1]⟩
abbrev S128x4 : Shape := ⟨2, ![128, 4]⟩
abbrev S4096x64 : Shape := ⟨2, ![4096, 64]⟩
abbrev S4096x4 : Shape := ⟨2, ![4096, 4]⟩
abbrev S128x8x512 : Shape := ⟨3, ![128, 8, 512]⟩
abbrev S1024x512 : Shape := ⟨2, ![1024, 512]⟩
abbrev S1024x4 : Shape := ⟨2, ![1024, 4]⟩
abbrev S128x8x4 : Shape := ⟨3, ![128, 8, 4]⟩
abbrev S128x1x4 : Shape := ⟨3, ![128, 1, 4]⟩
abbrev S128x32 : Shape := ⟨2, ![128, 32]⟩
abbrev S128x8x1 : Shape := ⟨3, ![128, 8, 1]⟩
abbrev S128 : Shape := ⟨1, ![128]⟩
abbrev S128x1 : Shape := ⟨2, ![128, 1]⟩

abbrev nBuf : Space → Nat
  | .hbm => 20
  | .vmem => 20
  | .smem => 0
  | _ => 0

abbrev bufTy : (tb : Table) → Fin (tcTables nBuf tb) → BufTy
  | .hbm, ⟨0, _⟩ => ⟨S4096x32x512, .f32⟩
  | .hbm, ⟨1, _⟩ => ⟨S4096x32x64, .f32⟩
  | .hbm, ⟨2, _⟩ => ⟨S4096x512, .f32⟩
  | .hbm, ⟨3, _⟩ => ⟨S1088x4, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x4, .f32⟩
  | .hbm, ⟨11, _⟩ => ⟨S512x4, .f32⟩
  | .hbm, ⟨12, _⟩ => ⟨S64x4, .f32⟩
  | .hbm, ⟨13, _⟩ => ⟨S512x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S4096x512, .f32⟩
  | .local _ .vmem, ⟨0, _⟩ => ⟨S128x32x512, .f32⟩
  | .local _ .vmem, ⟨1, _⟩ => ⟨S128x32x512, .f32⟩
  | .local _ .vmem, ⟨2, _⟩ => ⟨S128x32x64, .f32⟩
  | .local _ .vmem, ⟨3, _⟩ => ⟨S128x32x64, .f32⟩
  | .local _ .vmem, ⟨4, _⟩ => ⟨S128x512, .f32⟩
  | .local _ .vmem, ⟨5, _⟩ => ⟨S128x512, .f32⟩
  | .local _ .vmem, ⟨6, _⟩ => ⟨S512x4, .f32⟩
  | .local _ .vmem, ⟨7, _⟩ => ⟨S512x4, .f32⟩
  | .local _ .vmem, ⟨8, _⟩ => ⟨S64x4, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S128x512, .f32⟩
  | .local _ .vmem, ⟨16, _⟩ => ⟨S128x512, .f32⟩
  | .local _ .vmem, ⟨17, _⟩ => ⟨S128x32x4, .f32⟩
  | .local _ .vmem, ⟨18, _⟩ => ⟨S128x32x1, .f32⟩
  | .local _ .vmem, ⟨19, _⟩ => ⟨S128x512, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v115 : BitVec 32 := Scalar.muli arg17 c1_i32_58
  let v116 : BitVec 32 := Scalar.addi c0_i32_59 v115
  let c8_i32 : BitVec 32 := 8#32
  let v117 : BitVec 32 := Scalar.muli v116 c8_i32
  v117
def k0_off1 (k0_t1 : Fin k0_t1_loop.trips) : Fin 3 → Nat :=
  let c0_60 : Index := 0#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v115 : BitVec 32 := Scalar.muli arg17 c1_i32_58
  let v116 : BitVec 32 := Scalar.addi c0_i32_59 v115
  let c8_i32 : BitVec 32 := 8#32
  let v117 : BitVec 32 := Scalar.muli v116 c8_i32
  let v118 : BitVec 32 := v117
  let v119 : Index := Scalar.indexCast v118
  let c0_61 : Index := 0#32
  ![0, v119.toNat, 0]
def k0_off2 (k0_t1 : Fin k0_t1_loop.trips) : Fin 3 → Nat :=
  let c0_63 : Index := 0#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v115 : BitVec 32 := Scalar.muli arg17 c1_i32_58
  let v116 : BitVec 32 := Scalar.addi c0_i32_59 v115
  let c8_i32 : BitVec 32 := 8#32
  let v117 : BitVec 32 := Scalar.muli v116 c8_i32
  let v118 : BitVec 32 := v117
  let v125 : Index := Scalar.indexCast v118
  let c0_64 : Index := 0#32
  ![0, v125.toNat, 0]
@[reducible] def k0_t2_loop : Scf.Loop 32 :=
  let c0_i32_26 : BitVec 32 := 0#32
  let c4_i32_27 : BitVec 32 := 4#32
  let v46 : BitVec 32 := Scalar.addi c0_i32_26 c4_i32_27
  let c1_i32_28 : BitVec 32 := 1#32
  ⟨c0_i32_26, v46, c1_i32_28⟩
def k0_mult2 (k0_t2 : Fin k0_t2_loop.trips) : BitVec 32 :=
  let c0_i32_59 : BitVec 32 := 0#32
  let c0_i32_26 : BitVec 32 := 0#32
  let c1_i32_28 : BitVec 32 := 1#32
  let arg17 : BitVec 32 := Scf.iv c0_i32_26 c1_i32_28 k0_t2
  let c1_i32_58 : BitVec 32 := 1#32
  let v115 : BitVec 32 := Scalar.muli arg17 c1_i32_58
  let v116 : BitVec 32 := Scalar.addi c0_i32_59 v115
  let c8_i32 : BitVec 32 := 8#32
  let v117 : BitVec 32 := Scalar.muli v116 c8_i32
  v117
def k0_off3 (k0_t2 : Fin k0_t2_loop.trips) : Fin 3 → Nat :=
  let c0_60 : Index := 0#32
  let c0_i32_59 : BitVec 32 := 0#32
  let c0_i32_26 : BitVec 32 := 0#32
  let c1_i32_28 : BitVec 32 := 1#32
  let arg17 : BitVec 32 := Scf.iv c0_i32_26 c1_i32_28 k0_t2
  let c1_i32_58 : BitVec 32 := 1#32
  let v115 : BitVec 32 := Scalar.muli arg17 c1_i32_58
  let v116 : BitVec 32 := Scalar.addi c0_i32_59 v115
  let c8_i32 : BitVec 32 := 8#32
  let v117 : BitVec 32 := Scalar.muli v116 c8_i32
  let v118 : BitVec 32 := v117
  let v119 : Index := Scalar.indexCast v118
  let c0_61 : Index := 0#32
  ![0, v119.toNat, 0]
def k0_off4 (k0_t2 : Fin k0_t2_loop.trips) : Fin 3 → Nat :=
  let c0_62 : Index := 0#32
  let c0_i32_59 : BitVec 32 := 0#32
  let c0_i32_26 : BitVec 32 := 0#32
  let c1_i32_28 : BitVec 32 := 1#32
  let arg17 : BitVec 32 := Scf.iv c0_i32_26 c1_i32_28 k0_t2
  let c1_i32_58 : BitVec 32 := 1#32
  let v115 : BitVec 32 := Scalar.muli arg17 c1_i32_58
  let v116 : BitVec 32 := Scalar.addi c0_i32_59 v115
  let c8_i32 : BitVec 32 := 8#32
  let v117 : BitVec 32 := Scalar.muli v116 c8_i32
  let v118 : BitVec 32 := v117
  let v121 : Index := Scalar.indexCast v118
  let c0_63 : Index := 0#32
  ![0, v121.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S1088x4_S512x4_0_0 : S1088x4.Slices ![0, 0] S512x4
  slices_S1088x4_S512x4_512_0 : S1088x4.Slices ![512, 0] S512x4
  slices_S1088x4_S64x4_1024_0 : S1088x4.Slices ![1024, 0] S64x4
  transposes_S512x512_S512x512_1_0 : S512x512.Transposes [1, 0] S512x512
  shapeCasts_S512_S1x512 : S512.ShapeCasts S1x512
  inb_S128x512_S128x512_0_0 : ∀ a, (![0, 0] : Fin 2 → Nat) a + S128x512.size a ≤ S128x512.size a
  h_S128x512 : 0 < S128x512.numel
  inb_S128x32x64_S128x32x64_0_0_0 : ∀ a, (![0, 0, 0] : Fin 3 → Nat) a + S128x32x64.size a ≤ S128x32x64.size a
  h_S128x32x64 : 0 < S128x32x64.numel
  bitsLt_bf16_f32 : FTy.bits .bf16 < FTy.bits .f32
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S64x4_S64x4_0_0 : ∀ a, (![0, 0] : Fin 2 → Nat) a + S64x4.size a ≤ S64x4.size a
  h_S64x4 : 0 < S64x4.numel
  shapeCasts_S64x4_S64x4 : S64x4.ShapeCasts S64x4
  shapeCasts_S128x32x64_S4096x64 : S128x32x64.ShapeCasts S4096x64
  shapeCasts_S4096x4_S128x32x4 : S4096x4.ShapeCasts S128x32x4
  h_S128x8x512 : 0 < S128x8x512.numel
  shapeCasts_S128x8x512_S1024x512 : S128x8x512.ShapeCasts S1024x512
  shapeCasts_S1024x4_S128x8x4 : S1024x4.ShapeCasts S128x8x4
  h_S128x8x4 : 0 < S128x8x4.numel
  shapeCasts_S128x8x4_S128x8x4 : S128x8x4.ShapeCasts S128x8x4
  inb_S128x32x4_S128x32x4_0_0_0 : ∀ a, (![0, 0, 0] : Fin 3 → Nat) a + S128x32x4.size a ≤ S128x32x4.size a
  h_S128x32x4 : 0 < S128x32x4.numel
  shapeCasts_S128x4_S128x1x4 : S128x4.ShapeCasts S128x1x4
  broadcasts_S128x1x4_S128x32x4 : S128x1x4.Broadcasts S128x32x4
  reduces_S128x32x4_S128x4 : S128x32x4.Reduces [1] S128x4
  reduces_S128x32x4_S128x32 : S128x32x4.Reduces [2] S128x32
  shapeCasts_S128x32_S128x32x1 : S128x32.ShapeCasts S128x32x1
  inb_S128x32x1_S128x32x1_0_0_0 : ∀ a, (![0, 0, 0] : Fin 3 → Nat) a + S128x32x1.size a ≤ S128x32x1.size a
  h_S128x32x1 : 0 < S128x32x1.numel
  shapeCasts_S128x32x1_S128x32x1 : S128x32x1.ShapeCasts S128x32x1
  shapeCasts_S128x512_S128x512 : S128x512.ShapeCasts S128x512
  h_S128x8x1 : 0 < S128x8x1.numel
  broadcasts_S128x8x1_S128x8x512 : S128x8x1.Broadcasts S128x8x512
  reduces_S128x8x512_S128x512 : S128x8x512.Reduces [1] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S128x512_S128 : S128x512.Reduces [1] S128
  shapeCasts_S128_S128x1 : S128.ShapeCasts S128x1
  broadcasts_S128x1_S128x512 : S128x1.Broadcasts S128x512
  broadcasts_S1x512_S128x512 : S1x512.Broadcasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S128x512_S512x4_S128x4_1_0_0_1_n_n_wf : DotDims.WF S128x512 S512x4 S128x4 [1] [0] [0] [1] [] []
  dot_S4096x64_S64x4_S4096x4_1_0_0_1_n_n_wf : DotDims.WF S4096x64 S64x4 S4096x4 [1] [0] [0] [1] [] []
  dot_S1024x512_S512x4_S1024x4_1_0_0_1_n_n_wf : DotDims.WF S1024x512 S512x4 S1024x4 [1] [0] [0] [1] [] []
  dot_S128x512_S512x512_S128x512_1_0_0_1_n_n_wf : DotDims.WF S128x512 S512x512 S128x512 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S128x8x512.size a ≤ S128x32x512.size a
  k0_off2_inb : ∀ k0_t1 : Fin k0_t1_loop.trips, ∀ a, (k0_off2 k0_t1) a + S128x8x4.size a ≤ S128x32x4.size a
  k0_t2_ok : k0_t2_loop.OK
  k0_mult2_dvd : ∀ k0_t2 : Fin k0_t2_loop.trips, 8 ∣ (k0_mult2 k0_t2).toNat
  k0_off3_inb : ∀ k0_t2 : Fin k0_t2_loop.trips, ∀ a, (k0_off3 k0_t2) a + S128x8x512.size a ≤ S128x32x512.size a
  k0_off4_inb : ∀ k0_t2 : Fin k0_t2_loop.trips, ∀ a, (k0_off4 k0_t2) a + S128x8x1.size a ≤ S128x32x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x512.size a ≤ S4096x32x512.size a
  hwx0_0 : ∀ i : grid0.Coords, EltTy.bits .f32 = 32 ∨ (Rect.block (s := S4096x32x512) S128x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x64.size a ≤ S4096x32x64.size a
  hwx0_1 : ∀ i : grid0.Coords, EltTy.bits .f32 = 32 ∨ (Rect.block (s := S4096x32x64) S128x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S4096x512.size a
  hwx0_2 : ∀ i : grid0.Coords, EltTy.bits .f32 = 32 ∨ (Rect.block (s := S4096x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S512x4.size a
  hwx0_3 : ∀ i : grid0.Coords, EltTy.bits .f32 = 32 ∨ (Rect.block (s := S512x4) S512x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4.size a ≤ S512x4.size a
  hwx0_4 : ∀ i : grid0.Coords, EltTy.bits .f32 = 32 ∨ (Rect.block (s := S512x4) S512x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4.size a ≤ S64x4.size a
  hwx0_5 : ∀ i : grid0.Coords, EltTy.bits .f32 = 32 ∨ (Rect.block (s := S64x4) S64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S4096x512.size a
  hwx0_12 : ∀ i : grid0.Coords, EltTy.bits .f32 = 32 ∨ (Rect.block (s := S4096x512) S128x512.size (cc0_transform_12 i) (hinb0_12 i)).WholeWords (EltTy.packing .f32)

variable [Facts₀]

def dot_S128x512_S512x4_S128x4_1_0_0_1_n_n : DotDims S128x512 S512x4 S128x4 where
  lhsContracting := [1]
  rhsContracting := [0]
  lhsNonContracting := [0]
  rhsNonContracting := [1]
  lhsBatch := []
  rhsBatch := []
  wf := dot_S128x512_S512x4_S128x4_1_0_0_1_n_n_wf
def dot_S4096x64_S64x4_S4096x4_1_0_0_1_n_n : DotDims S4096x64 S64x4 S4096x4 where
  lhsContracting := [1]
  rhsContracting := [0]
  lhsNonContracting := [0]
  rhsNonContracting := [1]
  lhsBatch := []
  rhsBatch := []
  wf := dot_S4096x64_S64x4_S4096x4_1_0_0_1_n_n_wf
def dot_S1024x512_S512x4_S1024x4_1_0_0_1_n_n : DotDims S1024x512 S512x4 S1024x4 where
  lhsContracting := [1]
  rhsContracting := [0]
  lhsNonContracting := [0]
  rhsNonContracting := [1]
  lhsBatch := []
  rhsBatch := []
  wf := dot_S1024x512_S512x4_S1024x4_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S128x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S128x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S4096x32x64 : Shape := ⟨3, ![4096, 32, 64]⟩
abbrev S4096x512 : Shape := ⟨2, ![4096, 512]⟩
abbrev S1088x4 : Shape := ⟨2, ![1088, 4]⟩
abbrev S512x512 : Shape := ⟨2, ![512, 512]⟩
abbrev S512 : Shape := ⟨1, ![512]⟩
abbrev S4096x1x512 : Shape := ⟨3, ![4096, 1, 512]⟩
abbrev S4096x32x1088 : Shape := ⟨3, ![4096, 32, 1088]⟩
abbrev S4096x32x4 : Shape := ⟨3, ![4096, 32, 4]⟩
abbrev S_ : Shape := ⟨0, ![]⟩
abbrev S4096x4 : Shape := ⟨2, ![4096, 4]⟩
abbrev S4096x1x4 : Shape := ⟨3, ![4096, 1, 4]⟩
abbrev S4096x4x512 : Shape := ⟨3, ![4096, 4, 512]⟩
abbrev S4096 : Shape := ⟨1, ![4096]⟩
abbrev S4096x1 : Shape := ⟨2, ![4096, 1]⟩
abbrev S1x512 : Shape := ⟨2, ![1, 512]⟩

abbrev nBuf : Space → Nat
  | .hbm => 115
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S4096x32x64, .f32⟩
  | .hbm, ⟨2, _⟩ => ⟨S4096x512, .f32⟩
  | .hbm, ⟨3, _⟩ => ⟨S1088x4, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S4096x1x512, .f32⟩
  | .hbm, ⟨11, _⟩ => ⟨S4096x32x512, .f32⟩
  | .hbm, ⟨12, _⟩ => ⟨S4096x32x1088, .f32⟩
  | .hbm, ⟨13, _⟩ => ⟨S4096x32x4, .f32⟩
  | .hbm, ⟨14, _⟩ => ⟨S_, .f32⟩
  | .hbm, ⟨15, _⟩ => ⟨S_, .f32⟩
  | .hbm, ⟨16, _⟩ => ⟨S4096x32x4, .f32⟩
  | .hbm, ⟨17, _⟩ => ⟨S4096x32x4, .i1⟩
  | .hbm, ⟨18, _⟩ => ⟨S_, .f32⟩
  | .hbm, ⟨19, _⟩ => ⟨S4096x32x4, .f32⟩
  | .hbm, ⟨20, _⟩ => ⟨S4096x32x4, .f32⟩
  | .hbm, ⟨21, _⟩ => ⟨S4096x32x4, .f32⟩
  | .hbm, ⟨22, _⟩ => ⟨S_, .f32⟩
  | .hbm, ⟨23, _⟩ => ⟨S4096x4, .f32⟩
  | .hbm, ⟨24, _⟩ => ⟨S_, .f32⟩
  | .hbm, ⟨25, _⟩ => ⟨S4096x4, .f32⟩
  | .hbm, ⟨26, _⟩ => ⟨S4096x4, .f32⟩
  | .hbm, ⟨27, _⟩ => ⟨S4096x1x4, .f32⟩
  | .hbm, ⟨28, _⟩ => ⟨S4096x32x4, .f32⟩
  | .hbm, ⟨29, _⟩ => ⟨S4096x32x4, .f32⟩
  | .hbm, ⟨30, _⟩ => ⟨S4096x32x4, .f32⟩
  | .hbm, ⟨31, _⟩ => ⟨S_, .f32⟩
  | .hbm, ⟨32, _⟩ => ⟨S4096x4, .f32⟩
  | .hbm, ⟨33, _⟩ => ⟨S4096x1x4, .f32⟩
  | .hbm, ⟨34, _⟩ => ⟨S4096x32x4, .f32⟩
  | .hbm, ⟨35, _⟩ => ⟨S4096x32x4, .f32⟩
  | .hbm, ⟨36, _⟩ => ⟨S4096x4x512, .f32⟩
  | .hbm, ⟨37, _⟩ => ⟨S_, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x512, .f32⟩
  | .hbm, ⟨67, _⟩ => ⟨S4096x512, .f32⟩
  | .hbm, ⟨68, _⟩ => ⟨S1x512, .f32⟩
  | .hbm, ⟨69, _⟩ => ⟨S4096x512, .f32⟩
  | .hbm, ⟨70, _⟩ => ⟨S4096x512, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x512, .f32⟩
  | .hbm, ⟨76, _⟩ => ⟨S4096x512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S512x512, .f32⟩
  | .hbm, ⟨81, _⟩ => ⟨S4096x512, .f32⟩
  | .hbm, ⟨82, _⟩ => ⟨S1x512, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S4096x512, .f32⟩
  | .hbm, ⟨93, _⟩ => ⟨S4096x512, .f32⟩
  | .hbm, ⟨94, _⟩ => ⟨S4096x512, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S4096x512, .f32⟩
  | .hbm, ⟨102, _⟩ => ⟨S4096x512, .f32⟩
  | .hbm, ⟨103, _⟩ => ⟨S1x512, .f32⟩
  | .hbm, ⟨104, _⟩ => ⟨S4096x512, .f32⟩
  | .hbm, ⟨105, _⟩ => ⟨S4096x512, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S4096x1, .f32⟩
  | .hbm, ⟨110, _⟩ => ⟨S4096x512, .f32⟩
  | .hbm, ⟨111, _⟩ => ⟨S4096x512, .f32⟩
  | .hbm, ⟨112, _⟩ => ⟨S1x512, .f32⟩
  | .hbm, ⟨113, _⟩ => ⟨S4096x512, .f32⟩
  | .hbm, ⟨114, _⟩ => ⟨S4096x512, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  bcast_S4096x512_S4096x1x512_0_2 : S4096x512.BroadcastsInDim S4096x1x512 (![0, 2] : Fin 2 → Fin S4096x1x512.rank)
  bcast_S4096x1x512_S4096x32x512_0_1_2 : S4096x1x512.BroadcastsInDim S4096x32x512 (![0, 1, 2] : Fin 3 → Fin S4096x32x512.rank)
  concatenates_S4096x32x512_S4096x32x512_S4096x32x64_S4096x32x1088_d2 : Shape.Concatenates [S4096x32x512, S4096x32x512, S4096x32x64] S4096x32x1088 2
  bcast_S_S4096x32x4 : S_.BroadcastsInDim S4096x32x4 (![] : Fin 0 → Fin S4096x32x4.rank)
  reducesTo_S4096x32x4_S4096x4_d1 : S4096x32x4.ReducesTo [1] S4096x4
  h_S_ : 0 < S_.numel
  bcast_S_S4096x4 : S_.BroadcastsInDim S4096x4 (![] : Fin 0 → Fin S4096x4.rank)
  bcast_S4096x4_S4096x1x4_0_2 : S4096x4.BroadcastsInDim S4096x1x4 (![0, 2] : Fin 2 → Fin S4096x1x4.rank)
  bcast_S4096x1x4_S4096x32x4_0_1_2 : S4096x1x4.BroadcastsInDim S4096x32x4 (![0, 1, 2] : Fin 3 → Fin S4096x32x4.rank)
  reducesTo_S4096x4x512_S4096x512_d1 : S4096x4x512.ReducesTo [1] S4096x512
  bcast_S_S4096x512 : S_.BroadcastsInDim S4096x512 (![] : Fin 0 → Fin S4096x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S512x512_S512x512_1_0 : S512x512.Transposes [1, 0] S512x512
  dot_S4096x32x1088_S1088x4_S4096x32x4_2_0_01_1_n_n_wf : DotDims.WF S4096x32x1088 S1088x4 S4096x32x4 [2] [0] [0, 1] [1] [] []
  dot_S4096x32x4_S4096x32x512_S4096x4x512_1_1_2_2_0_0_wf : DotDims.WF S4096x32x4 S4096x32x512 S4096x4x512 [1] [1] [2] [2] [0] [0]
  dot_S4096x512_S512x512_S4096x512_1_0_0_1_n_n_wf : DotDims.WF S4096x512 S512x512 S4096x512 [1] [0] [0] [1] [] []

variable [Facts₀]

def dot_S4096x32x1088_S1088x4_S4096x32x4_2_0_01_1_n_n : DotDims S4096x32x1088 S1088x4 S4096x32x4 where
  lhsContracting := [2]
  rhsContracting := [0]
  lhsNonContracting := [0, 1]
  rhsNonContracting := [1]
  lhsBatch := []
  rhsBatch := []
  wf := dot_S4096x32x1088_S1088x4_S4096x32x4_2_0_01_1_n_n_wf
def dot_S4096x32x4_S4096x32x512_S4096x4x512_1_1_2_2_0_0 : DotDims S4096x32x4 S4096x32x512 S4096x4x512 where
  lhsContracting := [1]
  rhsContracting := [1]
  lhsNonContracting := [2]
  rhsNonContracting := [2]
  lhsBatch := [0]
  rhsBatch := [0]
  wf := dot_S4096x32x4_S4096x32x512_S4096x4x512_1_1_2_2_0_0_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  The two arrangements of one attention-pooling layer, as plain functions on the extended reals, row by row.

  One row of the batch has a query vector `q : Fin 512`, thirty-two context points with key vectors
  `ke n : Fin 512` and spatial vectors `ks n : Fin 64`; the layer's weights are the attention matrix
  `av : Fin 1088 × Fin 4` (rows 0–511 meet the query, 512–1023 the key, 1024–1087 the spatial vector),
  the square matrix `pw`, and five vectors of width 512.

  Score of point `n` under head `k`: the inner product of the concatenation (q, ke n, ks n) with column `k`
  of `av`, through the leaky rectifier. Softmax over the 32 points for each head. The pooled vector is the
  softmax-weighted sum of the keys, summed over the four heads and scaled by 1/4; then the logistic function,
  the residual `+ q`, a layer norm, the affine map `y ↦ y·pwᵀ + pb` with residual, and a second layer norm.

  The K arrangement computes the score as three inner products added up, adds the four heads' weights of a point
  BEFORE multiplying by the key (and walks the points in four groups of eight), takes the logistic function as one
  operation and multiplies by the reciprocal square root. The R arrangement takes one inner product of length
  1088, multiplies each head's weights by the key and adds the heads AFTER, spells the logistic function as
  1/(1+e^(-z)) and divides by the square root. The float literals are kept as the words both programs print.
-/
import Idealize.ShloMosaic.PureOps.Ideal
import Idealize.ShloMosaic.Lib.ValueIdx

noncomputable section

namespace Cert.Spec

open Idealize.ShloMosaic

/-- The printed words: the rectifier's slope 0.01, zero, 1/4, the width 512, the norm's 1e-6, one. -/
abbrev wSlope : EReal := Ideal.ofBits .f32 0x3C23D70A#32
abbrev wZero : EReal := Ideal.ofBits .f32 0x00000000#32
abbrev wQuarter : EReal := Ideal.ofBits .f32 0x3E800000#32
abbrev wWidth : EReal := Ideal.ofBits .f32 0x44000000#32
abbrev wEps : EReal := Ideal.ofBits .f32 0x358637BD#32
abbrev wOne : EReal := Ideal.ofBits .f32 0x3F800000#32

/-- The leaky rectifier: `x` where `x ≥ 0`, else slope · x. -/
def leaky (x : EReal) : EReal := Scalar.select (Ideal.cmp .oge x wZero) x (wSlope * x)

/-! ## The scores, in both arrangements -/

/-- Three inner products added up: (query + key) + spatial. -/
def scoreK (q : Fin 512 → EReal) (ke : Fin 32 → Fin 512 → EReal) (ks : Fin 32 → Fin 64 → EReal)
    (av : Fin 1088 → Fin 4 → EReal) (n : Fin 32) (k : Fin 4) : EReal :=
  ((∑ d : Fin 512, q d * av ⟨d.val, by omega⟩ k) + (∑ d : Fin 512, ke n d * av ⟨512 + d.val, by omega⟩ k))
    + (∑ d : Fin 64, ks n d * av ⟨1024 + d.val, by omega⟩ k)

/-- The concatenation (q, ke n, ks n) at position `j`. -/
def cat (q : Fin 512 → EReal) (ke : Fin 32 → Fin 512 → EReal) (ks : Fin 32 → Fin 64 → EReal)
    (n : Fin 32) (j : Fin 1088) : EReal :=
  if h : j.val < 512 then q ⟨j.val, h⟩
  else if h2 : j.val < 1024 then ke n ⟨j.val - 512, by omega⟩
  else ks n ⟨j.val - 1024, by omega⟩

/-- One inner product of length 1088. -/
def scoreR (q : Fin 512 → EReal) (ke : Fin 32 → Fin 512 → EReal) (ks : Fin 32 → Fin 64 → EReal)
    (av : Fin 1088 → Fin 4 → EReal) (n : Fin 32) (k : Fin 4) : EReal :=
  ∑ j : Fin 1088, cat q ke ks n j * av j k

/-! ## Softmax over the points, for each head (shared) -/

/-- The largest rectified score of a head. -/
def top (L : Fin 32 → Fin 4 → EReal) (k : Fin 4) : EReal :=
  (Finset.univ : Finset (Fin 32)).fold max ⊥ (fun n => L n k)

/-- e^(score − largest). -/
def ex (L : Fin 32 → Fin 4 → EReal) (n : Fin 32) (k : Fin 4) : EReal := Ideal.exp (L n k - top L k)

/-- A head's normalizer. -/
def den (L : Fin 32 → Fin 4 → EReal) (k : Fin 4) : EReal := ∑ n : Fin 32, ex L n k

/-- The attention weight of point `n` under head `k`. -/
def att (L : Fin 32 → Fin 4 → EReal) (n : Fin 32) (k : Fin 4) : EReal := Ideal.div (ex L n k) (den L k)

/-! ## Pooling the keys, in both arrangements -/

/-- Heads added first; points walked in four groups of eight, the groups accumulated from zero in order. -/
def poolK (a : Fin 32 → Fin 4 → EReal) (ke : Fin 32 → Fin 512 → EReal) (d : Fin 512) : EReal :=
  ((((0 : EReal) + ∑ i : Fin 8, (∑ k : Fin 4, a ⟨0 + i.val, by omega⟩ k) * ke ⟨0 + i.val, by omega⟩ d)
    + ∑ i : Fin 8, (∑ k : Fin 4, a ⟨8 + i.val, by omega⟩ k) * ke ⟨8 + i.val, by omega⟩ d)
    + ∑ i : Fin 8, (∑ k : Fin 4, a ⟨16 + i.val, by omega⟩ k) * ke ⟨16 + i.val, by omega⟩ d)
    + ∑ i : Fin 8, (∑ k : Fin 4, a ⟨24 + i.val, by omega⟩ k) * ke ⟨24 + i.val, by omega⟩ d

/-- Each head pooled by itself, the heads added after. -/
def poolR (a : Fin 32 → Fin 4 → EReal) (ke : Fin 32 → Fin 512 → EReal) (d : Fin 512) : EReal :=
  ∑ k : Fin 4, ∑ n : Fin 32, a n k * ke n d

/-! ## The layer norm, in both arrangements -/

/-- The mean of a vector of width 512 (a sum divided by the width word). -/
def mean (x : Fin 512 → EReal) : EReal := Ideal.div (∑ d : Fin 512, x d) wWidth

/-- Its second central moment. -/
def var (x : Fin 512 → EReal) : EReal :=
  Ideal.div (∑ d : Fin 512, (x d - mean x) * (x d - mean x)) wWidth

/-- Scale, centre, times the reciprocal square root, shift. -/
def normK (g b x : Fin 512 → EReal) (c : Fin 512) : EReal :=
  (g c * (x c - mean x)) * Ideal.rsqrt (var x + wEps) + b c

/-- Scale, centre, divided by the square root, shift. -/
def normR (g b x : Fin 512 → EReal) (c : Fin 512) : EReal :=
  Ideal.div (g c * (x c - mean x)) (Ideal.sqrt (var x + wEps)) + b c

/-- The affine map with its residual: (y · pwᵀ + pb) + y. -/
def affine (pw : Fin 512 → Fin 512 → EReal) (pb y : Fin 512 → EReal) (c : Fin 512) : EReal :=
  ((∑ j : Fin 512, y j * pw c j) + pb c) + y c

/-! ## One row of the result, in both arrangements -/

def outK (q : Fin 512 → EReal) (ke : Fin 32 → Fin 512 → EReal) (ks : Fin 32 → Fin 64 → EReal)
    (av : Fin 1088 → Fin 4 → EReal) (pw : Fin 512 → Fin 512 → EReal) (pb g1 b1 g2 b2 : Fin 512 → EReal) :
    Fin 512 → EReal :=
  let L : Fin 32 → Fin 4 → EReal := fun n k => leaky (scoreK q ke ks av n k)
  let x : Fin 512 → EReal := fun d => Ideal.logistic (poolK (att L) ke d * wQuarter) + q d
  let y : Fin 512 → EReal := normK g1 b1 x
  normK g2 b2 (affine pw pb y)

def outR (q : Fin 512 → EReal) (ke : Fin 32 → Fin 512 → EReal) (ks : Fin 32 → Fin 64 → EReal)
    (av : Fin 1088 → Fin 4 → EReal) (pw : Fin 512 → Fin 512 → EReal) (pb g1 b1 g2 b2 : Fin 512 → EReal) :
    Fin 512 → EReal :=
  let L : Fin 32 → Fin 4 → EReal := fun n k => leaky (scoreR q ke ks av n k)
  let x : Fin 512 → EReal :=
    fun d => Ideal.div wOne (wOne + Ideal.exp (-(poolR (att L) ke d * wQuarter))) + q d
  let y : Fin 512 → EReal := normR g1 b1 x
  normR g2 b2 (affine pw pb y)

end Cert.Spec

end
-- ==== Proof.KTrips.lean ====
/-
  The two scratch buffers the kernel's counted loops fill, read back.

  The first loop walks the 32 context points in four groups of eight: trip k multiplies the eight key rows
  8k … 8k+7 of every batch row by the key part of the attention matrix and stores the [128, 8, 4] result at
  rows 8k … 8k+7 of the score scratch. The four slabs tile the scratch, so the whole scratch loaded after the
  loop holds, at (b, n, h), the inner product of key row n of batch row b with column h — whatever it held
  before. The second loop adds, trip by trip, the eight weighted key rows of a group into the pooled-keys
  scratch, which was zeroed before the loop: after it the scratch holds the four groups' sums added up in order.
-/
import proofs.«109109_j40484361732519_2_alg».proof.Proof.KIFrame
import proofs.«109109_j40484361732519_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.KTrips

open Cert.KernelIdeal Cert.KernelIdeal.Gen Cert.KernelIdeal.GenP
open Idealize.ShloMosaic Idealize.ShloMosaic.TcCoe Idealize.ShloMosaic.ValueIdx Idealize.SL.Sem

/-! ## Whole-shape rectangles -/

section Whole

variable {sig : RefSig} {κ : Kind} {sp : Space} {S : Shape} {e : EltTy} {Val : EltTy → Type}

/-- A load through the whole-shape rectangle at zero offsets reads the view. -/
theorem readAt_unit_zero (v : View sig κ sp S e) {off : Fin S.rank → ℕ} (h : off = fun _ => 0)
    (inb : ∀ a, off a + S.size a ≤ S.size a) (f : v.ty.Contents Val) :
    v.readAt Val (Rect.unit off S.size inb).toLoadRect f = v.read Val f := by
  show View.ld (v.read Val f) (Rect.unit off S.size inb) = _
  exact View.ld_unit_zero h inb _

/-- A store through it, last, leaves its payload, whatever was written before and under it. -/
theorem read_writes_cons_unit_zero (v : View sig κ sp S e) (f : v.ty.Contents Val) {off : Fin S.rank → ℕ}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Whole

theorem hz2 : (![0, 0] : Fin 2 → ℕ) = fun _ => 0 := by funext a; fin_cases a <;> rfl
theorem hz3 : (![0, 0, 0] : Fin 3 → ℕ) = fun _ => 0 := by funext a; fin_cases a <;> rfl

/-! ## The first loop: the score scratch -/

section First

variable (c : Dev nD) (i : grid0.Coords) (arg1 : Memref sig .tc .vmem S128x32x512 .f32) (harg1 : arg1.IsWhole) (arg2 : Memref sig .tc .vmem S128x32x64 .f32) (harg2 : arg2.IsWhole) (arg3 : Memref sig .tc .vmem S128x512 .f32) (harg3 : arg3.IsWhole) (arg4 : Memref sig .tc .vmem S512x4 .f32) (harg4 : arg4.IsWhole) (arg5 : Memref sig .tc .vmem S512x4 .f32) (harg5 : arg5.IsWhole) (arg6 : Memref sig .tc .vmem S64x4 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (arg14 : Memref sig .tc .vmem S128x32x4 .f32) (harg14 : arg14.IsWhole) (arg15 : Memref sig .tc .vmem S128x32x1 .f32) (harg15 : arg15.IsWhole) (arg16 : Memref sig .tc .vmem S128x512 .f32) (harg16 : arg16.IsWhole)

/-- Trip k's one piece: the slab product of key rows 8k … 8k+7, stored at rows 8k … 8k+7. -/
theorem tripL1_eq (v7 : Vec Ideal S512x4 .f32) (X : BufTy.Contents (Elt Ideal) arg1.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X k
      = [⟨Rect.unit (s := S128x32x4) (k0_off2 k) S128x8x4.size (k0_off2_inb k),
          k0_pay1 v7 (View.readAt (Elt Ideal) arg1.view (Rect.unit (s := S128x32x512) (k0_off1 k) S128x8x512.size (k0_off1_inb k)).toLoadRect X)⟩] := by
  unfold tripL_k0_t1 trip_k0_t1; rfl

/-- What holds of every trip's pieces holds of every piece written before trip n. -/
theorem pb1_forall (v7 : Vec Ideal S512x4 .f32) (X : BufTy.Contents (Elt Ideal) arg1.view.ty)
    (P : View.Piece (Elt Ideal) S128x32x4 .f32 → Prop)
    (h : ∀ k : Fin k0_t1_loop.trips, ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X k, P p) :
    ∀ n, n ≤ k0_t1_loop.trips → ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X n, P p
  | 0, _, p, hp => absurd hp List.not_mem_nil
  | n + 1, hn, p, hp => by
    have e : pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X (n + 1)
        = tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X ⟨n, hn⟩
          ++ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X n :=
      pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 X ⟨n, hn⟩
    rw [e] at hp
    rcases List.mem_append.mp hp with h1 | h2
    · exact h ⟨n, hn⟩ p h1
    · exact pb1_forall v7 X P h n (Nat.le_of_succ_le hn) p h2

/-- The score scratch loaded after the first loop: at (b, n, h) the inner product of key row n of batch row b with
    column h of the key part of the attention matrix — given what the slab product is at an entry. -/
theorem v18_apply
    (hP1 : ∀ (v7 : Vec Ideal S512x4 .f32) (v120 : Vec Ideal S128x8x512 .f32) (b : Fin 128) (ii : Fin 8) (k : Fin 4),
      k0_pay1 (F := Ideal) v7 v120 (ix3 b ii k) = ∑ d : Fin 512, v120 (ix3 b ii d) * v7 (ix2 d k))
    (x0 : Vec Ideal S128x32x512 .f32) (x4 : Vec Ideal S512x4 .f32) (d : Vec Ideal S128x32x4 .f32)
    (b : Fin 128) (n : Fin 32) (k : Fin 4) :
    kernelRun0_A.sl.v18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x4 d (ix3 b n k) = ∑ dd : Fin 512, x0 (ix3 b n dd) * x4 (ix2 dd k) := by
  unfold kernelRun0_A.sl.v18
  rw [readAt_unit_zero _ hz3, readAt_unit_zero _ hz2, harg5.read_unread]
  refine View.read_writes_apply_of_pieces (v := arg14.view) (f := harg14.unread d)
    (fun y => ∑ dd : Fin 512, x0 (ix3 (y 0) (y 1) dd) * x4 (ix2 dd (y 2))) _
    (pb1_forall c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 (harg1.unread x0) _ ?_ _ (le_refl _)) (ix3 b n k)
    (coverS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _)
  intro kk p hp x
  rw [tripL1_eq] at hp
  obtain rfl := List.mem_singleton.mp hp
  obtain ⟨bb, ii, k2, rfl⟩ : ∃ (bb : Fin 128) (ii : Fin 8) (k2 : Fin 4), x = ix3 bb ii k2 :=
    ⟨x 0, x 1, x 2, eq_ix3 (n0 := 128) (n1 := 8) (n2 := 4) x⟩
  show k0_pay1 (F := Ideal) x4 _ (ix3 bb ii k2) = _
  rw [hP1]
  refine Finset.sum_congr rfl fun dd _ => ?_
  have o1 : ∀ a, k0_off1 kk a = k0_off2 kk a := fun a => by rw [k0_off1_eq, k0_off2_eq]
  have o12 : k0_off1 kk 2 = 0 := by rw [k0_off1_eq]; rfl
  have o22 : k0_off2 kk 2 = 0 := by rw [k0_off2_eq]; rfl
  rw [View.readAt_apply, harg1.read_unread]
  refine congrArg₂ (· * ·) (congrArg x0 ?_) (congrArg x4 ?_)
  · funext a; apply Fin.ext
    match a with
    | ⟨0, _⟩ => show k0_off1 kk 0 + 1 * bb.val = k0_off2 kk 0 + 1 * bb.val; rw [o1]
    | ⟨1, _⟩ => show k0_off1 kk 1 + 1 * ii.val = k0_off2 kk 1 + 1 * ii.val; rw [o1]
    | ⟨2, _⟩ => show k0_off1 kk 2 + 1 * dd.val = dd.val; rw [o12]; omega
  · funext a; apply Fin.ext
    match a with
    | ⟨0, _⟩ => rfl
    | ⟨1, _⟩ => show k2.val = k0_off2 kk 2 + 1 * k2.val; rw [o22]; omega

end First

/-! ## The second loop: the pooled-keys scratch -/

section Second

variable (c : Dev nD) (i : grid0.Coords) (arg1 : Memref sig .tc .vmem S128x32x512 .f32) (harg1 : arg1.IsWhole) (arg2 : Memref sig .tc .vmem S128x32x64 .f32) (harg2 : arg2.IsWhole) (arg3 : Memref sig .tc .vmem S128x512 .f32) (harg3 : arg3.IsWhole) (arg4 : Memref sig .tc .vmem S512x4 .f32) (harg4 : arg4.IsWhole) (arg5 : Memref sig .tc .vmem S512x4 .f32) (harg5 : arg5.IsWhole) (arg6 : Memref sig .tc .vmem S64x4 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (arg14 : Memref sig .tc .vmem S128x32x4 .f32) (harg14 : arg14.IsWhole) (arg15 : Memref sig .tc .vmem S128x32x1 .f32) (harg15 : arg15.IsWhole) (arg16 : Memref sig .tc .vmem S128x512 .f32) (harg16 : arg16.IsWhole)
variable (v0 : Vec Ideal S128x512 .f32) (v32 : FVec Ideal S128x32x4 .f32) (v33 : FVec Ideal S128x4 .f32)
  (X1 : BufTy.Contents (Elt Ideal) arg1.view.ty) (X15 : BufTy.Contents (Elt Ideal) arg15.view.ty)
  (G : BufTy.Contents (Elt Ideal) arg16.view.ty)

/-- Trip k's one piece: the whole block, at what the trip found there plus the group's weighted key rows. -/
theorem tripL2_eq (k : Fin k0_t2_loop.trips) (f : BufTy.Contents (Elt Ideal) arg16.view.ty) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 k f
      = [⟨Rect.unit (s := S128x512) ![0, 0] S128x512.size inb_S128x512_S128x512_0_0,
          k0_pay6 (View.readAt (Elt Ideal) arg1.view (Rect.unit (s := S128x32x512) (k0_off3 k) S128x8x512.size (k0_off3_inb k)).toLoadRect X1)
            (View.readAt (Elt Ideal) arg15.view (Rect.unit (s := S128x32x1) (k0_off4 k) S128x8x1.size (k0_off4_inb k)).toLoadRect X15)
            (View.readAt (Elt Ideal) arg16.view (Rect.unit (s := S128x512) ![0, 0] S128x512.size inb_S128x512_S128x512_0_0).toLoadRect f)⟩] := by
  unfold tripL_k0_t2 trip_k0_t2; rfl

/-- The pooled-keys scratch read whole after n trips, started from contents G. -/
def acc (n : ℕ) : S128x512.Idx → EReal :=
  arg16.view.read (Elt Ideal) (arg16.view.writes (Elt Ideal) G
    (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G n))

theorem acc_zero : acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G 0 = arg16.view.read (Elt Ideal) G := rfl

/-- One trip: the group's contribution on top of what the trips before left. -/
theorem acc_succ (k : Fin k0_t2_loop.trips) :
    acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G (k.val + 1)
      = k0_pay6 (View.readAt (Elt Ideal) arg1.view (Rect.unit (s := S128x32x512) (k0_off3 k) S128x8x512.size (k0_off3_inb k)).toLoadRect X1)
          (View.readAt (Elt Ideal) arg15.view (Rect.unit (s := S128x32x1) (k0_off4 k) S128x8x1.size (k0_off4_inb k)).toLoadRect X15)
          (acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G k.val) := by
  unfold acc
  rw [pb_k0_t2_succ, tripL2_eq, List.cons_append, List.nil_append, read_writes_cons_unit_zero _ _ hz2,
    readAt_unit_zero _ hz2]

/-- One trip at an entry: the eight rows g … g+7 of the group, each key row weighted by its point's summed
    attention weights, on top of what was there. -/
theorem acc_step
    (hP6 : ∀ (v120 : Vec Ideal S128x8x512 .f32) (v122 : Vec Ideal S128x8x1 .f32) (v126 : Vec Ideal S128x512 .f32)
      (b : Fin 128) (d : Fin 512), k0_pay6 (F := Ideal) v120 v122 v126 (ix2 b d)
        = v126 (ix2 b d) + ∑ ii : Fin 8, v122 (ix3 b ii (0 : Fin 1)) * v120 (ix3 b ii d))
    (x0 : Vec Ideal S128x32x512 .f32) (hX1 : X1 = harg1.unread x0) (b : Fin 128) (A : Fin 32 → Fin 4 → EReal)
    (hW : ∀ n : Fin 32, arg15.view.read (Elt Ideal) X15 (ix3 b n (0 : Fin 1)) = ∑ k : Fin 4, A n k) (dd : Fin 512)
    (k : Fin k0_t2_loop.trips) (g : ℕ) (hg : g = 8 * k.val) (hlt : ∀ ii : Fin 8, g + ii.val < 32) :
    acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G (k.val + 1) (ix2 b dd)
      = acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G k.val (ix2 b dd)
        + ∑ ii : Fin 8, (∑ kk : Fin 4, A ⟨g + ii.val, hlt ii⟩ kk) * x0 (ix3 b ⟨g + ii.val, hlt ii⟩ dd) := by
  rw [acc_succ, hP6]
  refine congrArg (_ + ·) (Finset.sum_congr rfl fun ii _ => ?_)
  have o3 : k0_off3 k = ![0, 8 * k.val, 0] := k0_off3_eq k
  have o4 : k0_off4 k = ![0, 8 * k.val, 0] := k0_off4_eq k
  rw [View.readAt_apply, View.readAt_apply, hX1, harg1.read_unread, ← hW ⟨g + ii.val, hlt ii⟩]
  refine congrArg₂ (· * ·) (congrArg _ ?_) (congrArg x0 ?_)
  · funext a; apply Fin.ext
    match a with
    | ⟨0, _⟩ => show k0_off4 k 0 + 1 * b.val = b.val; rw [o4]; show 0 + 1 * b.val = b.val; omega
    | ⟨1, _⟩ => show k0_off4 k 1 + 1 * ii.val = g + ii.val; rw [o4, hg]; show 8 * k.val + 1 * ii.val = 8 * k.val + ii.val; omega
    | ⟨2, _⟩ => show k0_off4 k 2 + 1 * 0 = 0; rw [o4]; rfl
  · funext a; apply Fin.ext
    match a with
    | ⟨0, _⟩ => show k0_off3 k 0 + 1 * b.val = b.val; rw [o3]; show 0 + 1 * b.val = b.val; omega
    | ⟨1, _⟩ => show k0_off3 k 1 + 1 * ii.val = g + ii.val; rw [o3, hg]; show 8 * k.val + 1 * ii.val = 8 * k.val + ii.val; omega
    | ⟨2, _⟩ => show k0_off3 k 2 + 1 * dd.val = dd.val; rw [o3]; show 0 + 1 * dd.val = dd.val; omega

theorem trips2_eq : k0_t2_loop.trips = 4 := by decide

/-- After the four trips, from a zeroed scratch: the four groups' sums added up in order. -/
theorem acc_four
    (hP6 : ∀ (v120 : Vec Ideal S128x8x512 .f32) (v122 : Vec Ideal S128x8x1 .f32) (v126 : Vec Ideal S128x512 .f32)
      (b : Fin 128) (d : Fin 512), k0_pay6 (F := Ideal) v120 v122 v126 (ix2 b d)
        = v126 (ix2 b d) + ∑ ii : Fin 8, v122 (ix3 b ii (0 : Fin 1)) * v120 (ix3 b ii d))
    (hG : ∀ j, arg16.view.read (Elt Ideal) G j = 0)
    (x0 : Vec Ideal S128x32x512 .f32) (hX1 : X1 = harg1.unread x0) (b : Fin 128) (A : Fin 32 → Fin 4 → EReal)
    (hW : ∀ n : Fin 32, arg15.view.read (Elt Ideal) X15 (ix3 b n (0 : Fin 1)) = ∑ k : Fin 4, A n k) (dd : Fin 512) :
    acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G 4 (ix2 b dd) = Cert.Spec.poolK A (fun n e => x0 (ix3 b n e)) dd := by
  have e3 := acc_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G hP6 x0 hX1 b A hW dd ⟨3, by rw [trips2_eq]; omega⟩ 24 rfl (fun ii => by omega)
  have e2 := acc_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G hP6 x0 hX1 b A hW dd ⟨2, by rw [trips2_eq]; omega⟩ 16 rfl (fun ii => by omega)
  have e1 := acc_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G hP6 x0 hX1 b A hW dd ⟨1, by rw [trips2_eq]; omega⟩ 8 rfl (fun ii => by omega)
  have e0 := acc_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G hP6 x0 hX1 b A hW dd ⟨0, by rw [trips2_eq]; omega⟩ 0 rfl (fun ii => by omega)
  have z : acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v32 v33 X1 X15 G 0 (ix2 b dd) = 0 := by rw [acc_zero]; exact hG _
  unfold Cert.Spec.poolK
  exact e3.trans (by rw [e2, e1, e0, z])

end Second

end Cert.KernelIdeal.KTrips

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«109109_j40484361732519_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibLayerNorm.lean ====
/-
  Layer normalisation of a row on the extended reals, and a kernel tile's layer normalisation read at an entry
  (every extent generic).

  `rowMean cnt a` is the row's sum divided by `cnt`; `lnorm cnt eps a g b c` is
  (a c − mean a) · rsqrt (mean ((a − mean a)²) + eps) · g c + b c, every operation the exact one.
  A kernel body that layer-normalises an [a, b] tile `v` forms the column of row means — the lane sum of each row,
  recast to [a, 1] and divided by the count —, subtracts it broadcast over the tile, forms the column of means of
  the squared centred tile in the same way, adds ε, takes the reciprocal square root, broadcasts that column, and
  multiplies the centred tile by it, by a [1, b] scale row and adds a [1, b] shift row, both broadcast down the rows
  (`meanCol`, `centred`, `normed`: mean, centring, second moment, reciprocal square root, scale, shift, in that order).
  Entry (p, c) of the result is `lnorm` of row `p` at column `c`: each column-valued step reads row `p`, each
  row-valued step reads column `c`.
  Also: a unit-stride slice of columns `o .. o + n` of an [a, N] tile reads column `o + c`; a vector recast to a
  one-row matrix reads the vector; `rsqrt`, `logistic`, `tanh` of a vector at an index.
-/
import proofs.«109109_j40484361732519_2_alg».proof.Proof.LibRowOps
import proofs.«109109_j40484361732519_2_alg».proof.Proof.LibDotRecord

noncomputable section

namespace LayerNorm

open Idealize.ShloMosaic Idealize.ShloMosaic.ValueIdx

variable {a b : ℕ}

/-- The mean of a row: its sum divided by the count. -/
def rowMean {n : ℕ} (cnt : EReal) (a : Fin n → EReal) : EReal := Ideal.div (∑ k, a k) cnt

/-- Layer normalisation of a row with scale `g` and shift `b`, at entry `c`. -/
def lnorm {n : ℕ} (cnt eps : EReal) (a g b : Fin n → EReal) (c : Fin n) : EReal :=
  (a c - rowMean cnt a) * Ideal.rsqrt (rowMean cnt (fun k => (a k - rowMean cnt a) * (a k - rowMean cnt a)) + eps) * g c + b c

/-- A vector's reciprocal square root, at an index. -/
theorem rsqrt_apply {s : Shape} (v : FVec Ideal s .f32) (i : s.Idx) : rsqrt v i = Ideal.rsqrt (v i) := rfl
/-- A vector's logistic, at an index. -/
theorem logistic_apply {s : Shape} (v : FVec Ideal s .f32) (i : s.Idx) : logistic v i = Ideal.logistic (v i) := rfl
/-- A vector's hyperbolic tangent, at an index. -/
theorem tanh_apply {s : Shape} (v : FVec Ideal s .f32) (i : s.Idx) : tanh v i = Ideal.tanh (v i) := rfl

/-- A vector recast to a one-row matrix reads, at (0, j), the vector at j. -/
theorem rowOf_apply {α : Type} {n : ℕ} (v : (⟨1, ![n]⟩ : Shape).Idx → α) (h : (⟨1, ![n]⟩ : Shape).ShapeCasts ⟨2, ![1, n]⟩)
    (u : Fin 1) (j : Fin n) : shapeCast ⟨2, ![1, n]⟩ v h (ix2 u j) = v (ix1 j) :=
  shapeCast_apply v h _ _ (by
    have hu : u.val = 0 := by omega
    rw [Shape.rowMajor_val_two, Shape.rowMajor_val_one]
    show j.val = u.val * n + j.val
    rw [hu, Nat.zero_mul, Nat.zero_add])

/-- Columns `o .. o + n` of an [a, N] tile, at (p, c): the tile at (p, o + c). -/
theorem sliceCols_apply {α : Type} {N n : ℕ} (o : ℕ) (v : (⟨2, ![a, N]⟩ : Shape).Idx → α)
    (h : (⟨2, ![a, N]⟩ : Shape).Slices ![0, o] ⟨2, ![a, n]⟩) (p : Fin a) (c : Fin n) (c' : Fin N) (hc : c'.val = o + c.val) :
    extractStridedSlice ⟨2, ![a, n]⟩ ![0, o] v h (ix2 p c) = v (ix2 p c') :=
  extractStridedSlice_apply ![0, o] v h (ix2 p c) (ix2 p c') fun ax => by
    match ax with
    | ⟨0, _⟩ => show p.val = 0 + p.val; omega
    | ⟨1, _⟩ => exact hc

/-- The column of row means of a tile: lane sums, recast to a column, divided by the count word. -/
def meanCol (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ v 0x00000000#32 hR hφ hacc) hC)
    (broadcast ⟨2, ![a, 1]⟩ (Scalar.ofBits .f32 wc : Ideal .f32))

/-- Row `p` of the mean column is the mean of row `p`. -/
theorem meanCol_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (p : Fin a) :
    meanCol v wc hR hφ hacc hC (ix2 p (0 : Fin 1)) = rowMean (Ideal.ofBits .f32 wc) (fun k => v (ix2 p k)) := by
  unfold meanCol rowMean
  rw [divf_apply, Gcn.Lib.shapeCast_a_a1_apply, Gcn.Lib.rowSum_apply]
  rfl

/-- The tile minus its row means. -/
def centred (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  subf v (broadcastTo ⟨2, ![a, b]⟩ (meanCol v wc hR hφ hacc hC) hB)

/-- Entry (p, c) of the centred tile: the entry minus the mean of row `p`. -/
theorem centred_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (p : Fin a) (c : Fin b) :
    centred v wc hR hφ hacc hC hB (ix2 p c) = v (ix2 p c) - rowMean (Ideal.ofBits .f32 wc) (fun k => v (ix2 p k)) := by
  unfold centred
  rw [subf_apply, Gcn.Lib.broadcastTo_a1_ab_apply, meanCol_apply]

/-- The layer-normalised tile with scale row `g` and shift row `bb`. -/
def normed (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) : FVec Ideal ⟨2, ![a, b]⟩ .f32 :=
  addf (mulf (mulf (centred v wc hR hφ hacc hC hB)
      (broadcastTo ⟨2, ![a, b]⟩ (rsqrt (addf
        (meanCol (mulf (centred v wc hR hφ hacc hC hB) (centred v wc hR hφ hacc hC hB)) wc hR hφ hacc hC)
        (broadcast ⟨2, ![a, 1]⟩ (Scalar.ofBits .f32 we : Ideal .f32)))) hB))
      (broadcastTo ⟨2, ![a, b]⟩ g hG))
    (broadcastTo ⟨2, ![a, b]⟩ bb hG)

/-- Entry (p, c) of the normalised tile is the layer norm of row `p` at column `c`. -/
theorem normed_apply (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) (p : Fin a) (c : Fin b) :
    normed v g bb wc we hR hφ hacc hC hB hG (ix2 p c)
      = lnorm (Ideal.ofBits .f32 wc) (Ideal.ofBits .f32 we) (fun k => v (ix2 p k))
          (fun k => g (ix2 (0 : Fin 1) k)) (fun k => bb (ix2 (0 : Fin 1) k)) c := by
  unfold normed lnorm
  rw [addf_apply, mulf_apply, mulf_apply, Gcn.Lib.broadcastTo_a1_ab_apply, DotRecord.broadcastTo_1b_ab_apply,
    DotRecord.broadcastTo_1b_ab_apply, rsqrt_apply, addf_apply, broadcast_apply, centred_apply, meanCol_apply]
  simp only [mulf_apply, centred_apply]
  rfl

end LayerNorm

end
-- ==== Proof.LibTreeOps.lean ====
/-
  A tile body of a child-sum tree recurrence, read at an entry, on the extended reals.

  A body that handles a tile of `n` nodes, each with `m` children of `K` numbers, meets the same few forms again and
  again:
    • a bias row `[1, c]` repeated down the tile's `n` rows (or, in a tile of one node, left as it is), or — through
      `[1, 1, c]` — over all `n × m` children;
    • an `[n, c]` matrix given a unit middle axis and repeated over the `m` children;
    • the sum over the `m` children (the middle axis of an `[n, m, c]` array);
    • a product of the tile (or of the children's sum) with a weight matrix, both operands first cast to a narrower
      float format — on the extended reals such a cast is the identity, and the matrix unit accumulating into zero is
      the textbook sum over the contracted axis;
    • the per-child product: the `[n, m, K]` children flattened to `[n·m, K]`, multiplied by a `[K, N]` matrix, and
      the result folded back to `[n, m, N]` — at `(r, k, p)` the sum over `j` of child `(r, k)`'s entry `j` times
      `W (j, p)`, because row `r·m + k` of the flattened array is child `k` of node `r`.
  Every extent is generic and every shape fact is a hypothesis. The last section reads a pointwise combination at an
  index from its operands at that index, so that a body's value at an entry is assembled term by term.
-/
import Idealize.ShloMosaic.PureOps.Ideal.Laws
import Idealize.ShloMosaic.Lib.ValueIdx
import Idealize.ShloMosaic.Lib.ValueLayout
import Idealize.ShloMosaic.Lib.Pipeline.Value
import proofs.«109109_j40484361732519_2_alg».proof.Proof.LibPlainDot

namespace Tree.Lib

open Idealize.ShloMosaic Idealize.ShloMosaic.ValueIdx

variable {n m c K N : ℕ}

/-! ## Bias rows and a matrix spread over the children -/

section Layout
variable {α : Type}

/-- A `[1, c]` row cast to its own shape and broadcast over `[n, c]` reads, at `(r, p)`, the row at `p`. -/
theorem biasRow_apply (v : (⟨2, ![1, c]⟩ : Shape).Idx → α) (h0 : (⟨2, ![1, c]⟩ : Shape).ShapeCasts ⟨2, ![1, c]⟩)
    (h1 : (⟨2, ![1, c]⟩ : Shape).Broadcasts ⟨2, ![n, c]⟩) (r : Fin n) (p : Fin c) :
    broadcastTo ⟨2, ![n, c]⟩ (shapeCast ⟨2, ![1, c]⟩ v h0) h1 (ix2 r p) = v (ix2 (0 : Fin 1) p) := by
  rw [shapeCast_self]
  exact broadcastTo_1b_ab_apply v h1 r p

/-- A `[1, c]` row cast to its own shape reads, at `(r, p)` — `r` the one row —, the row at `p`: what a bias row is
    in a tile of a single node, where no broadcast is printed. -/
theorem selfRow_apply (v : (⟨2, ![1, c]⟩ : Shape).Idx → α) (h0 : (⟨2, ![1, c]⟩ : Shape).ShapeCasts ⟨2, ![1, c]⟩)
    (r : Fin 1) (p : Fin c) : shapeCast ⟨2, ![1, c]⟩ v h0 (ix2 r p) = v (ix2 (0 : Fin 1) p) := by
  rw [shapeCast_self]
  exact congrArg (fun u => v (ix2 u p)) (Subsingleton.elim r 0)

/-- A `[1, 1, c]` array broadcast over `[n, m, c]` reads, at `(r, k, p)`, its one fibre at `p`. -/
theorem broadcastTo_11c_nmc_apply (v : (⟨3, ![1, 1, c]⟩ : Shape).Idx → α)
    (h : (⟨3, ![1, 1, c]⟩ : Shape).Broadcasts ⟨3, ![n, m, c]⟩) (r : Fin n) (k : Fin m) (p : Fin c) :
    broadcastTo ⟨3, ![n, m, c]⟩ v h (ix3 r k p) = v (ix3 (0 : Fin 1) (0 : Fin 1) p) := by
  refine broadcastTo_apply v h (ix3 r k p) (ix3 (0 : Fin 1) (0 : Fin 1) p) fun ax => ?_
  match ax with
  | ⟨0, _⟩ => rfl
  | ⟨1, _⟩ => rfl
  | ⟨2, _⟩ =>
    show p.val = if c = 1 then 0 else p.val
    split
    · have := p.isLt; omega
    · rfl

/-- A `[1, c]` row cast to its own shape, then to `[1, 1, c]`, and broadcast over `[n, m, c]` reads, at `(r, k, p)`,
    the row at `p`. -/
theorem biasRow3_apply (v : (⟨2, ![1, c]⟩ : Shape).Idx → α) (h0 : (⟨2, ![1, c]⟩ : Shape).ShapeCasts ⟨2, ![1, c]⟩)
    (h1 : (⟨2, ![1, c]⟩ : Shape).ShapeCasts ⟨3, ![1, 1, c]⟩) (h2 : (⟨3, ![1, 1, c]⟩ : Shape).Broadcasts ⟨3, ![n, m, c]⟩)
    (r : Fin n) (k : Fin m) (p : Fin c) :
    broadcastTo ⟨3, ![n, m, c]⟩ (shapeCast ⟨3, ![1, 1, c]⟩ (shapeCast ⟨2, ![1, c]⟩ v h0) h1) h2 (ix3 r k p)
      = v (ix2 (0 : Fin 1) p) := by
  rw [shapeCast_self]
  exact (broadcastTo_11c_nmc_apply _ h2 r k p).trans (shapeCast_ab_1ab_apply v h1 0 0 p)

/-- An `[n, c]` matrix cast to `[n, 1, c]` reads, at `(r, u, p)`, the matrix at `(r, p)`. -/
theorem shapeCast_nc_n1c_apply (v : (⟨2, ![n, c]⟩ : Shape).Idx → α) (h : (⟨2, ![n, c]⟩ : Shape).ShapeCasts ⟨3, ![n, 1, c]⟩)
    (r : Fin n) (u : Fin 1) (p : Fin c) : shapeCast ⟨3, ![n, 1, c]⟩ v h (ix3 r u p) = v (ix2 r p) :=
  shapeCast_apply v h _ _ (by
    have hu : u.val = 0 := by omega
    rw [Shape.rowMajor_val_three, Shape.rowMajor_val_two]
    show r.val * c + p.val = (r.val * 1 + u.val) * c + p.val
    rw [hu, Nat.mul_one, Nat.add_zero])

/-- An `[n, 1, c]` array broadcast along its middle axis over `[n, m, c]` reads, at `(r, k, p)`, the operand at
    `(r, 0, p)`. -/
theorem broadcastTo_n1c_nmc_apply (v : (⟨3, ![n, 1, c]⟩ : Shape).Idx → α)
    (h : (⟨3, ![n, 1, c]⟩ : Shape).Broadcasts ⟨3, ![n, m, c]⟩) (r : Fin n) (k : Fin m) (p : Fin c) :
    broadcastTo ⟨3, ![n, m, c]⟩ v h (ix3 r k p) = v (ix3 r (0 : Fin 1) p) := by
  refine broadcastTo_apply v h (ix3 r k p) (ix3 r (0 : Fin 1) p) fun ax => ?_
  match ax with
  | ⟨0, _⟩ =>
    show r.val = if n = 1 then 0 else r.val
    split
    · have := r.isLt; omega
    · rfl
  | ⟨1, _⟩ => rfl
  | ⟨2, _⟩ =>
    show p.val = if c = 1 then 0 else p.val
    split
    · have := p.isLt; omega
    · rfl

/-- An `[n, c]` matrix given a unit middle axis and repeated over the `m` children reads, at `(r, k, p)`, the matrix
    at `(r, p)`. -/
theorem spreadMiddle_apply (v : (⟨2, ![n, c]⟩ : Shape).Idx → α) (h1 : (⟨2, ![n, c]⟩ : Shape).ShapeCasts ⟨3, ![n, 1, c]⟩)
    (h2 : (⟨3, ![n, 1, c]⟩ : Shape).Broadcasts ⟨3, ![n, m, c]⟩) (r : Fin n) (k : Fin m) (p : Fin c) :
    broadcastTo ⟨3, ![n, m, c]⟩ (shapeCast ⟨3, ![n, 1, c]⟩ v h1) h2 (ix3 r k p) = v (ix2 r p) :=
  (broadcastTo_n1c_nmc_apply _ h2 r k p).trans (shapeCast_nc_n1c_apply v h1 r 0 p)

end Layout

/-! ## The sum over the children -/

/-- Over the middle axis of an `[n, m, c]` array: `(r, p)` with the middle coordinate `k` put back is `(r, k, p)`. -/
theorem lift_middle (h : Shape.Reduces ⟨3, ![n, m, c]⟩ [1] ⟨2, ![n, c]⟩) (r : Fin n) (p : Fin c) (k : Fin m) :
    h.lift (ix2 r p) k = ix3 r k p := by
  funext d
  apply Fin.ext
  match d with
  | ⟨0, _⟩ => rfl
  | ⟨1, _⟩ => rfl
  | ⟨2, _⟩ => rfl

/-- A `multi_reduction <add>` along the middle axis of an `[n, m, c]` array, at `(r, p)`: the sum over the `m`
    middle coordinates. -/
theorem sumMiddle_apply (v : FVec Ideal ⟨3, ![n, m, c]⟩ .f32) (h : Shape.Reduces ⟨3, ![n, m, c]⟩ [1] ⟨2, ![n, c]⟩)
    (hφ : FKind.Formats .f32) (hacc : (0x00000000#32 : BitVec 32) = FKind.add.neutral .f32 hφ) (r : Fin n) (p : Fin c) :
    multiReduction .add [1] ⟨2, ![n, c]⟩ v 0x00000000#32 h hφ hacc (ix2 r p) = ∑ k : Fin m, v (ix3 r k p) := by
  refine (Ideal.multiReduction_add_single v 0x00000000#32 h hφ hacc (ix2 r p)).trans ?_
  exact Finset.sum_congr rfl fun k _ => congrArg v (lift_middle h r p k)

/-! ## Products with a weight matrix -/

/-- The tile, cast to its own shape and then to a narrower format, against a weight matrix cast to that format, into
    the zero accumulator: at `(r, p)` the sum over the contracted axis of the tile's row `r` against column `p`. -/
theorem xW_apply {ψ : FTy} (x : FVec Ideal ⟨2, ![n, K]⟩ .f32) (W : FVec Ideal ⟨2, ![K, N]⟩ .f32)
    (hs : (⟨2, ![n, K]⟩ : Shape).ShapeCasts ⟨2, ![n, K]⟩) (hb : ψ.bits < FTy.bits .f32)
    (prec : Option ContractPrecision) (r : Fin n) (p : Fin N) :
    FloatOps.matmul (DotDims.plain n K N) prec (truncf ψ (shapeCast ⟨2, ![n, K]⟩ x hs) hb) (truncf ψ W hb)
        (constant ⟨2, ![n, N]⟩ .f32 0x00000000#32) (ix2 r p)
      = ∑ k : Fin K, x (ix2 r k) * W (ix2 k p) := by
  rw [shapeCast_self]
  exact Gcn.Lib.plain_matmul_zero_apply (truncf ψ x hb) (truncf ψ W hb) prec r p

/-- The children's sum (the children cast to their own shape, summed over the middle axis, cast to a narrower format)
    against a weight matrix: at `(r, p)` the sum over `j` of (the sum over the children of entry `j`) times `W (j, p)`. -/
theorem hsumW_apply {ψ : FTy} (ch : FVec Ideal ⟨3, ![n, m, K]⟩ .f32) (W : FVec Ideal ⟨2, ![K, N]⟩ .f32)
    (hs : (⟨3, ![n, m, K]⟩ : Shape).ShapeCasts ⟨3, ![n, m, K]⟩) (h : Shape.Reduces ⟨3, ![n, m, K]⟩ [1] ⟨2, ![n, K]⟩)
    (hφ : FKind.Formats .f32) (hacc : (0x00000000#32 : BitVec 32) = FKind.add.neutral .f32 hφ)
    (hb : ψ.bits < FTy.bits .f32) (prec : Option ContractPrecision) (r : Fin n) (p : Fin N) :
    FloatOps.matmul (DotDims.plain n K N) prec
        (truncf ψ (multiReduction .add [1] ⟨2, ![n, K]⟩ (shapeCast ⟨3, ![n, m, K]⟩ ch hs) 0x00000000#32 h hφ hacc) hb)
        (truncf ψ W hb) (constant ⟨2, ![n, N]⟩ .f32 0x00000000#32) (ix2 r p)
      = ∑ j : Fin K, (∑ k : Fin m, ch (ix3 r k j)) * W (ix2 j p) := by
  rw [shapeCast_self]
  refine (Gcn.Lib.plain_matmul_zero_apply _ _ prec r p).trans (Finset.sum_congr rfl fun j _ => ?_)
  exact congrArg (· * W (ix2 j p)) (sumMiddle_apply ch h hφ hacc r j)

/-- Row `r·m + k` of the flattened children is child `k` of node `r`. -/
theorem flat_lt (r : Fin n) (k : Fin m) : r.val * m + k.val < n * m := by
  have h1 : (r.val + 1) * m ≤ n * m := Nat.mul_le_mul_right m r.isLt
  have h2 : (r.val + 1) * m = r.val * m + m := Nat.succ_mul _ _
  have := k.isLt
  omega

/-- The per-child product: the `[n, m, K]` children flattened to `[M, K]`, `M = n·m`, cast to a narrower format,
    multiplied by the weight matrix into the zero accumulator, and folded back to `[n, m, N]`: at `(r, k, p)` the sum
    over `j` of child `(r, k)`'s entry `j` times `W (j, p)`. -/
theorem childW_apply {ψ : FTy} (M : ℕ) (hM : M = n * m) (ch : FVec Ideal ⟨3, ![n, m, K]⟩ .f32)
    (W : FVec Ideal ⟨2, ![K, N]⟩ .f32) (hs : (⟨3, ![n, m, K]⟩ : Shape).ShapeCasts ⟨3, ![n, m, K]⟩)
    (h1 : (⟨3, ![n, m, K]⟩ : Shape).ShapeCasts ⟨2, ![M, K]⟩) (h2 : (⟨2, ![M, N]⟩ : Shape).ShapeCasts ⟨3, ![n, m, N]⟩)
    (hb : ψ.bits < FTy.bits .f32) (prec : Option ContractPrecision) (r : Fin n) (k : Fin m) (p : Fin N) :
    shapeCast ⟨3, ![n, m, N]⟩
        (FloatOps.matmul (DotDims.plain M K N) prec
          (truncf ψ (shapeCast ⟨2, ![M, K]⟩ (shapeCast ⟨3, ![n, m, K]⟩ ch hs) h1) hb) (truncf ψ W hb)
          (constant ⟨2, ![M, N]⟩ .f32 0x00000000#32)) h2 (ix3 r k p)
      = ∑ j : Fin K, ch (ix3 r k j) * W (ix2 j p) := by
  subst hM
  rw [shapeCast_self]
  refine (shapeCast_apply _ h2 (ix3 r k p) (ix2 ⟨r.val * m + k.val, flat_lt r k⟩ p) ?_).trans ?_
  · rw [Shape.rowMajor_val_two, Shape.rowMajor_val_three]
    rfl
  refine (Gcn.Lib.plain_matmul_zero_apply _ _ prec _ p).trans (Finset.sum_congr rfl fun j _ => ?_)
  refine congrArg (· * W (ix2 j p)) ?_
  exact shapeCast_apply ch h1 (ix2 ⟨r.val * m + k.val, flat_lt r k⟩ j) (ix3 r k j) (by
    rw [Shape.rowMajor_val_two, Shape.rowMajor_val_three]
    rfl)

/-! ## A pointwise combination at an index, from its operands at that index -/

section Pointwise
variable {s : Shape} {φ : FTy}

/-- A sum at an index, from the summands there. -/
theorem addf_at {a b : FVec Ideal s φ} {i : s.Idx} {x y : EReal} (ha : a i = x) (hb : b i = y) :
    addf a b i = x + y := congrArg₂ (· + ·) ha hb

/-- A product at an index, from the factors there. -/
theorem mulf_at {a b : FVec Ideal s φ} {i : s.Idx} {x y : EReal} (ha : a i = x) (hb : b i = y) :
    mulf a b i = x * y := congrArg₂ (· * ·) ha hb

/-- The logistic function at an index, from its argument there. -/
theorem logistic_at {a : FVec Ideal s φ} {i : s.Idx} {x : EReal} (ha : a i = x) :
    logistic a i = Ideal.logistic x := congrArg Ideal.logistic ha

/-- The hyperbolic tangent at an index, from its argument there. -/
theorem tanh_at {a : FVec Ideal s φ} {i : s.Idx} {x : EReal} (ha : a i = x) :
    tanh a i = Ideal.tanh x := congrArg Ideal.tanh ha

end Pointwise

end Tree.Lib
-- ==== Proof.LibAttnTile.lean ====
/-
  Tile forms of an attention-pooling body, read at an entry, on the extended reals (every extent generic).

  • The largest entry along the MIDDLE axis of an [n, m, c] array (a reduction with the maximum from the word of -∞):
    at (r, p) the fold of max from ⊥ over the m middle coordinates.
  • An [n, m] matrix given a trailing unit axis, and an [n, m, 1] array repeated along its last axis over [n, m, c].
  • The softmax numerator and normalizer over the middle axis: e^(v − its largest entry along the axis), and the sum
    of those along the axis.
  • The per-point product: [n, m, K] points flattened to [n·m, K], times a [K, N] weight matrix, folded back.
  • The closing steps of a layer norm whose centred tile and second-moment column are already at hand:
    ((scale row · centred tile) · rsqrt (moment column + ε)) + shift row, in exactly that order of operations;
    and the whole norm of a tile (mean column, centred tile, second-moment column, then those closing steps).
-/
import Idealize.ShloMosaic.PureOps.Ideal.Laws
import Idealize.ShloMosaic.Lib.ValueIdx
import Idealize.ShloMosaic.Lib.ValueLayout
import Idealize.ShloMosaic.Lib.Pipeline.Value
import proofs.«109109_j40484361732519_2_alg».proof.Proof.LibRowOps
import proofs.«109109_j40484361732519_2_alg».proof.Proof.LibDotRecord
import proofs.«109109_j40484361732519_2_alg».proof.Proof.LibLayerNorm
import proofs.«109109_j40484361732519_2_alg».proof.Proof.LibTreeOps

noncomputable section

namespace AttnTile

open Idealize.ShloMosaic Idealize.ShloMosaic.ValueIdx

variable {n m c a b : ℕ}

/-! ## Layout -/

/-- An `[n, m]` matrix cast to `[n, m, 1]` reads, at `(r, k, u)`, the matrix at `(r, k)`. -/
theorem shapeCast_nm_nm1_apply {α : Type} (v : (⟨2, ![n, m]⟩ : Shape).Idx → α)
    (h : (⟨2, ![n, m]⟩ : Shape).ShapeCasts ⟨3, ![n, m, 1]⟩) (r : Fin n) (k : Fin m) (u : Fin 1) :
    shapeCast ⟨3, ![n, m, 1]⟩ v h (ix3 r k u) = v (ix2 r k) :=
  shapeCast_apply v h _ _ (by
    have hu : u.val = 0 := by omega
    rw [Shape.rowMajor_val_three, Shape.rowMajor_val_two]
    show r.val * m + k.val = (r.val * m + k.val) * 1 + u.val
    rw [hu, Nat.mul_one, Nat.add_zero])

/-- An `[n, m, 1]` array repeated along its last axis over `[n, m, c]` reads, at `(r, k, p)`, the operand at
    `(r, k, 0)`. -/
theorem broadcastTo_nm1_nmc_apply {α : Type} (v : (⟨3, ![n, m, 1]⟩ : Shape).Idx → α)
    (h : (⟨3, ![n, m, 1]⟩ : Shape).Broadcasts ⟨3, ![n, m, c]⟩) (r : Fin n) (k : Fin m) (p : Fin c) :
    broadcastTo ⟨3, ![n, m, c]⟩ v h (ix3 r k p) = v (ix3 r k (0 : Fin 1)) := by
  refine broadcastTo_apply v h (ix3 r k p) (ix3 r k (0 : Fin 1)) fun ax => ?_
  match ax with
  | ⟨0, _⟩ =>
    show r.val = if n = 1 then 0 else r.val
    split
    · have := r.isLt; omega
    · rfl
  | ⟨1, _⟩ =>
    show k.val = if m = 1 then 0 else k.val
    split
    · have := k.isLt; omega
    · rfl
  | ⟨2, _⟩ => rfl

/-! ## The largest entry along the middle axis -/

/-- A `multi_reduction <maximumf>` along the middle axis of an `[n, m, c]` array from the word of -∞, at `(r, p)`:
    the fold of `max` from `⊥` over the `m` middle coordinates. -/
theorem maxMiddle_apply (v : FVec Ideal ⟨3, ![n, m, c]⟩ .f32) (h : Shape.Reduces ⟨3, ![n, m, c]⟩ [1] ⟨2, ![n, c]⟩)
    (hφ : FKind.Formats .f32) (hacc : (0xFF800000#32 : BitVec 32) = FKind.maximumf.neutral .f32 hφ) (r : Fin n) (p : Fin c) :
    multiReduction .maximumf [1] ⟨2, ![n, c]⟩ v 0xFF800000#32 h hφ hacc (ix2 r p)
      = (Finset.univ : Finset (Fin m)).fold max ⊥ (fun k => v (ix3 r k p)) := by
  refine (Ideal.multiReduction_maximumf_single v 0xFF800000#32 h hφ hacc (ix2 r p)).trans ?_
  show (Finset.univ : Finset (Fin m)).fold max (Ideal.ofBits .f32 0xFF800000#32) (v ∘ h.lift (ix2 r p)) = _
  rw [Gcn.Lib.ofBits_neg_inf_f32]
  exact congrArg (fun f => (Finset.univ : Finset (Fin m)).fold max ⊥ f)
    (funext fun k => congrArg v (Tree.Lib.lift_middle h r p k))

/-! ## Softmax numerator and normalizer over the middle axis -/

/-- e^(v − the largest entry of v along the middle axis): the maximum column given a unit middle axis and repeated
    over the axis, subtracted, and the exponential taken. -/
def expMiddle (v : FVec Ideal ⟨3, ![n, m, c]⟩ .f32) (hR : Shape.Reduces ⟨3, ![n, m, c]⟩ [1] ⟨2, ![n, c]⟩)
    (hφ : FKind.Formats .f32) (hacc : (0xFF800000#32 : BitVec 32) = FKind.maximumf.neutral .f32 hφ)
    (hC : (⟨2, ![n, c]⟩ : Shape).ShapeCasts ⟨3, ![n, 1, c]⟩) (hB : (⟨3, ![n, 1, c]⟩ : Shape).Broadcasts ⟨3, ![n, m, c]⟩) :
    FVec Ideal ⟨3, ![n, m, c]⟩ .f32 :=
  exp (subf v (broadcastTo ⟨3, ![n, m, c]⟩
    (shapeCast ⟨3, ![n, 1, c]⟩ (multiReduction .maximumf [1] ⟨2, ![n, c]⟩ v 0xFF800000#32 hR hφ hacc) hC) hB))

/-- Entry `(r, k, p)` of the numerator: e^(the entry − the fold of max from ⊥ of the entries `(r, ·, p)`). -/
theorem expMiddle_apply (v : FVec Ideal ⟨3, ![n, m, c]⟩ .f32) (hR : Shape.Reduces ⟨3, ![n, m, c]⟩ [1] ⟨2, ![n, c]⟩)
    (hφ : FKind.Formats .f32) (hacc : (0xFF800000#32 : BitVec 32) = FKind.maximumf.neutral .f32 hφ)
    (hC : (⟨2, ![n, c]⟩ : Shape).ShapeCasts ⟨3, ![n, 1, c]⟩) (hB : (⟨3, ![n, 1, c]⟩ : Shape).Broadcasts ⟨3, ![n, m, c]⟩)
    (r : Fin n) (k : Fin m) (p : Fin c) :
    expMiddle v hR hφ hacc hC hB (ix3 r k p)
      = Ideal.exp (v (ix3 r k p) - (Finset.univ : Finset (Fin m)).fold max ⊥ (fun k' => v (ix3 r k' p))) := by
  unfold expMiddle
  show Ideal.exp (v (ix3 r k p) - broadcastTo ⟨3, ![n, m, c]⟩ _ hB (ix3 r k p)) = _
  rw [Tree.Lib.spreadMiddle_apply, maxMiddle_apply]

/-! ## The per-point product with a weight matrix -/

/-- The `[n, m, K]` points cast to a narrower format and flattened to `[M, K]`, `M = n·m`, multiplied (under any record
    with the plain axis lists) by the `[K, N]` weight matrix — cast to its own shape and to the narrower format — into the
    zero accumulator, and folded back to `[n, m, N]`: at `(r, k, p)` the sum over `j` of point `(r, k)`'s entry `j` times
    `W (j, p)`, because row `r·m + k` of the flattened array is point `k` of row `r`. -/
theorem flatW_apply {ψ : FTy} {K N : ℕ} (M : ℕ) (hM : M = n * m) (ch : FVec Ideal ⟨3, ![n, m, K]⟩ .f32)
    (W : FVec Ideal ⟨2, ![K, N]⟩ .f32) (d : DotDims ⟨2, ![M, K]⟩ ⟨2, ![K, N]⟩ ⟨2, ![M, N]⟩)
    (e1 : d.lhsContracting = [1]) (e2 : d.rhsContracting = [0]) (e3 : d.lhsNonContracting = [0])
    (e4 : d.rhsNonContracting = [1]) (e5 : d.lhsBatch = []) (e6 : d.rhsBatch = [])
    (hs : (⟨2, ![K, N]⟩ : Shape).ShapeCasts ⟨2, ![K, N]⟩)
    (h1 : (⟨3, ![n, m, K]⟩ : Shape).ShapeCasts ⟨2, ![M, K]⟩) (h2 : (⟨2, ![M, N]⟩ : Shape).ShapeCasts ⟨3, ![n, m, N]⟩)
    (hb : ψ.bits < FTy.bits .f32) (prec : Option ContractPrecision) (r : Fin n) (k : Fin m) (p : Fin N) :
    shapeCast ⟨3, ![n, m, N]⟩
        (FloatOps.matmul d prec (shapeCast ⟨2, ![M, K]⟩ (truncf ψ ch hb) h1) (truncf ψ (shapeCast ⟨2, ![K, N]⟩ W hs) hb)
          (constant ⟨2, ![M, N]⟩ .f32 0x00000000#32)) h2 (ix3 r k p)
      = ∑ j : Fin K, ch (ix3 r k j) * W (ix2 j p) := by
  subst hM
  rw [shapeCast_self]
  refine (shapeCast_apply _ h2 (ix3 r k p) (ix2 ⟨r.val * m + k.val, Tree.Lib.flat_lt r k⟩ p) ?_).trans ?_
  · rw [Shape.rowMajor_val_two, Shape.rowMajor_val_three]
    rfl
  refine (DotRecord.matmul_zero_apply d e1 e2 e3 e4 e5 e6 _ _ prec _ p).trans (Finset.sum_congr rfl fun j _ => ?_)
  refine congrArg (· * W (ix2 j p)) ?_
  exact shapeCast_apply (truncf ψ ch hb) h1 (ix2 ⟨r.val * m + k.val, Tree.Lib.flat_lt r k⟩ j) (ix3 r k j) (by
    rw [Shape.rowMajor_val_two, Shape.rowMajor_val_three]
    rfl)

/-- A tile (cast to a narrower format) times a weight matrix (cast to its own shape and to the narrower format) into
    the zero accumulator, under any record with the plain axis lists: at `(r, p)` the sum over the contracted axis. -/
theorem tileW_apply {ψ : FTy} {K N : ℕ} (x : FVec Ideal ⟨2, ![n, K]⟩ .f32) (W : FVec Ideal ⟨2, ![K, N]⟩ .f32)
    (d : DotDims ⟨2, ![n, K]⟩ ⟨2, ![K, N]⟩ ⟨2, ![n, N]⟩)
    (e1 : d.lhsContracting = [1]) (e2 : d.rhsContracting = [0]) (e3 : d.lhsNonContracting = [0])
    (e4 : d.rhsNonContracting = [1]) (e5 : d.lhsBatch = []) (e6 : d.rhsBatch = [])
    (hs : (⟨2, ![K, N]⟩ : Shape).ShapeCasts ⟨2, ![K, N]⟩) (hb : ψ.bits < FTy.bits .f32)
    (prec : Option ContractPrecision) (r : Fin n) (p : Fin N) :
    FloatOps.matmul d prec (truncf ψ x hb) (truncf ψ (shapeCast ⟨2, ![K, N]⟩ W hs) hb)
        (constant ⟨2, ![n, N]⟩ .f32 0x00000000#32) (ix2 r p)
      = ∑ j : Fin K, x (ix2 r j) * W (ix2 j p) := by
  rw [shapeCast_self]
  exact DotRecord.matmul_zero_apply d e1 e2 e3 e4 e5 e6 (truncf ψ x hb) (truncf ψ W hb) prec r p

/-! ## The closing steps of a layer norm, in the order scale · centred · rsqrt + shift -/

/-- The mean of a row: its sum divided by the count. -/
abbrev rowMean {N : ℕ} (cnt : EReal) (x : Fin N → EReal) : EReal := LayerNorm.rowMean cnt x

/-- The row's second central moment. -/
def rowVar {N : ℕ} (cnt : EReal) (x : Fin N → EReal) : EReal :=
  rowMean cnt (fun k => (x k - rowMean cnt x) * (x k - rowMean cnt x))

/-- Layer norm of a row in the order (scale · centred) · rsqrt (moment + ε) + shift. -/
def knorm {N : ℕ} (cnt eps : EReal) (g bb x : Fin N → EReal) (j : Fin N) : EReal :=
  (g j * (x j - rowMean cnt x)) * Ideal.rsqrt (rowVar cnt x + eps) + bb j

/-- ((scale row · centred tile) · rsqrt (moment column + ε)) + shift row. -/
def scaled (g bb : FVec Ideal ⟨2, ![1, b]⟩ .f32) (mom : FVec Ideal ⟨2, ![a, 1]⟩ .f32) (cen : FVec Ideal ⟨2, ![a, b]⟩ .f32)
    (we : BitVec 32) (hB : (⟨2, ![a, 1]⟩ : Shape).Broadcasts ⟨2, ![a, b]⟩)
    (hG : (⟨2, ![1, b]⟩ : Shape).Broadcasts ⟨2, ![a, b]⟩) : FVec Ideal ⟨2, ![a, b]⟩ .f32 :=
  addf (mulf (mulf (broadcastTo ⟨2, ![a, b]⟩ g hG) cen)
      (broadcastTo ⟨2, ![a, b]⟩ (rsqrt (addf mom (broadcast ⟨2, ![a, 1]⟩ (Scalar.ofBits .f32 we : Ideal .f32)))) hB))
    (broadcastTo ⟨2, ![a, b]⟩ bb hG)

/-- Entry `(p, j)` of the closing steps. -/
theorem scaled_apply (g bb : FVec Ideal ⟨2, ![1, b]⟩ .f32) (mom : FVec Ideal ⟨2, ![a, 1]⟩ .f32)
    (cen : FVec Ideal ⟨2, ![a, b]⟩ .f32) (we : BitVec 32) (hB : (⟨2, ![a, 1]⟩ : Shape).Broadcasts ⟨2, ![a, b]⟩)
    (hG : (⟨2, ![1, b]⟩ : Shape).Broadcasts ⟨2, ![a, b]⟩) (p : Fin a) (j : Fin b) :
    scaled g bb mom cen we hB hG (ix2 p j)
      = (g (ix2 (0 : Fin 1) j) * cen (ix2 p j)) * Ideal.rsqrt (mom (ix2 p (0 : Fin 1)) + Ideal.ofBits .f32 we)
          + bb (ix2 (0 : Fin 1) j) := by
  unfold scaled
  rw [addf_apply, mulf_apply, mulf_apply, Gcn.Lib.broadcastTo_a1_ab_apply, DotRecord.broadcastTo_1b_ab_apply,
    DotRecord.broadcastTo_1b_ab_apply, LayerNorm.rsqrt_apply, addf_apply, broadcast_apply]
  rfl

/-- The whole norm of a tile: mean column, centred tile, second-moment column, then the closing steps. -/
def normTile (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) : FVec Ideal ⟨2, ![a, b]⟩ .f32 :=
  scaled g bb
    (LayerNorm.meanCol (mulf (LayerNorm.centred v wc hR hφ hacc hC hB) (LayerNorm.centred v wc hR hφ hacc hC hB)) wc hR hφ hacc hC)
    (LayerNorm.centred v wc hR hφ hacc hC hB) we hB hG

/-- Entry `(p, j)` of the tile's norm is the row's layer norm at `j`. -/
theorem normTile_apply (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) (p : Fin a) (j : Fin b) :
    normTile v g bb wc we hR hφ hacc hC hB hG (ix2 p j)
      = knorm (Ideal.ofBits .f32 wc) (Ideal.ofBits .f32 we) (fun k => g (ix2 (0 : Fin 1) k))
          (fun k => bb (ix2 (0 : Fin 1) k)) (fun k => v (ix2 p k)) j := by
  unfold normTile knorm rowVar
  rw [scaled_apply, LayerNorm.centred_apply, LayerNorm.meanCol_apply]
  simp only [mulf_apply, LayerNorm.centred_apply]

end AttnTile

end
-- ==== Proof.LibLastAxisSum.lean ====
/-
  A sum along the last axis of an `[a, b, c]` vector, read at an entry.

  A kernel's `multi_reduction <add>` over axis 2 of an `[a, b, c]` vector, from the zero accumulator, is on the
  extended reals the plain sum: entry `(p, q)` of the `[a, b]` result is the sum over `k` of the operand at
  `(p, q, k)`.
-/
import Idealize.ShloMosaic.PureOps.Ideal.Laws
import Idealize.ShloMosaic.Lib.ValueIdx

namespace LastAxisSum

open Idealize.ShloMosaic Idealize.ShloMosaic.ValueIdx

variable {a b c : ℕ}

/-- Entry `(p, q)` of the result with the coordinate `k` of the summed axis put back is the entry `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The sum over the last axis, at entry `(p, q)`. -/
theorem lastSum_apply (v : FVec Ideal ⟨3, ![a, b, c]⟩ .f32) (h : Shape.Reduces ⟨3, ![a, b, c]⟩ [2] ⟨2, ![a, b]⟩)
    (hφ : FKind.Formats .f32) (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v 0x00000000#32 h hφ hacc (ix2 p q)).trans ?_
  exact Finset.sum_congr rfl fun k _ => congrArg v (lift_last h p q k)

end LastAxisSum
-- ==== Proof.KPayA.lean ====
/-
  The kernel's slab, weight-sum, zero and accumulation payloads read at an entry.

  • the first loop's slab: eight points of every row against the key columns of the attention matrix — at (b, i, k) the
    inner product of point (b, i) with column k;
  • the heads' weights added up: at (b, n, 0) the sum over the four heads of numerator / normalizer;
  • the zero tile;
  • the second loop's trip: the accumulator plus, at (b, d), the sum over the eight points of weight · key entry.
-/
import proofs.«109109_j40484361732519_2_alg».proof.Proof.Spec
import proofs.«109109_j40484361732519_2_alg».proof.Proof.Gen.KernelIdeal.Skeleton
import proofs.«109109_j40484361732519_2_alg».proof.Proof.LibAttnTile
import proofs.«109109_j40484361732519_2_alg».proof.Proof.LibLastAxisSum

noncomputable section

namespace Cert.KernelIdeal.KPay

open Idealize.ShloMosaic Idealize.ShloMosaic.ValueIdx
open Cert.KernelIdeal Cert.KernelIdeal.Gen

/-- The first loop's slab at (b, i, k): the inner product of point (b, i) of the slab with column k of the matrix. -/
theorem pay1_apply (v7 : Vec Ideal S512x4 .f32) (v120 : Vec Ideal S128x8x512 .f32) (b : Fin 128) (i : Fin 8) (k : Fin 4) :
    Gen.k0_pay1 (F := Ideal) v7 v120 (ix3 b i k) = ∑ d : Fin 512, v120 (ix3 b i d) * v7 (ix2 d k) := by
  unfold Gen.k0_pay1
  rw [shapeCast_self]
  exact AttnTile.flatW_apply (n := 128) (m := 8) 1024 rfl v120 v7 dot_S1024x512_S512x4_S1024x4_1_0_0_1_n_n
    rfl rfl rfl rfl rfl rfl shapeCasts_S512x4_S512x4 shapeCasts_S128x8x512_S1024x512 shapeCasts_S1024x4_S128x8x4
    bitsLt_bf16_f32 none b i k

/-- The heads' weights added up, at (b, n, 0): the sum over the heads of numerator / normalizer. -/
theorem pay4_apply (v32 : FVec Ideal S128x32x4 .f32) (v33 : FVec Ideal S128x4 .f32) (b : Fin 128) (n : Fin 32) :
    Gen.k0_pay4 (F := Ideal) v32 v33 (ix3 b n (0 : Fin 1)) = ∑ k : Fin 4, Ideal.div (v32 (ix3 b n k)) (v33 (ix2 b k)) := by
  unfold Gen.k0_pay4
  dsimp only
  rw [shapeCast_self, AttnTile.shapeCast_nm_nm1_apply]
  refine (LastAxisSum.lastSum_apply _ reduces_S128x32x4_S128x32 (.inl rfl) rfl b n).trans
    (Finset.sum_congr rfl fun k _ => ?_)
  rw [divf_apply, Tree.Lib.spreadMiddle_apply]

/-- The zero tile. -/
theorem pay5_apply (j : S128x512.Idx) : Gen.k0_pay5 (F := Ideal) j = 0 := by
  unfold Gen.k0_pay5
  rw [shapeCast_self]
  exact Ideal.ofBits_zero_f32

/-- The second loop's trip at (b, d): the accumulator plus the sum over the eight points of weight · key entry. -/
theorem pay6_apply (v120 : Vec Ideal S128x8x512 .f32) (v122 : Vec Ideal S128x8x1 .f32) (v126 : Vec Ideal S128x512 .f32)
    (b : Fin 128) (d : Fin 512) :
    Gen.k0_pay6 (F := Ideal) v120 v122 v126 (ix2 b d)
      = v126 (ix2 b d) + ∑ i : Fin 8, v122 (ix3 b i (0 : Fin 1)) * v120 (ix3 b i d) := by
  unfold Gen.k0_pay6
  dsimp only
  rw [shapeCast_self, addf_apply]
  refine congrArg (v126 (ix2 b d) + ·) ?_
  refine (Tree.Lib.sumMiddle_apply _ reduces_S128x8x512_S128x512 (.inl rfl) rfl b d).trans
    (Finset.sum_congr rfl fun i _ => ?_)
  rw [mulf_apply, AttnTile.broadcastTo_nm1_nmc_apply]

end Cert.KernelIdeal.KPay

end
-- ==== Proof.KPayB.lean ====
/-
  The kernel's softmax payloads read at an entry: with the row's rectified scores
  L n k = leaky ((query · column k + key score (n, k)) + spatial vector n · column k),
  the numerator tile at (b, n, k) is `Spec.ex L n k` and the normalizer at (b, k) is `Spec.den L k`.
-/
import proofs.«109109_j40484361732519_2_alg».proof.Proof.Spec
import proofs.«109109_j40484361732519_2_alg».proof.Proof.Gen.KernelIdeal.Skeleton
import proofs.«109109_j40484361732519_2_alg».proof.Proof.LibAttnTile

noncomputable section

namespace Cert.KernelIdeal.KPay

open Idealize.ShloMosaic Idealize.ShloMosaic.ValueIdx
open Cert.KernelIdeal Cert.KernelIdeal.Gen

/-- The query's scores: the query tile against the query rows of the attention matrix. -/
def queryScore (v0 : Vec Ideal S128x512 .f32) (v4 : Vec Ideal S512x4 .f32) : FVec Ideal S128x4 .f32 :=
  matmul dot_S128x512_S512x4_S128x4_1_0_0_1_n_n none (truncf .bf16 v0 bitsLt_bf16_f32)
    (truncf .bf16 (shapeCast S512x4 v4 shapeCasts_S512x4_S512x4) bitsLt_bf16_f32)
    (constant (F := Ideal) S128x4 .f32 0x00000000#32)

/-- The spatial scores: every point's spatial vector against the spatial rows of the attention matrix. -/
def spatialScore (v1 : Vec Ideal S128x32x64 .f32) (v10 : Vec Ideal S64x4 .f32) : FVec Ideal S128x32x4 .f32 :=
  shapeCast S128x32x4
    (matmul dot_S4096x64_S64x4_S4096x4_1_0_0_1_n_n none
      (shapeCast S4096x64 (truncf .bf16 v1 bitsLt_bf16_f32) shapeCasts_S128x32x64_S4096x64)
      (truncf .bf16 (shapeCast S64x4 v10 shapeCasts_S64x4_S64x4) bitsLt_bf16_f32)
      (constant (F := Ideal) S4096x4 .f32 0x00000000#32))
    shapeCasts_S4096x4_S128x32x4

/-- The scores before the rectifier: (query's, repeated over the points, + key scores) + spatial scores. -/
def scoreTile (v0 : Vec Ideal S128x512 .f32) (v1 : Vec Ideal S128x32x64 .f32) (v4 : Vec Ideal S512x4 .f32)
    (v10 : Vec Ideal S64x4 .f32) (v18 : Vec Ideal S128x32x4 .f32) : FVec Ideal S128x32x4 .f32 :=
  addf (addf (broadcastTo S128x32x4 (shapeCast S128x1x4 (queryScore v0 v4) shapeCasts_S128x4_S128x1x4)
      broadcasts_S128x1x4_S128x32x4) v18) (spatialScore v1 v10)

/-- The rectified scores. -/
def rectTile (v0 : Vec Ideal S128x512 .f32) (v1 : Vec Ideal S128x32x64 .f32) (v4 : Vec Ideal S512x4 .f32)
    (v10 : Vec Ideal S64x4 .f32) (v18 : Vec Ideal S128x32x4 .f32) : FVec Ideal S128x32x4 .f32 :=
  select (cmpf .oge (scoreTile v0 v1 v4 v10 v18) (broadcast S128x32x4 (Scalar.ofBits .f32 0x00000000#32 : Ideal .f32)))
    (scoreTile v0 v1 v4 v10 v18)
    (mulf (broadcast S128x32x4 (Scalar.ofBits .f32 0x3C23D70A#32 : Ideal .f32)) (scoreTile v0 v1 v4 v10 v18))

/-- The row's rectified scores as a function of the point and the head. -/
def Lrow (v0 : Vec Ideal S128x512 .f32) (v1 : Vec Ideal S128x32x64 .f32) (v4 : Vec Ideal S512x4 .f32)
    (v10 : Vec Ideal S64x4 .f32) (v18 : Vec Ideal S128x32x4 .f32) (b : Fin 128) (n : Fin 32) (k : Fin 4) : EReal :=
  Cert.Spec.leaky (((∑ d : Fin 512, v0 (ix2 b d) * v4 (ix2 d k)) + v18 (ix3 b n k))
    + ∑ d : Fin 64, v1 (ix3 b n d) * v10 (ix2 d k))

/-- Entry (b, k) of the query's scores. -/
theorem queryScore_apply (v0 : Vec Ideal S128x512 .f32) (v4 : Vec Ideal S512x4 .f32) (b : Fin 128) (k : Fin 4) :
    queryScore v0 v4 (ix2 b k) = ∑ d : Fin 512, v0 (ix2 b d) * v4 (ix2 d k) :=
  AttnTile.tileW_apply v0 v4 dot_S128x512_S512x4_S128x4_1_0_0_1_n_n rfl rfl rfl rfl rfl rfl shapeCasts_S512x4_S512x4
    bitsLt_bf16_f32 none b k

/-- Entry (b, n, k) of the spatial scores. -/
theorem spatialScore_apply (v1 : Vec Ideal S128x32x64 .f32) (v10 : Vec Ideal S64x4 .f32) (b : Fin 128) (n : Fin 32)
    (k : Fin 4) : spatialScore v1 v10 (ix3 b n k) = ∑ d : Fin 64, v1 (ix3 b n d) * v10 (ix2 d k) :=
  AttnTile.flatW_apply (n := 128) (m := 32) 4096 rfl v1 v10 dot_S4096x64_S64x4_S4096x4_1_0_0_1_n_n
    rfl rfl rfl rfl rfl rfl shapeCasts_S64x4_S64x4 shapeCasts_S128x32x64_S4096x64 shapeCasts_S4096x4_S128x32x4
    bitsLt_bf16_f32 none b n k

/-- Entry (b, n, k) of the scores before the rectifier. -/
theorem scoreTile_apply (v0 : Vec Ideal S128x512 .f32) (v1 : Vec Ideal S128x32x64 .f32) (v4 : Vec Ideal S512x4 .f32)
    (v10 : Vec Ideal S64x4 .f32) (v18 : Vec Ideal S128x32x4 .f32) (b : Fin 128) (n : Fin 32) (k : Fin 4) :
    scoreTile v0 v1 v4 v10 v18 (ix3 b n k)
      = ((∑ d : Fin 512, v0 (ix2 b d) * v4 (ix2 d k)) + v18 (ix3 b n k))
          + ∑ d : Fin 64, v1 (ix3 b n d) * v10 (ix2 d k) := by
  unfold scoreTile
  rw [addf_apply, addf_apply, Tree.Lib.spreadMiddle_apply, queryScore_apply, spatialScore_apply]

/-- Entry (b, n, k) of the rectified scores. -/
theorem rectTile_apply (v0 : Vec Ideal S128x512 .f32) (v1 : Vec Ideal S128x32x64 .f32) (v4 : Vec Ideal S512x4 .f32)
    (v10 : Vec Ideal S64x4 .f32) (v18 : Vec Ideal S128x32x4 .f32) (b : Fin 128) (n : Fin 32) (k : Fin 4) :
    rectTile v0 v1 v4 v10 v18 (ix3 b n k) = Lrow v0 v1 v4 v10 v18 b n k := by
  show Cert.Spec.leaky (scoreTile v0 v1 v4 v10 v18 (ix3 b n k)) = _
  rw [scoreTile_apply]
  rfl

/-- The numerator payload is the library's softmax numerator of the rectified scores over the points. -/
theorem pay2_eq (v0 : Vec Ideal S128x512 .f32) (v1 : Vec Ideal S128x32x64 .f32) (v4 : Vec Ideal S512x4 .f32)
    (v10 : Vec Ideal S64x4 .f32) (v18 : Vec Ideal S128x32x4 .f32) :
    Gen.k0_pay2 (F := Ideal) v0 v1 v4 v10 v18
      = AttnTile.expMiddle (rectTile v0 v1 v4 v10 v18) reduces_S128x32x4_S128x4 (.inl rfl) rfl
          shapeCasts_S128x4_S128x1x4 broadcasts_S128x1x4_S128x32x4 := rfl

/-- Entry (b, n, k) of the numerator payload: e^(score − the head's largest score). -/
theorem pay2_apply (v0 : Vec Ideal S128x512 .f32) (v1 : Vec Ideal S128x32x64 .f32) (v4 : Vec Ideal S512x4 .f32)
    (v10 : Vec Ideal S64x4 .f32) (v18 : Vec Ideal S128x32x4 .f32) (b : Fin 128) (n : Fin 32) (k : Fin 4) :
    Gen.k0_pay2 (F := Ideal) v0 v1 v4 v10 v18 (ix3 b n k) = Cert.Spec.ex (Lrow v0 v1 v4 v10 v18 b) n k := by
  rw [pay2_eq]
  refine (AttnTile.expMiddle_apply _ _ _ _ _ _ b n k).trans ?_
  simp only [rectTile_apply]
  rfl

/-- Entry (b, k) of the normalizer payload: the sum of the numerators over the points. -/
theorem pay3_apply (v0 : Vec Ideal S128x512 .f32) (v1 : Vec Ideal S128x32x64 .f32) (v4 : Vec Ideal S512x4 .f32)
    (v10 : Vec Ideal S64x4 .f32) (v18 : Vec Ideal S128x32x4 .f32) (b : Fin 128) (k : Fin 4) :
    Gen.k0_pay3 (F := Ideal) v0 v1 v4 v10 v18 (ix2 b k) = Cert.Spec.den (Lrow v0 v1 v4 v10 v18 b) k := by
  unfold Gen.k0_pay3
  dsimp only
  refine (Tree.Lib.sumMiddle_apply _ reduces_S128x32x4_S128x4 (.inl rfl) rfl b k).trans ?_
  exact Finset.sum_congr rfl fun n _ => pay2_apply v0 v1 v4 v10 v18 b n k

end Cert.KernelIdeal.KPay

end
-- ==== Proof.KPayC.lean ====
/-
  The kernel's closing payload read at an entry: logistic and residual, the first layer norm, the affine map with its
  residual, the second layer norm — row `b` of the tile is `Spec.normK g2 b2 (Spec.affine pw pb (Spec.normK g1 b1 x))`
  with `x d = logistic (pooled (b, d) · 1/4) + query (b, d)`.

  The payloads are the tile forms of the attention-tile library applied to the loaded values (by unfolding); each
  tile form read at an entry gives the row function, and the row functions are `Spec`'s by unfolding.
-/
import proofs.«109109_j40484361732519_2_alg».proof.Proof.Spec
import proofs.«109109_j40484361732519_2_alg».proof.Proof.Gen.KernelIdeal.Skeleton
import proofs.«109109_j40484361732519_2_alg».proof.Proof.LibAttnTile

noncomputable section

namespace Cert.KernelIdeal.KPay

open Idealize.ShloMosaic Idealize.ShloMosaic.ValueIdx
open Cert.KernelIdeal Cert.KernelIdeal.Gen

/-- The row after the logistic function and the residual. -/
def xRow (v0 v47 : Vec Ideal S128x512 .f32) (b : Fin 128) (d : Fin 512) : EReal :=
  Ideal.logistic (v47 (ix2 b d) * Cert.Spec.wQuarter) + v0 (ix2 b d)

/-- Entry (b, d) of the tile after the logistic function and the residual. -/
theorem pay7_apply (v0 v47 : Vec Ideal S128x512 .f32) (b : Fin 128) (d : Fin 512) :
    Gen.k0_pay7 (F := Ideal) v0 v47 (ix2 b d) = xRow v0 v47 b d := rfl

/-- `Spec`'s layer norm is the library's row norm at the width word and the ε word. -/
theorem normK_eq_knorm (g bb x : Fin 512 → EReal) :
    Cert.Spec.normK g bb x = AttnTile.knorm Cert.Spec.wWidth Cert.Spec.wEps g bb x := rfl

/-- `Spec`'s mean is the library's row mean at the width word. -/
theorem mean_eq_rowMean (x : Fin 512 → EReal) : Cert.Spec.mean x = AttnTile.rowMean Cert.Spec.wWidth x := rfl

/-- `Spec`'s second moment is the library's at the width word. -/
theorem var_eq_rowVar (x : Fin 512 → EReal) : Cert.Spec.var x = AttnTile.rowVar Cert.Spec.wWidth x := rfl

/-- The mean column is the library's mean column of the tile. -/
theorem pay10_eq (v0 v47 : Vec Ideal S128x512 .f32) :
    Gen.k0_pay10 (F := Ideal) v0 v47
      = LayerNorm.meanCol (Gen.k0_pay7 (F := Ideal) v0 v47) 0x44000000#32 reduces_S128x512_S128 (.inl rfl) rfl
          shapeCasts_S128_S128x1 := rfl

/-- Row `b` of the mean column is the row's mean. -/
theorem pay10_apply (v0 v47 : Vec Ideal S128x512 .f32) (b : Fin 128) :
    Gen.k0_pay10 (F := Ideal) v0 v47 (ix2 b (0 : Fin 1)) = Cert.Spec.mean (xRow v0 v47 b) := by
  rw [pay10_eq]
  exact LayerNorm.meanCol_apply (Gen.k0_pay7 (F := Ideal) v0 v47) 0x44000000#32 reduces_S128x512_S128 (.inl rfl) rfl
    shapeCasts_S128_S128x1 b

/-- The centred tile is the library's centred tile. -/
theorem pay12_eq (v0 v47 : Vec Ideal S128x512 .f32) :
    Gen.k0_pay12 (F := Ideal) v0 v47
      = LayerNorm.centred (Gen.k0_pay7 (F := Ideal) v0 v47) 0x44000000#32 reduces_S128x512_S128 (.inl rfl) rfl
          shapeCasts_S128_S128x1 broadcasts_S128x1_S128x512 := rfl

/-- Entry (b, d) of the centred tile: the row's entry minus the row's mean. -/
theorem pay12_apply (v0 v47 : Vec Ideal S128x512 .f32) (b : Fin 128) (d : Fin 512) :
    Gen.k0_pay12 (F := Ideal) v0 v47 (ix2 b d) = xRow v0 v47 b d - Cert.Spec.mean (xRow v0 v47 b) := by
  rw [pay12_eq]
  exact LayerNorm.centred_apply (Gen.k0_pay7 (F := Ideal) v0 v47) 0x44000000#32 reduces_S128x512_S128 (.inl rfl) rfl
    shapeCasts_S128_S128x1 broadcasts_S128x1_S128x512 b d

/-- The second-moment column is the library's mean column of the squared centred tile. -/
theorem pay11_eq (v0 v47 : Vec Ideal S128x512 .f32) :
    Gen.k0_pay11 (F := Ideal) v0 v47
      = LayerNorm.meanCol
          (mulf (LayerNorm.centred (Gen.k0_pay7 (F := Ideal) v0 v47) 0x44000000#32 reduces_S128x512_S128 (.inl rfl) rfl
              shapeCasts_S128_S128x1 broadcasts_S128x1_S128x512)
            (LayerNorm.centred (Gen.k0_pay7 (F := Ideal) v0 v47) 0x44000000#32 reduces_S128x512_S128 (.inl rfl) rfl
              shapeCasts_S128_S128x1 broadcasts_S128x1_S128x512))
          0x44000000#32 reduces_S128x512_S128 (.inl rfl) rfl shapeCasts_S128_S128x1 := rfl

/-- Row `b` of the second-moment column is the row's second central moment. -/
theorem pay11_apply (v0 v47 : Vec Ideal S128x512 .f32) (b : Fin 128) :
    Gen.k0_pay11 (F := Ideal) v0 v47 (ix2 b (0 : Fin 1)) = Cert.Spec.var (xRow v0 v47 b) := by
  rw [pay11_eq]
  refine (LayerNorm.meanCol_apply _ 0x44000000#32 reduces_S128x512_S128 (.inl rfl) rfl shapeCasts_S128_S128x1 b).trans ?_
  have h : ∀ k : Fin 512,
      LayerNorm.centred (Gen.k0_pay7 (F := Ideal) v0 v47) 0x44000000#32 reduces_S128x512_S128 (.inl rfl) rfl
          shapeCasts_S128_S128x1 broadcasts_S128x1_S128x512 (ix2 b k)
        = xRow v0 v47 b k - Cert.Spec.mean (xRow v0 v47 b) := fun k =>
    LayerNorm.centred_apply (Gen.k0_pay7 (F := Ideal) v0 v47) 0x44000000#32 reduces_S128x512_S128 (.inl rfl) rfl
      shapeCasts_S128_S128x1 broadcasts_S128x1_S128x512 b k
  simp only [mulf_apply, h]
  rfl

/-- The affine map with its residual on a tile: the tile (cast to the narrower format) times the weight matrix
    (cast likewise) into zero, plus the bias row down the rows, plus the tile. -/
def affineTile (y : FVec Ideal S128x512 .f32) (v79 : Vec Ideal S512x512 .f32) (v83 : Vec Ideal S1x512 .f32) :
    FVec Ideal S128x512 .f32 :=
  addf (addf
      (matmul dot_S128x512_S512x512_S128x512_1_0_0_1_n_n none (truncf .bf16 y bitsLt_bf16_f32)
        (truncf .bf16 (shapeCast S512x512 v79 shapeCasts_S512x512_S512x512) bitsLt_bf16_f32)
        (constant (F := Ideal) S128x512 .f32 0x00000000#32))
      (broadcastTo S128x512 (shapeCast S1x512 v83 shapeCasts_S1x512_S1x512) broadcasts_S1x512_S128x512))
    y

/-- Entry (b, c) of the affine tile: (Σ_j y (b, j) · W (j, c) + bias c) + y (b, c). -/
theorem affineTile_apply (y : FVec Ideal S128x512 .f32) (v79 : Vec Ideal S512x512 .f32) (v83 : Vec Ideal S1x512 .f32)
    (b : Fin 128) (c : Fin 512) :
    affineTile y v79 v83 (ix2 b c)
      = ((∑ j : Fin 512, y (ix2 b j) * v79 (ix2 j c)) + v83 (ix2 (0 : Fin 1) c)) + y (ix2 b c) := by
  unfold affineTile
  rw [addf_apply, addf_apply, Tree.Lib.biasRow_apply, shapeCast_self]
  refine congrArg (fun t => t + v83 (ix2 (0 : Fin 1) c) + y (ix2 b c)) ?_
  exact DotRecord.matmul_zero_apply dot_S128x512_S512x512_S128x512_1_0_0_1_n_n rfl rfl rfl rfl rfl rfl
    (truncf .bf16 y bitsLt_bf16_f32) (truncf .bf16 v79 bitsLt_bf16_f32) none b c

/-- The closing payload is: the norm of the tile, the affine tile of that, the norm of that. -/
theorem pay13_eq (v0 v47 : Vec Ideal S128x512 .f32) (v52 v54 v83 v88 v90 : Vec Ideal S1x512 .f32)
    (v79 : Vec Ideal S512x512 .f32) :
    Gen.k0_pay13 (F := Ideal) (Gen.k0_pay8 v52) (Gen.k0_pay9 v54) (Gen.k0_pay11 v0 v47) (Gen.k0_pay12 v0 v47) v79 v83 v88 v90
      = AttnTile.normTile
          (affineTile
            (AttnTile.normTile (Gen.k0_pay7 (F := Ideal) v0 v47) (shapeCast S1x512 v52 shapeCasts_S1x512_S1x512)
              (shapeCast S1x512 v54 shapeCasts_S1x512_S1x512) 0x44000000#32 0x358637BD#32 reduces_S128x512_S128 (.inl rfl) rfl
              shapeCasts_S128_S128x1 broadcasts_S128x1_S128x512 broadcasts_S1x512_S128x512)
            v79 v83)
          (shapeCast S1x512 v88 shapeCasts_S1x512_S1x512) (shapeCast S1x512 v90 shapeCasts_S1x512_S1x512)
          0x44000000#32 0x358637BD#32 reduces_S128x512_S128 (.inl rfl) rfl
          shapeCasts_S128_S128x1 broadcasts_S128x1_S128x512 broadcasts_S1x512_S128x512 := rfl

/-- Entry (b, c) of the closing payload: the second norm of the affine map of the first norm of the row. -/
theorem pay13_apply (v0 v47 : Vec Ideal S128x512 .f32) (v52 v54 v83 v88 v90 : Vec Ideal S1x512 .f32)
    (v79 : Vec Ideal S512x512 .f32) (b : Fin 128) (c : Fin 512) :
    Gen.k0_pay13 (F := Ideal) (Gen.k0_pay8 v52) (Gen.k0_pay9 v54) (Gen.k0_pay11 v0 v47) (Gen.k0_pay12 v0 v47) v79 v83 v88 v90
        (ix2 b c)
      = Cert.Spec.normK (fun d => v88 (ix2 (0 : Fin 1) d)) (fun d => v90 (ix2 (0 : Fin 1) d))
          (Cert.Spec.affine (fun c j => v79 (ix2 j c)) (fun c => v83 (ix2 (0 : Fin 1) c))
            (Cert.Spec.normK (fun d => v52 (ix2 (0 : Fin 1) d)) (fun d => v54 (ix2 (0 : Fin 1) d)) (xRow v0 v47 b))) c := by
  rw [pay13_eq]
  refine (AttnTile.normTile_apply _ _ _ _ _ _ _ _ _ _ _ b c).trans ?_
  rw [normK_eq_knorm]
  have hy : ∀ k : Fin 512,
      AttnTile.normTile (Gen.k0_pay7 (F := Ideal) v0 v47) (shapeCast S1x512 v52 shapeCasts_S1x512_S1x512)
          (shapeCast S1x512 v54 shapeCasts_S1x512_S1x512) 0x44000000#32 0x358637BD#32 reduces_S128x512_S128 (.inl rfl) rfl
          shapeCasts_S128_S128x1 broadcasts_S128x1_S128x512 broadcasts_S1x512_S128x512 (ix2 b k)
        = Cert.Spec.normK (fun d => v52 (ix2 (0 : Fin 1) d)) (fun d => v54 (ix2 (0 : Fin 1) d)) (xRow v0 v47 b) k := by
    intro k
    refine (AttnTile.normTile_apply _ _ _ _ _ _ _ _ _ _ _ b k).trans ?_
    rw [shapeCast_self, shapeCast_self]
    rfl
  have hz : (fun k : Fin 512 => affineTile
        (AttnTile.normTile (Gen.k0_pay7 (F := Ideal) v0 v47) (shapeCast S1x512 v52 shapeCasts_S1x512_S1x512)
          (shapeCast S1x512 v54 shapeCasts_S1x512_S1x512) 0x44000000#32 0x358637BD#32 reduces_S128x512_S128 (.inl rfl) rfl
          shapeCasts_S128_S128x1 broadcasts_S128x1_S128x512 broadcasts_S1x512_S128x512) v79 v83 (ix2 b k))
      = Cert.Spec.affine (fun c j => v79 (ix2 j c)) (fun c => v83 (ix2 (0 : Fin 1) c))
          (Cert.Spec.normK (fun d => v52 (ix2 (0 : Fin 1) d)) (fun d => v54 (ix2 (0 : Fin 1) d)) (xRow v0 v47 b)) := by
    funext k
    rw [affineTile_apply]
    simp only [hy]
    rfl
  rw [hz, shapeCast_self, shapeCast_self]

end Cert.KernelIdeal.KPay

end
-- ==== Proof.KValue.lean ====
/-
  What the kernel's body stores into its output block, at an entry: row b of the block is the K arrangement of the
  layer (Spec.outK) on row b of the query block, the key block and the spatial block, with the attention matrix's
  three parts as the body's three weight operands, the transposed square matrix and the five rows of width 512.

  The pieces: the rectified scores of a row (the query product, plus the key scores read back from the first
  scratch, plus the spatial product); their softmax numerators and normalizers; the summed weights per point, read
  back from the second scratch by the second loop; the pooled keys read back from the third scratch; the tail.
-/
import proofs.«109109_j40484361732519_2_alg».proof.Proof.KTrips
import proofs.«109109_j40484361732519_2_alg».proof.Proof.KPayA
import proofs.«109109_j40484361732519_2_alg».proof.Proof.KPayB
import proofs.«109109_j40484361732519_2_alg».proof.Proof.KPayC

set_option maxRecDepth 16384

noncomputable section

namespace Cert.KernelIdeal.KValue

open Cert.KernelIdeal Cert.KernelIdeal.Gen Cert.KernelIdeal.GenP Cert.KernelIdeal.KTrips Cert.KernelIdeal.KPay
open Idealize.ShloMosaic Idealize.ShloMosaic.TcCoe Idealize.ShloMosaic.ValueIdx Idealize.SL.Sem

variable (c : Dev nD) (i : grid0.Coords) (arg1 : Memref sig .tc .vmem S128x32x512 .f32) (harg1 : arg1.IsWhole) (arg2 : Memref sig .tc .vmem S128x32x64 .f32) (harg2 : arg2.IsWhole) (arg3 : Memref sig .tc .vmem S128x512 .f32) (harg3 : arg3.IsWhole) (arg4 : Memref sig .tc .vmem S512x4 .f32) (harg4 : arg4.IsWhole) (arg5 : Memref sig .tc .vmem S512x4 .f32) (harg5 : arg5.IsWhole) (arg6 : Memref sig .tc .vmem S64x4 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (arg14 : Memref sig .tc .vmem S128x32x4 .f32) (harg14 : arg14.IsWhole) (arg15 : Memref sig .tc .vmem S128x32x1 .f32) (harg15 : arg15.IsWhole) (arg16 : Memref sig .tc .vmem S128x512 .f32) (harg16 : arg16.IsWhole)
variable (x0 : Vec Ideal S128x32x512 .f32) (x1 : Vec Ideal S128x32x64 .f32) (x2 : Vec Ideal S128x512 .f32) (x3 : Vec Ideal S512x4 .f32) (x4 : Vec Ideal S512x4 .f32) (x5 : Vec Ideal S64x4 .f32) (x6 : Vec Ideal S512x512 .f32) (x7 : Vec Ideal S1x512 .f32) (x8 : Vec Ideal S1x512 .f32) (x9 : Vec Ideal S1x512 .f32) (x10 : Vec Ideal S1x512 .f32) (x11 : Vec Ideal S1x512 .f32) (d : Vec Ideal S128x32x4 .f32)
variable (av : Fin 1088 → Fin 4 → EReal)
  (h3 : ∀ (dd : Fin 512) (k : Fin 4), x3 (ix2 dd k) = av ⟨dd.val, by omega⟩ k)
  (h4 : ∀ (dd : Fin 512) (k : Fin 4), x4 (ix2 dd k) = av ⟨512 + dd.val, by omega⟩ k)
  (h5 : ∀ (dd : Fin 64) (k : Fin 4), x5 (ix2 dd k) = av ⟨1024 + dd.val, by omega⟩ k)
  (b : Fin 128)

include h3 h4 h5

/-- The row's rectified scores, as the body forms them, are the K arrangement's. -/
theorem Lrow_eq :
    Lrow x2 x1 x3 x5 (kernelRun0_A.sl.v18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x4 d) b = (fun n k => Cert.Spec.leaky (Cert.Spec.scoreK (fun dd => x2 (ix2 b dd)) (fun n dd => x0 (ix3 b n dd)) (fun n dd => x1 (ix3 b n dd)) av n k)) := by
  funext n k
  unfold Lrow Cert.Spec.scoreK
  rw [v18_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 pay1_apply]
  simp only [h3, h4, h5]

/-- The softmax numerators of the row. -/
theorem r1_apply (n : Fin 32) (k : Fin 4) :
    kernelRun0_A.sl.r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d (ix3 b n k) = Cert.Spec.ex (fun n k => Cert.Spec.leaky (Cert.Spec.scoreK (fun dd => x2 (ix2 b dd)) (fun n dd => x0 (ix3 b n dd)) (fun n dd => x1 (ix3 b n dd)) av n k)) n k := by
  unfold kernelRun0_A.sl.r_1
  rw [readAt_unit_zero arg3.view hz2, readAt_unit_zero arg2.view hz3, readAt_unit_zero arg4.view hz2,
    readAt_unit_zero arg6.view hz2, harg3.read_unread, harg2.read_unread, harg4.read_unread, harg6.read_unread]
  rw [pay2_apply]
  exact congrArg (fun L => Cert.Spec.ex L n k) (Lrow_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d av h3 h4 h5 b)

/-- Their normalizers. -/
theorem r2_apply (k : Fin 4) :
    kernelRun0_A.sl.r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d (ix2 b k) = Cert.Spec.den (fun n k => Cert.Spec.leaky (Cert.Spec.scoreK (fun dd => x2 (ix2 b dd)) (fun n dd => x0 (ix3 b n dd)) (fun n dd => x1 (ix3 b n dd)) av n k)) k := by
  unfold kernelRun0_A.sl.r_2
  rw [readAt_unit_zero arg3.view hz2, readAt_unit_zero arg2.view hz3, readAt_unit_zero arg4.view hz2,
    readAt_unit_zero arg6.view hz2, harg3.read_unread, harg2.read_unread, harg4.read_unread, harg6.read_unread]
  rw [pay3_apply]
  exact congrArg (fun L => Cert.Spec.den L k) (Lrow_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d av h3 h4 h5 b)

/-- The point's weights summed over the heads, as stored into the second scratch. -/
theorem w_apply (n : Fin 32) :
    k0_pay4 (F := Ideal) (kernelRun0_A.sl.r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d) (kernelRun0_A.sl.r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d)
        (ix3 b n (0 : Fin 1))
      = ∑ k : Fin 4, Cert.Spec.att (fun n k => Cert.Spec.leaky (Cert.Spec.scoreK (fun dd => x2 (ix2 b dd)) (fun n dd => x0 (ix3 b n dd)) (fun n dd => x1 (ix3 b n dd)) av n k)) n k := by
  rw [pay4_apply]
  refine Finset.sum_congr rfl fun k _ => ?_
  rw [r1_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d av h3 h4 h5 b, r2_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d av h3 h4 h5 b]
  rfl

/-- The pooled keys read back after the second loop. -/
theorem v47_apply (dd : Fin 512) :
    kernelRun0_A.sl.v47 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d (ix2 b dd)
      = Cert.Spec.poolK (Cert.Spec.att (fun n k => Cert.Spec.leaky (Cert.Spec.scoreK (fun dd => x2 (ix2 b dd)) (fun n dd => x0 (ix3 b n dd)) (fun n dd => x1 (ix3 b n dd)) av n k))) (fun n dd => x0 (ix3 b n dd)) dd := by
  unfold kernelRun0_A.sl.v47
  rw [readAt_unit_zero _ hz2, View.writes_append]
  refine acc_four c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ pay6_apply ?_ x0 rfl b _ ?_ dd
  · intro j
    unfold kernelRun0_A.sl.HS2_1
    rw [read_writes_cons_unit_zero _ _ hz2]
    exact pay5_apply j
  · intro n
    unfold kernelRun0_A.sl.HS1_1
    rw [read_writes_cons_unit_zero _ _ hz3]
    exact w_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d av h3 h4 h5 b n

/-- The stored value at (b, cc). -/
theorem r7_apply (cc : Fin 512) :
    kernelRun0_A.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 d (ix2 b cc)
      = Cert.Spec.outK (fun dd => x2 (ix2 b dd)) (fun n dd => x0 (ix3 b n dd)) (fun n dd => x1 (ix3 b n dd)) av (fun o ii => x6 (ix2 ii o)) (fun dd => x7 (ix2 (0 : Fin 1) dd))
          (fun dd => x8 (ix2 (0 : Fin 1) dd)) (fun dd => x9 (ix2 (0 : Fin 1) dd)) (fun dd => x10 (ix2 (0 : Fin 1) dd))
          (fun dd => x11 (ix2 (0 : Fin 1) dd)) cc := by
  unfold kernelRun0_A.sl.r_7 kernelRun0_A.sl.r_3 kernelRun0_A.sl.r_4 kernelRun0_A.sl.r_5 kernelRun0_A.sl.r_6 kernelRun0_A.sl.r
  rw [readAt_unit_zero _ hz2, readAt_unit_zero _ hz2, readAt_unit_zero _ hz2, readAt_unit_zero _ hz2, readAt_unit_zero _ hz2,
    readAt_unit_zero _ hz2, readAt_unit_zero _ hz2, harg3.read_unread, harg7.read_unread, harg8.read_unread, harg9.read_unread,
    harg10.read_unread, harg11.read_unread, harg12.read_unread]
  rw [pay13_apply]
  have hx : xRow x2 (kernelRun0_A.sl.v47 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d) b
      = fun dd => Ideal.logistic (Cert.Spec.poolK (Cert.Spec.att (fun n k => Cert.Spec.leaky (Cert.Spec.scoreK (fun dd => x2 (ix2 b dd)) (fun n dd => x0 (ix3 b n dd)) (fun n dd => x1 (ix3 b n dd)) av n k))) (fun n dd => x0 (ix3 b n dd)) dd * Cert.Spec.wQuarter) + x2 (ix2 b dd) := by
    funext dd
    unfold xRow
    rw [v47_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d av h3 h4 h5 b dd]
  rw [hx]
  rfl

end Cert.KernelIdeal.KValue

end
-- ==== Proof.KHost.lean ====
/-
  The nine arrays the host computes before the region, each read at an index in terms of the launch arguments.

  The attention matrix (1088 rows, 4 columns) is cut into its three row bands: rows 0–511 meet the query, rows
  512–1023 the key, rows 1024–1087 the spatial vector; entry (d, k) of a band is entry (offset + d, k) of the matrix.
  The square matrix is transposed: entry (j, q) of the result is entry (q, j) of the argument. Each of the five
  vectors of width 512 is laid out as a single row: entry (0, d) of the row is entry d of the vector.

  `Gen.V m c b` is the contents of buffer `b` on core `c` when the region is entered, the launch contents being `m`.
-/
import proofs.«109109_j40484361732519_2_alg».proof.Proof.Gen.KernelIdeal.Frame.Runs
import Idealize.ShloMosaic.Lib.StableHlo.Run
import Idealize.ShloMosaic.Lib.ValueLayout

noncomputable section

namespace Cert.KernelIdeal.KHost

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The three row bands of the attention matrix -/

/-- Rows 0–511 of the attention matrix: the band that meets the query. -/
theorem V_v0_apply (c : Dev nD) (d : Fin 512) (k : Fin 4) :
    Gen.V m c main_v0 (ix2 d k) = m ((c : Thread nD τ).loc main_arg3) (ix2 (⟨d.val, by omega⟩ : Fin 1088) k) := by
  have e : (Gen.V m c main_v0 : S512x4.Idx → EReal)
      = extractStridedSlice S512x4 ![0, 0] (m ((c : Thread nD τ).loc main_arg3)) slices_S1088x4_S512x4_0_0 := by
    dsimp only [Gen.V, Gen.hostOps0]; after_results
  rw [e]
  exact slice2_axis0_apply 0 _ _ d k _ (by simp)

/-- Rows 512–1023: the band that meets the key. -/
theorem V_v1_apply (c : Dev nD) (d : Fin 512) (k : Fin 4) :
    Gen.V m c main_v1 (ix2 d k) = m ((c : Thread nD τ).loc main_arg3) (ix2 (⟨512 + d.val, by omega⟩ : Fin 1088) k) := by
  have e : (Gen.V m c main_v1 : S512x4.Idx → EReal)
      = extractStridedSlice S512x4 ![512, 0] (m ((c : Thread nD τ).loc main_arg3)) slices_S1088x4_S512x4_512_0 := by
    dsimp only [Gen.V, Gen.hostOps0]; after_results
  rw [e]
  exact slice2_axis0_apply 512 _ _ d k _ rfl

/-- Rows 1024–1087: the band that meets the spatial vector. -/
theorem V_v2_apply (c : Dev nD) (d : Fin 64) (k : Fin 4) :
    Gen.V m c main_v2 (ix2 d k) = m ((c : Thread nD τ).loc main_arg3) (ix2 (⟨1024 + d.val, by omega⟩ : Fin 1088) k) := by
  have e : (Gen.V m c main_v2 : S64x4.Idx → EReal)
      = extractStridedSlice S64x4 ![1024, 0] (m ((c : Thread nD τ).loc main_arg3)) slices_S1088x4_S64x4_1024_0 := by
    dsimp only [Gen.V, Gen.hostOps0]; after_results
  rw [e]
  exact slice2_axis0_apply 1024 _ _ d k _ rfl

/-! ## The square matrix, transposed -/

/-- Entry (j, q) of the transposed matrix is entry (q, j) of the argument. -/
theorem V_v3_apply (c : Dev nD) (j q : Fin 512) :
    Gen.V m c main_v3 (ix2 j q) = m ((c : Thread nD τ).loc main_arg4) (ix2 q j) := by
  have e : (Gen.V m c main_v3 : S512x512.Idx → EReal)
      = transpose S512x512 [1, 0] (m ((c : Thread nD τ).loc main_arg4)) transposes_S512x512_S512x512_1_0 := by
    dsimp only [Gen.V, Gen.hostOps0]; after_results
  rw [e]
  exact transpose_ix2_apply _ _ j q

/-! ## The five vectors of width 512, each as one row -/

/-- The affine map's shift vector as one row. -/
theorem V_v4_apply (c : Dev nD) (d : Fin 512) :
    Gen.V m c main_v4 (ix2 (0 : Fin 1) d) = m ((c : Thread nD τ).loc main_arg5) (ix1 d) := by
  have e : (Gen.V m c main_v4 : S1x512.Idx → EReal)
      = shapeCast S1x512 (m ((c : Thread nD τ).loc main_arg5)) shapeCasts_S512_S1x512 := by
    dsimp only [Gen.V, Gen.hostOps0]; after_results; rfl
  rw [e]
  exact shapeCast_a_1a_apply _ _ 0 d

/-- The first norm's scale vector as one row. -/
theorem V_v5_apply (c : Dev nD) (d : Fin 512) :
    Gen.V m c main_v5 (ix2 (0 : Fin 1) d) = m ((c : Thread nD τ).loc main_arg6) (ix1 d) := by
  have e : (Gen.V m c main_v5 : S1x512.Idx → EReal)
      = shapeCast S1x512 (m ((c : Thread nD τ).loc main_arg6)) shapeCasts_S512_S1x512 := by
    dsimp only [Gen.V, Gen.hostOps0]; after_results; rfl
  rw [e]
  exact shapeCast_a_1a_apply _ _ 0 d

/-- The first norm's shift vector as one row. -/
theorem V_v6_apply (c : Dev nD) (d : Fin 512) :
    Gen.V m c main_v6 (ix2 (0 : Fin 1) d) = m ((c : Thread nD τ).loc main_arg7) (ix1 d) := by
  have e : (Gen.V m c main_v6 : S1x512.Idx → EReal)
      = shapeCast S1x512 (m ((c : Thread nD τ).loc main_arg7)) shapeCasts_S512_S1x512 := by
    dsimp only [Gen.V, Gen.hostOps0]; after_results; rfl
  rw [e]
  exact shapeCast_a_1a_apply _ _ 0 d

/-- The second norm's scale vector as one row. -/
theorem V_v7_apply (c : Dev nD) (d : Fin 512) :
    Gen.V m c main_v7 (ix2 (0 : Fin 1) d) = m ((c : Thread nD τ).loc main_arg8) (ix1 d) := by
  have e : (Gen.V m c main_v7 : S1x512.Idx → EReal)
      = shapeCast S1x512 (m ((c : Thread nD τ).loc main_arg8)) shapeCasts_S512_S1x512 := by
    dsimp only [Gen.V, Gen.hostOps0]; after_results; rfl
  rw [e]
  exact shapeCast_a_1a_apply _ _ 0 d

/-- The second norm's shift vector as one row. -/
theorem V_v8_apply (c : Dev nD) (d : Fin 512) :
    Gen.V m c main_v8 (ix2 (0 : Fin 1) d) = m ((c : Thread nD τ).loc main_arg9) (ix1 d) := by
  have e : (Gen.V m c main_v8 : S1x512.Idx → EReal)
      = shapeCast S1x512 (m ((c : Thread nD τ).loc main_arg9)) shapeCasts_S512_S1x512 := by
    dsimp only [Gen.V, Gen.hostOps0]; after_results; rfl
  rw [e]
  exact shapeCast_a_1a_apply _ _ 0 d

end Cert.KernelIdeal.KHost

end
-- ==== Proof.KFinal.lean ====
/-
  From the kernel's blocks to its result array.

  The grid has 32 points; point t stages rows 128 t … 128 t + 127 of the keys, the spatial vectors and the queries,
  the whole of every weight operand, and writes back rows 128 t … 128 t + 127 of the result. Read at a block entry,
  each staged block is the argument array (or the host-prepared array: a slice of the attention matrix, the
  transposed square matrix, a vector as one row) at the global row. So what point t writes back is block t of ONE
  function of the argument arrays — row r of the result is the K arrangement on row r of the inputs — and the 32
  blocks tile the result.
-/
import proofs.«109109_j40484361732519_2_alg».proof.Proof.KValue
import proofs.«109109_j40484361732519_2_alg».proof.Proof.KIValue
import proofs.«109109_j40484361732519_2_alg».proof.Proof.KHost

set_option maxRecDepth 16384

noncomputable section

namespace Cert.KernelIdeal.KFinal

open Cert.KernelIdeal Cert.KernelIdeal.Gen Cert.KernelIdeal.GenP Cert.KernelIdeal.ValueP Cert.KernelIdeal.KTrips
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the ten argument arrays: row r is the K arrangement on row r. -/
def Gk (a0 : FVec Ideal S4096x32x512 .f32) (a1 : FVec Ideal S4096x32x64 .f32) (a2 : FVec Ideal S4096x512 .f32)
    (a3 : FVec Ideal S1088x4 .f32) (a4 : FVec Ideal S512x512 .f32) (a5 a6 a7 a8 a9 : FVec Ideal S512 .f32) :
    S4096x512.Idx → EReal :=
  fun j => Cert.Spec.outK (fun d => a2 (ix2 (j 0) d)) (fun n d => a0 (ix3 (j 0) n d)) (fun n d => a1 (ix3 (j 0) n d))
    (fun jj k => a3 (ix2 jj k)) (fun o ii => a4 (ix2 o ii)) (fun d => a5 (ix1 d)) (fun d => a6 (ix1 d))
    (fun d => a7 (ix1 d)) (fun d => a8 (ix1 d)) (fun d => a9 (ix1 d)) (j 1)

/-- The global row of block row b at point t. -/
def row (t : Fin cfg0.N) (b : Fin 128) : Fin 4096 :=
  ⟨t.val * 128 + b.val, by have ht : t.val < 32 := t.isLt; have := b.isLt; omega⟩

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_12.index t (0 : Fin 2) = t.val ∧ win0_12.index t (1 : Fin 2) = 0 :=
  (by decide +kernel : ∀ t : Fin grid0.N, _)
theorem idx_const3 : ∀ t : Fin cfg0.N, win0_3.index t (0 : Fin 2) = 0 ∧ win0_3.index t (1 : Fin 2) = 0 :=
  (by decide +kernel : ∀ t : Fin grid0.N, _)
theorem idx_const4 : ∀ t : Fin cfg0.N, win0_4.index t (0 : Fin 2) = 0 ∧ win0_4.index t (1 : Fin 2) = 0 :=
  (by decide +kernel : ∀ t : Fin grid0.N, _)
theorem idx_const5 : ∀ t : Fin cfg0.N, win0_5.index t (0 : Fin 2) = 0 ∧ win0_5.index t (1 : Fin 2) = 0 :=
  (by decide +kernel : ∀ t : Fin grid0.N, _)
theorem idx_const6 : ∀ t : Fin cfg0.N, win0_6.index t (0 : Fin 2) = 0 ∧ win0_6.index t (1 : Fin 2) = 0 :=
  (by decide +kernel : ∀ t : Fin grid0.N, _)
theorem idx_const7 : ∀ t : Fin cfg0.N, win0_7.index t (0 : Fin 2) = 0 ∧ win0_7.index t (1 : Fin 2) = 0 :=
  (by decide +kernel : ∀ t : Fin grid0.N, _)
theorem idx_const8 : ∀ t : Fin cfg0.N, win0_8.index t (0 : Fin 2) = 0 ∧ win0_8.index t (1 : Fin 2) = 0 :=
  (by decide +kernel : ∀ t : Fin grid0.N, _)
theorem idx_const9 : ∀ t : Fin cfg0.N, win0_9.index t (0 : Fin 2) = 0 ∧ win0_9.index t (1 : Fin 2) = 0 :=
  (by decide +kernel : ∀ t : Fin grid0.N, _)
theorem idx_const10 : ∀ t : Fin cfg0.N, win0_10.index t (0 : Fin 2) = 0 ∧ win0_10.index t (1 : Fin 2) = 0 :=
  (by decide +kernel : ∀ t : Fin grid0.N, _)
theorem idx_const11 : ∀ t : Fin cfg0.N, win0_11.index t (0 : Fin 2) = 0 ∧ win0_11.index t (1 : Fin 2) = 0 :=
  (by decide +kernel : ∀ t : Fin grid0.N, _)

/-! ## Each staged block at an entry -/

theorem iblk0_apply (c : Dev nD) (t : Fin cfg0.N) (b : Fin 128) (n : Fin 32) (dd : Fin 512) :
    iblk m c 0 t (ix3 b n dd) = (m ((c : Thread nD τ).loc main_arg0)) (ix3 (row t b) n dd) := by
  obtain ⟨e0, e1, e2, -⟩ := idx_facts t
  show V m c main_arg0 (((cfg0.win 0).blk t).view.emb (ix3 b n dd)) = _
  rw [V_main_arg0]
  refine congrArg _ ?_
  funext a; apply Fin.ext
  match a with
  | ⟨0, _⟩ => show win0_0.index t (0 : Fin 3) * 128 + 1 * b.val = t.val * 128 + b.val; omega
  | ⟨1, _⟩ => show win0_0.index t (1 : Fin 3) * 32 + 1 * n.val = n.val; omega
  | ⟨2, _⟩ => show win0_0.index t (2 : Fin 3) * 512 + 1 * dd.val = dd.val; omega

theorem iblk1_apply (c : Dev nD) (t : Fin cfg0.N) (b : Fin 128) (n : Fin 32) (dd : Fin 64) :
    iblk m c 1 t (ix3 b n dd) = (m ((c : Thread nD τ).loc main_arg1)) (ix3 (row t b) n dd) := by
  obtain ⟨-, -, -, e0, e1, e2, -⟩ := idx_facts t
  show V m c main_arg1 (((cfg0.win 1).blk t).view.emb (ix3 b n dd)) = _
  rw [V_main_arg1]
  refine congrArg _ ?_
  funext a; apply Fin.ext
  match a with
  | ⟨0, _⟩ => show win0_1.index t (0 : Fin 3) * 128 + 1 * b.val = t.val * 128 + b.val; omega
  | ⟨1, _⟩ => show win0_1.index t (1 : Fin 3) * 32 + 1 * n.val = n.val; omega
  | ⟨2, _⟩ => show win0_1.index t (2 : Fin 3) * 64 + 1 * dd.val = dd.val; omega

theorem iblk2_apply (c : Dev nD) (t : Fin cfg0.N) (b : Fin 128) (dd : Fin 512) :
    iblk m c 2 t (ix2 b dd) = (m ((c : Thread nD τ).loc main_arg2)) (ix2 (row t b) dd) := by
  obtain ⟨-, -, -, -, -, -, e0, e1, -⟩ := idx_facts t
  show V m c main_arg2 (((cfg0.win 2).blk t).view.emb (ix2 b dd)) = _
  rw [V_main_arg2]
  refine congrArg _ ?_
  funext a; apply Fin.ext
  match a with
  | ⟨0, _⟩ => show win0_2.index t (0 : Fin 2) * 128 + 1 * b.val = t.val * 128 + b.val; omega
  | ⟨1, _⟩ => show win0_2.index t (1 : Fin 2) * 512 + 1 * dd.val = dd.val; omega

theorem iblk3_apply (c : Dev nD) (t : Fin cfg0.N) (dd : Fin 512) (k : Fin 4) :
    iblk m c 3 t (ix2 dd k) = (m ((c : Thread nD τ).loc main_arg3)) (ix2 (⟨dd.val, by omega⟩ : Fin 1088) k) := by
  obtain ⟨h0, h1⟩ := idx_const3 t
  show V m c main_v0 (((cfg0.win 3).blk t).view.emb (ix2 dd k)) = _
  have e : ((cfg0.win 3).blk t).view.emb (ix2 dd k) = ix2 dd k := by
    funext a; apply Fin.ext
    match a with
    | ⟨0, _⟩ => show win0_3.index t (0 : Fin 2) * 512 + 1 * _ = _; rw [h0]; omega
    | ⟨1, _⟩ => show win0_3.index t (1 : Fin 2) * 4 + 1 * _ = _; rw [h1]; omega
  rw [e]
  exact KHost.V_v0_apply m c dd k

theorem iblk4_apply (c : Dev nD) (t : Fin cfg0.N) (dd : Fin 512) (k : Fin 4) :
    iblk m c 4 t (ix2 dd k) = (m ((c : Thread nD τ).loc main_arg3)) (ix2 (⟨512 + dd.val, by omega⟩ : Fin 1088) k) := by
  obtain ⟨h0, h1⟩ := idx_const4 t
  show V m c main_v1 (((cfg0.win 4).blk t).view.emb (ix2 dd k)) = _
  have e : ((cfg0.win 4).blk t).view.emb (ix2 dd k) = ix2 dd k := by
    funext a; apply Fin.ext
    match a with
    | ⟨0, _⟩ => show win0_4.index t (0 : Fin 2) * 512 + 1 * _ = _; rw [h0]; omega
    | ⟨1, _⟩ => show win0_4.index t (1 : Fin 2) * 4 + 1 * _ = _; rw [h1]; omega
  rw [e]
  exact KHost.V_v1_apply m c dd k

theorem iblk5_apply (c : Dev nD) (t : Fin cfg0.N) (dd : Fin 64) (k : Fin 4) :
    iblk m c 5 t (ix2 dd k) = (m ((c : Thread nD τ).loc main_arg3)) (ix2 (⟨1024 + dd.val, by omega⟩ : Fin 1088) k) := by
  obtain ⟨h0, h1⟩ := idx_const5 t
  show V m c main_v2 (((cfg0.win 5).blk t).view.emb (ix2 dd k)) = _
  have e : ((cfg0.win 5).blk t).view.emb (ix2 dd k) = ix2 dd k := by
    funext a; apply Fin.ext
    match a with
    | ⟨0, _⟩ => show win0_5.index t (0 : Fin 2) * 64 + 1 * _ = _; rw [h0]; omega
    | ⟨1, _⟩ => show win0_5.index t (1 : Fin 2) * 4 + 1 * _ = _; rw [h1]; omega
  rw [e]
  exact KHost.V_v2_apply m c dd k

theorem iblk6_apply (c : Dev nD) (t : Fin cfg0.N) (j q : Fin 512) :
    iblk m c 6 t (ix2 j q) = (m ((c : Thread nD τ).loc main_arg4)) (ix2 q j) := by
  obtain ⟨h0, h1⟩ := idx_const6 t
  show V m c main_v3 (((cfg0.win 6).blk t).view.emb (ix2 j q)) = _
  have e : ((cfg0.win 6).blk t).view.emb (ix2 j q) = ix2 j q := by
    funext a; apply Fin.ext
    match a with
    | ⟨0, _⟩ => show win0_6.index t (0 : Fin 2) * 512 + 1 * _ = _; rw [h0]; omega
    | ⟨1, _⟩ => show win0_6.index t (1 : Fin 2) * 512 + 1 * _ = _; rw [h1]; omega
  rw [e]
  exact KHost.V_v3_apply m c j q

theorem iblk7_apply (c : Dev nD) (t : Fin cfg0.N) (dd : Fin 512) :
    iblk m c 7 t (ix2 (0 : Fin 1) dd) = (m ((c : Thread nD τ).loc main_arg5)) (ix1 dd) := by
  obtain ⟨h0, h1⟩ := idx_const7 t
  show V m c main_v4 (((cfg0.win 7).blk t).view.emb (ix2 (0 : Fin 1) dd)) = _
  have e : ((cfg0.win 7).blk t).view.emb (ix2 (0 : Fin 1) dd) = ix2 (0 : Fin 1) dd := by
    funext a; apply Fin.ext
    match a with
    | ⟨0, _⟩ => show win0_7.index t (0 : Fin 2) * 1 + 1 * _ = _; rw [h0]; omega
    | ⟨1, _⟩ => show win0_7.index t (1 : Fin 2) * 512 + 1 * _ = _; rw [h1]; omega
  rw [e]
  exact KHost.V_v4_apply m c dd

theorem iblk8_apply (c : Dev nD) (t : Fin cfg0.N) (dd : Fin 512) :
    iblk m c 8 t (ix2 (0 : Fin 1) dd) = (m ((c : Thread nD τ).loc main_arg6)) (ix1 dd) := by
  obtain ⟨h0, h1⟩ := idx_const8 t
  show V m c main_v5 (((cfg0.win 8).blk t).view.emb (ix2 (0 : Fin 1) dd)) = _
  have e : ((cfg0.win 8).blk t).view.emb (ix2 (0 : Fin 1) dd) = ix2 (0 : Fin 1) dd := by
    funext a; apply Fin.ext
    match a with
    | ⟨0, _⟩ => show win0_8.index t (0 : Fin 2) * 1 + 1 * _ = _; rw [h0]; omega
    | ⟨1, _⟩ => show win0_8.index t (1 : Fin 2) * 512 + 1 * _ = _; rw [h1]; omega
  rw [e]
  exact KHost.V_v5_apply m c dd

theorem iblk9_apply (c : Dev nD) (t : Fin cfg0.N) (dd : Fin 512) :
    iblk m c 9 t (ix2 (0 : Fin 1) dd) = (m ((c : Thread nD τ).loc main_arg7)) (ix1 dd) := by
  obtain ⟨h0, h1⟩ := idx_const9 t
  show V m c main_v6 (((cfg0.win 9).blk t).view.emb (ix2 (0 : Fin 1) dd)) = _
  have e : ((cfg0.win 9).blk t).view.emb (ix2 (0 : Fin 1) dd) = ix2 (0 : Fin 1) dd := by
    funext a; apply Fin.ext
    match a with
    | ⟨0, _⟩ => show win0_9.index t (0 : Fin 2) * 1 + 1 * _ = _; rw [h0]; omega
    | ⟨1, _⟩ => show win0_9.index t (1 : Fin 2) * 512 + 1 * _ = _; rw [h1]; omega
  rw [e]
  exact KHost.V_v6_apply m c dd

theorem iblk10_apply (c : Dev nD) (t : Fin cfg0.N) (dd : Fin 512) :
    iblk m c 10 t (ix2 (0 : Fin 1) dd) = (m ((c : Thread nD τ).loc main_arg8)) (ix1 dd) := by
  obtain ⟨h0, h1⟩ := idx_const10 t
  show V m c main_v7 (((cfg0.win 10).blk t).view.emb (ix2 (0 : Fin 1) dd)) = _
  have e : ((cfg0.win 10).blk t).view.emb (ix2 (0 : Fin 1) dd) = ix2 (0 : Fin 1) dd := by
    funext a; apply Fin.ext
    match a with
    | ⟨0, _⟩ => show win0_10.index t (0 : Fin 2) * 1 + 1 * _ = _; rw [h0]; omega
    | ⟨1, _⟩ => show win0_10.index t (1 : Fin 2) * 512 + 1 * _ = _; rw [h1]; omega
  rw [e]
  exact KHost.V_v7_apply m c dd

theorem iblk11_apply (c : Dev nD) (t : Fin cfg0.N) (dd : Fin 512) :
    iblk m c 11 t (ix2 (0 : Fin 1) dd) = (m ((c : Thread nD τ).loc main_arg9)) (ix1 dd) := by
  obtain ⟨h0, h1⟩ := idx_const11 t
  show V m c main_v8 (((cfg0.win 11).blk t).view.emb (ix2 (0 : Fin 1) dd)) = _
  have e : ((cfg0.win 11).blk t).view.emb (ix2 (0 : Fin 1) dd) = ix2 (0 : Fin 1) dd := by
    funext a; apply Fin.ext
    match a with
    | ⟨0, _⟩ => show win0_11.index t (0 : Fin 2) * 1 + 1 * _ = _; rw [h0]; omega
    | ⟨1, _⟩ => show win0_11.index t (1 : Fin 2) * 512 + 1 * _ = _; rw [h1]; omega
  rw [e]
  exact KHost.V_v8_apply m c dd

/-! ## What a point writes back, the cover, the array -/

theorem emb12 (t : Fin cfg0.N) (b : Fin 128) (cc : Fin 512) :
    ((cfg0.win 12).blk t).view.emb (ix2 b cc) = ix2 (row t b) cc := by
  obtain ⟨-, -, -, -, -, -, -, -, e0, e1⟩ := idx_facts t
  funext a; apply Fin.ext
  match a with
  | ⟨0, _⟩ => show win0_12.index t (0 : Fin 2) * 128 + 1 * b.val = t.val * 128 + b.val; omega
  | ⟨1, _⟩ => show win0_12.index t (1 : Fin 2) * 512 + 1 * cc.val = cc.val; omega

/-- What point t writes back is block t of `Gk` of the argument arrays. -/
theorem flushed12_eq (c : Dev nD) (t : Fin cfg0.N) :
    (dats m 0 c).flushed 12 t = ((cfg0.win 12).blk t).view.read (Elt Ideal) (Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [flushed12_A]
  funext j
  obtain ⟨b, cc, rfl⟩ : ∃ (b : Fin 128) (cc : Fin 512), j = ix2 b cc := ⟨j 0, j 1, eq_ix2 (n0 := 128) (n1 := 512) j⟩
  rw [View.read_apply, emb12]
  change out0_A_12 _ _ _ _ _ _ _ _ _ _ _ _ _ _ _ _ _ _ _ _ _ _ _ _ _ _ _ _ _ _ _ _ _ _ _ _ _ _ _ _ _ _ _ _ _ _ _ (ix2 b cc) = _
  unfold out0_A_12
  rw [L12_eq, read_writes_cons_unit_zero _ _ hz2]
  rw [KValue.r7_apply _ _ _ _ _ _ _ _ _ _ _ _ _ _ _ _ _ _ _ _ _ _ _ _ _ _ _ _ _ _ _ _ _ _ _ _ _ _ _ _ _ _ _ _ _ _ _ (fun jj k => (m ((c : Thread nD τ).loc main_arg3)) (ix2 jj k))
    (fun dd k => iblk3_apply m c t dd k) (fun dd k => iblk4_apply m c t dd k) (fun dd k => iblk5_apply m c t dd k) b cc]
  unfold Gk
  simp only [iblk0_apply, iblk1_apply, iblk2_apply, iblk6_apply, iblk7_apply, iblk8_apply, iblk9_apply, iblk10_apply,
    iblk11_apply]
  rfl

theorem mem_blk12 (t : Fin cfg0.N) (i : S4096x512.Idx) :
    i ∈ ((cfg0.win 12).blk t).view.set ↔ ∀ a : Fin 2, win0_12.index t a * S128x512.size a ≤ (i a).val
      ∧ (i a).val < win0_12.index t a * S128x512.size a + S128x512.size a := by
  show i ∈ ((View.whole main_v9).slice (win0_12.rect t)).set ↔ _
  rw [View.set_slice_whole, Rect.mem_set_unit]
  exact Iff.rfl

/-- Every index of the result is in some point's block: row r is in block r / 128. -/
theorem cover12 (i : S4096x512.Idx) :
    ∃ t : Fin cfg0.N, (cfg0.win 12).flush t = true ∧ i ∈ ((cfg0.win 12).blk t).view.set := by
  have hi0 : (i 0).val < 4096 := (i 0).isLt
  have hi1 : (i 1).val < 512 := (i 1).isLt
  have ht : (i 0).val / 128 < 32 := by omega
  obtain ⟨-, -, -, -, -, -, -, -, e0, e1⟩ := idx_facts ⟨(i 0).val / 128, ht⟩
  refine ⟨⟨(i 0).val / 128, ht⟩, flush0_12 _, ?_⟩
  rw [mem_blk12]
  intro a
  match a with
  | ⟨0, _⟩ =>
    show win0_12.index ⟨(i 0).val / 128, ht⟩ (0 : Fin 2) * 128 ≤ (i 0).val
      ∧ (i 0).val < win0_12.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_12.index ⟨(i 0).val / 128, ht⟩ (1 : Fin 2) * 512 ≤ (i 1).val
      ∧ (i 1).val < win0_12.index ⟨(i 0).val / 128, ht⟩ (1 : Fin 2) * 512 + 512
    rw [e1]; omega

/-- The result array after the run. -/
theorem final12 (c : Dev nD) : (dats m 0 c).arrAt 12 cfg0.N = Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 12 _ (fun t _ => flushed12_eq m c t) cover12

/-- The kernel's run, its result named. -/
theorem run : θ_run defs (onTc (τ := τ) (main (F := Ideal))) ⟨m, fun _ => 0, ρ⟩ fun r => ∀ c : Dev nD,
      r.2.mem ((c : Thread nD τ).loc main_v9) = Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final12 m c), (h c).2⟩) (run_blocks m ρ)

end Cert.KernelIdeal.KFinal

end
-- ==== Proof.RefRunOps.lean ====
/-
  The reference program's @main as the list of its host operations, in the program's order and cut at the
  stages of the computation: the scores, the leaky rectifier (the outlined function's operations at the call's
  buffers, ending in its select), the softmax over the points, the pooled keys with the logistic function and
  the residual, the first layer norm, the affine map with its residual, the second layer norm. The program is
  the straight line of these operations; every operation touches TensorCore buffers only and determines what
  it writes; each window's written buffers are listed, so that a buffer outside a window's list keeps its
  contents through the window.
-/
import proofs.«109109_j40484361732519_2_alg».proof.ReferenceIdeal
import proofs.«109109_j40484361732519_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- The scores: the query repeated over the points, joined with the keys and the spatial vectors, contracted with the attention matrix. -/
abbrev w1 : List (HloOp τ sig (Elt F)) :=
  [ StableHlo.unary main_arg2 main_v0 (broadcastInDim S4096x1x512 ![0, 2] bcast_S4096x512_S4096x1x512_0_2 : (⟨S4096x512, .f32⟩ : BufTy).Contents (Elt F) → (⟨S4096x1x512, .f32⟩ : BufTy).Contents (Elt F)),
    StableHlo.unary main_v0 main_v1 (broadcastInDim S4096x32x512 ![0, 1, 2] bcast_S4096x1x512_S4096x32x512_0_1_2 : (⟨S4096x1x512, .f32⟩ : BufTy).Contents (Elt F) → (⟨S4096x32x512, .f32⟩ : BufTy).Contents (Elt F)),
    StableHlo.nary ![main_v1, main_arg0, main_arg1] main_v2 (fun u => concatenate S4096x32x1088 2 [⟨S4096x32x512, u 0⟩, ⟨S4096x32x512, u 1⟩, ⟨S4096x32x64, u 2⟩] concatenates_S4096x32x512_S4096x32x512_S4096x32x64_S4096x32x1088_d2),
    StableHlo.binary main_v2 main_arg3 main_v3 ((fun l r => Host.dotGeneral dot_S4096x32x1088_S1088x4_S4096x32x4_2_0_01_1_n_n none l r) : (⟨S4096x32x1088, .f32⟩ : BufTy).Contents (Elt F) → (⟨S1088x4, .f32⟩ : BufTy).Contents (Elt F) → (⟨S4096x32x4, .f32⟩ : BufTy).Contents (Elt F)) ]

/-- The leaky rectifier: its slope, then the outlined function's operations at the call's buffers, ending in the select. -/
abbrev w2 : List (HloOp τ sig (Elt F)) :=
  [ StableHlo.nullary main_cst (constant S_ .f32 0x3C23D70A#32),
    TRef.nullary main_call0.cst (constant S_ .f32 0x00000000#32),
    TRef.unary main_call0.cst main_call0.v0 (broadcastInDim S4096x32x4 ![] bcast_S_S4096x32x4),
    TRef.binary (.of main_v3 : TRef sig ⟨S4096x32x4, .f32⟩) main_call0.v0 main_call0.v1 (cmpf .oge),
    TRef.unary (.of main_cst : TRef sig ⟨S_, .f32⟩) main_call0.v2 id,
    TRef.unary main_call0.v2 main_call0.v3 (broadcastInDim S4096x32x4 ![] bcast_S_S4096x32x4),
    TRef.binary main_call0.v3 (.of main_v3 : TRef sig ⟨S4096x32x4, .f32⟩) main_call0.v4 mulf,
    TRef.ternary main_call0.v1 (.of main_v3 : TRef sig ⟨S4096x32x4, .f32⟩) main_call0.v4 main_call0.call0.v0 select ]

/-- The softmax over the points. -/
abbrev w3 : List (HloOp τ sig (Elt F)) :=
  [ StableHlo.nullary main_cst_0 (constant S_ .f32 0xFF800000#32),
    StableHlo.binary main_v4 main_cst_0 main_v5 ((fun x v => Host.reduce FloatOps.maximumf x v reducesTo_S4096x32x4_S4096x4_d1 h_S_) : (⟨S4096x32x4, .f32⟩ : BufTy).Contents (Elt F) → (⟨S_, .f32⟩ : BufTy).Contents (Elt F) → (⟨S4096x4, .f32⟩ : BufTy).Contents (Elt F)),
    StableHlo.nullary main_cst_1 (constant S_ .f32 0xFF800000#32),
    StableHlo.unary main_cst_1 main_v6 (broadcastInDim S4096x4 ![] bcast_S_S4096x4 : (⟨S_, .f32⟩ : BufTy).Contents (Elt F) → (⟨S4096x4, .f32⟩ : BufTy).Contents (Elt F)),
    StableHlo.binary main_v6 main_v5 main_v7 (maximumf : (⟨S4096x4, .f32⟩ : BufTy).Contents (Elt F) → (⟨S4096x4, .f32⟩ : BufTy).Contents (Elt F) → (⟨S4096x4, .f32⟩ : BufTy).Contents (Elt F)),
    StableHlo.unary main_v7 main_v8 (broadcastInDim S4096x1x4 ![0, 2] bcast_S4096x4_S4096x1x4_0_2 : (⟨S4096x4, .f32⟩ : BufTy).Contents (Elt F) → (⟨S4096x1x4, .f32⟩ : BufTy).Contents (Elt F)),
    StableHlo.unary main_v8 main_v9 (broadcastInDim S4096x32x4 ![0, 1, 2] bcast_S4096x1x4_S4096x32x4_0_1_2 : (⟨S4096x1x4, .f32⟩ : BufTy).Contents (Elt F) → (⟨S4096x32x4, .f32⟩ : BufTy).Contents (Elt F)),
    StableHlo.binary main_v4 main_v9 main_v10 (subf : (⟨S4096x32x4, .f32⟩ : BufTy).Contents (Elt F) → (⟨S4096x32x4, .f32⟩ : BufTy).Contents (Elt F) → (⟨S4096x32x4, .f32⟩ : BufTy).Contents (Elt F)),
    StableHlo.unary main_v10 main_v11 (Host.exp : (⟨S4096x32x4, .f32⟩ : BufTy).Contents (Elt F) → (⟨S4096x32x4, .f32⟩ : BufTy).Contents (Elt F)),
    StableHlo.nullary main_cst_2 (constant S_ .f32 0x00000000#32),
    StableHlo.binary main_v11 main_cst_2 main_v12 ((fun x v => Host.reduceAdd x v reducesTo_S4096x32x4_S4096x4_d1 h_S_) : (⟨S4096x32x4, .f32⟩ : BufTy).Contents (Elt F) → (⟨S_, .f32⟩ : BufTy).Contents (Elt F) → (⟨S4096x4, .f32⟩ : BufTy).Contents (Elt F)),
    StableHlo.unary main_v12 main_v13 (broadcastInDim S4096x1x4 ![0, 2] bcast_S4096x4_S4096x1x4_0_2 : (⟨S4096x4, .f32⟩ : BufTy).Contents (Elt F) → (⟨S4096x1x4, .f32⟩ : BufTy).Contents (Elt F)),
    StableHlo.unary main_v13 main_v14 (broadcastInDim S4096x32x4 ![0, 1, 2] bcast_S4096x1x4_S4096x32x4_0_1_2 : (⟨S4096x1x4, .f32⟩ : BufTy).Contents (Elt F) → (⟨S4096x32x4, .f32⟩ : BufTy).Contents (Elt F)),
    StableHlo.binary main_v11 main_v14 main_v15 (Host.divf : (⟨S4096x32x4, .f32⟩ : BufTy).Contents (Elt F) → (⟨S4096x32x4, .f32⟩ : BufTy).Contents (Elt F) → (⟨S4096x32x4, .f32⟩ : BufTy).Contents (Elt F)) ]

/-- The keys pooled per head, the heads summed, the quarter, the logistic function, the residual. -/
abbrev w4 : List (HloOp τ sig (Elt F)) :=
  [ StableHlo.binary main_v15 main_arg0 main_v16 ((fun l r => Host.dotGeneral dot_S4096x32x4_S4096x32x512_S4096x4x512_1_1_2_2_0_0 none l r) : (⟨S4096x32x4, .f32⟩ : BufTy).Contents (Elt F) → (⟨S4096x32x512, .f32⟩ : BufTy).Contents (Elt F) → (⟨S4096x4x512, .f32⟩ : BufTy).Contents (Elt F)),
    StableHlo.nullary main_cst_3 (constant S_ .f32 0x00000000#32),
    StableHlo.binary main_v16 main_cst_3 main_v17 ((fun x v => Host.reduceAdd x v reducesTo_S4096x4x512_S4096x512_d1 h_S_) : (⟨S4096x4x512, .f32⟩ : BufTy).Contents (Elt F) → (⟨S_, .f32⟩ : BufTy).Contents (Elt F) → (⟨S4096x512, .f32⟩ : BufTy).Contents (Elt F)),
    StableHlo.nullary main_cst_4 (constant S_ .f32 0x3E800000#32),
    StableHlo.unary main_cst_4 main_v18 (broadcastInDim S4096x512 ![] bcast_S_S4096x512 : (⟨S_, .f32⟩ : BufTy).Contents (Elt F) → (⟨S4096x512, .f32⟩ : BufTy).Contents (Elt F)),
    StableHlo.binary main_v17 main_v18 main_v19 (mulf : (⟨S4096x512, .f32⟩ : BufTy).Contents (Elt F) → (⟨S4096x512, .f32⟩ : BufTy).Contents (Elt F) → (⟨S4096x512, .f32⟩ : BufTy).Contents (Elt F)),
    StableHlo.unary main_v19 main_v20 (Host.negf : (⟨S4096x512, .f32⟩ : BufTy).Contents (Elt F) → (⟨S4096x512, .f32⟩ : BufTy).Contents (Elt F)),
    StableHlo.unary main_v20 main_v21 (Host.exp : (⟨S4096x512, .f32⟩ : BufTy).Contents (Elt F) → (⟨S4096x512, .f32⟩ : BufTy).Contents (Elt F)),
    StableHlo.nullary main_cst_5 (constant S_ .f32 0x3F800000#32),
    StableHlo.unary main_cst_5 main_v22 (broadcastInDim S4096x512 ![] bcast_S_S4096x512 : (⟨S_, .f32⟩ : BufTy).Contents (Elt F) → (⟨S4096x512, .f32⟩ : BufTy).Contents (Elt F)),
    StableHlo.binary main_v22 main_v21 main_v23 (addf : (⟨S4096x512, .f32⟩ : BufTy).Contents (Elt F) → (⟨S4096x512, .f32⟩ : BufTy).Contents (Elt F) → (⟨S4096x512, .f32⟩ : BufTy).Contents (Elt F)),
    StableHlo.nullary main_cst_6 (constant S_ .f32 0x3F800000#32),
    StableHlo.unary main_cst_6 main_v24 (broadcastInDim S4096x512 ![] bcast_S_S4096x512 : (⟨S_, .f32⟩ : BufTy).Contents (Elt F) → (⟨S4096x512, .f32⟩ : BufTy).Contents (Elt F)),
    StableHlo.binary main_v24 main_v23 main_v25 (Host.divf : (⟨S4096x512, .f32⟩ : BufTy).Contents (Elt F) → (⟨S4096x512, .f32⟩ : BufTy).Contents (Elt F) → (⟨S4096x512, .f32⟩ : BufTy).Contents (Elt F)),
    StableHlo.binary main_v25 main_arg2 main_v26 (addf : (⟨S4096x512, .f32⟩ : BufTy).Contents (Elt F) → (⟨S4096x512, .f32⟩ : BufTy).Contents (Elt F) → (⟨S4096x512, .f32⟩ : BufTy).Contents (Elt F)) ]

/-- The first layer norm, up to the broadcast of the standard deviation. -/
abbrev w5a : List (HloOp τ sig (Elt F)) :=
  [ StableHlo.nullary main_cst_7 (constant S_ .f32 0x00000000#32),
    StableHlo.binary main_v26 main_cst_7 main_v27 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v27 main_v28 (broadcastInDim S4096x1 ![0] bcast_S4096_S4096x1_0 : (⟨S4096, .f32⟩ : BufTy).Contents (Elt F) → (⟨S4096x1, .f32⟩ : BufTy).Contents (Elt F)),
    StableHlo.nullary main_cst_8 (constant S_ .f32 0x44000000#32),
    StableHlo.unary main_cst_8 main_v29 (broadcastInDim S4096x1 ![] bcast_S_S4096x1 : (⟨S_, .f32⟩ : BufTy).Contents (Elt F) → (⟨S4096x1, .f32⟩ : BufTy).Contents (Elt F)),
    StableHlo.binary main_v28 main_v29 main_v30 (Host.divf : (⟨S4096x1, .f32⟩ : BufTy).Contents (Elt F) → (⟨S4096x1, .f32⟩ : BufTy).Contents (Elt F) → (⟨S4096x1, .f32⟩ : BufTy).Contents (Elt F)),
    StableHlo.unary main_v30 main_v31 (broadcastInDim S4096x512 ![0, 1] bcast_S4096x1_S4096x512_0_1 : (⟨S4096x1, .f32⟩ : BufTy).Contents (Elt F) → (⟨S4096x512, .f32⟩ : BufTy).Contents (Elt F)),
    StableHlo.binary main_v26 main_v31 main_v32 (subf : (⟨S4096x512, .f32⟩ : BufTy).Contents (Elt F) → (⟨S4096x512, .f32⟩ : BufTy).Contents (Elt F) → (⟨S4096x512, .f32⟩ : BufTy).Contents (Elt F)),
    StableHlo.binary main_v32 main_v32 main_v33 (mulf : (⟨S4096x512, .f32⟩ : BufTy).Contents (Elt F) → (⟨S4096x512, .f32⟩ : BufTy).Contents (Elt F) → (⟨S4096x512, .f32⟩ : BufTy).Contents (Elt F)),
    StableHlo.nullary main_cst_9 (constant S_ .f32 0x00000000#32),
    StableHlo.binary main_v33 main_cst_9 main_v34 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v34 main_v35 (broadcastInDim S4096x1 ![0] bcast_S4096_S4096x1_0 : (⟨S4096, .f32⟩ : BufTy).Contents (Elt F) → (⟨S4096x1, .f32⟩ : BufTy).Contents (Elt F)),
    StableHlo.nullary main_cst_10 (constant S_ .f32 0x44000000#32),
    StableHlo.unary main_cst_10 main_v36 (broadcastInDim S4096x1 ![] bcast_S_S4096x1 : (⟨S_, .f32⟩ : BufTy).Contents (Elt F) → (⟨S4096x1, .f32⟩ : BufTy).Contents (Elt F)),
    StableHlo.binary main_v35 main_v36 main_v37 (Host.divf : (⟨S4096x1, .f32⟩ : BufTy).Contents (Elt F) → (⟨S4096x1, .f32⟩ : BufTy).Contents (Elt F) → (⟨S4096x1, .f32⟩ : BufTy).Contents (Elt F)),
    StableHlo.unary main_v30 main_v38 (broadcastInDim S4096x512 ![0, 1] bcast_S4096x1_S4096x512_0_1 : (⟨S4096x1, .f32⟩ : BufTy).Contents (Elt F) → (⟨S4096x512, .f32⟩ : BufTy).Contents (Elt F)),
    StableHlo.binary main_v26 main_v38 main_v39 (subf : (⟨S4096x512, .f32⟩ : BufTy).Contents (Elt F) → (⟨S4096x512, .f32⟩ : BufTy).Contents (Elt F) → (⟨S4096x512, .f32⟩ : BufTy).Contents (Elt F)),
    StableHlo.unary main_arg6 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S4096x512 ![0, 1] bcast_S1x512_S4096x512_0_1 : (⟨S1x512, .f32⟩ : BufTy).Contents (Elt F) → (⟨S4096x512, .f32⟩ : BufTy).Contents (Elt F)),
    StableHlo.binary main_v41 main_v39 main_v42 (mulf : (⟨S4096x512, .f32⟩ : BufTy).Contents (Elt F) → (⟨S4096x512, .f32⟩ : BufTy).Contents (Elt F) → (⟨S4096x512, .f32⟩ : BufTy).Contents (Elt F)),
    StableHlo.nullary main_cst_11 (constant S_ .f32 0x358637BD#32),
    StableHlo.unary main_cst_11 main_v43 (broadcastInDim S4096x1 ![] bcast_S_S4096x1 : (⟨S_, .f32⟩ : BufTy).Contents (Elt F) → (⟨S4096x1, .f32⟩ : BufTy).Contents (Elt F)),
    StableHlo.binary main_v37 main_v43 main_v44 (addf : (⟨S4096x1, .f32⟩ : BufTy).Contents (Elt F) → (⟨S4096x1, .f32⟩ : BufTy).Contents (Elt F) → (⟨S4096x1, .f32⟩ : BufTy).Contents (Elt F)),
    StableHlo.unary main_v44 main_v45 (Host.sqrt : (⟨S4096x1, .f32⟩ : BufTy).Contents (Elt F) → (⟨S4096x1, .f32⟩ : BufTy).Contents (Elt F)),
    StableHlo.unary main_v45 main_v46 (broadcastInDim S4096x512 ![0, 1] bcast_S4096x1_S4096x512_0_1 : (⟨S4096x1, .f32⟩ : BufTy).Contents (Elt F) → (⟨S4096x512, .f32⟩ : BufTy).Contents (Elt F)) ]

/-- The first layer norm's division and shift. -/
abbrev w5b : List (HloOp τ sig (Elt F)) :=
  [ StableHlo.binary main_v42 main_v46 main_v47 (Host.divf : (⟨S4096x512, .f32⟩ : BufTy).Contents (Elt F) → (⟨S4096x512, .f32⟩ : BufTy).Contents (Elt F) → (⟨S4096x512, .f32⟩ : BufTy).Contents (Elt F)),
    StableHlo.unary main_arg7 main_v48 (broadcastInDim S1x512 ![1] bcast_S512_S1x512_1 : (⟨S512, .f32⟩ : BufTy).Contents (Elt F) → (⟨S1x512, .f32⟩ : BufTy).Contents (Elt F)),
    StableHlo.unary main_v48 main_v49 (broadcastInDim S4096x512 ![0, 1] bcast_S1x512_S4096x512_0_1 : (⟨S1x512, .f32⟩ : BufTy).Contents (Elt F) → (⟨S4096x512, .f32⟩ : BufTy).Contents (Elt F)),
    StableHlo.binary main_v47 main_v49 main_v50 (addf : (⟨S4096x512, .f32⟩ : BufTy).Contents (Elt F) → (⟨S4096x512, .f32⟩ : BufTy).Contents (Elt F) → (⟨S4096x512, .f32⟩ : BufTy).Contents (Elt F)) ]

/-- The affine map with its residual. -/
abbrev w6 : List (HloOp τ sig (Elt F)) :=
  [ StableHlo.unary main_arg4 main_v51 ((transpose S512x512 [1, 0] · transposes_S512x512_S512x512_1_0) : (⟨S512x512, .f32⟩ : BufTy).Contents (Elt F) → (⟨S512x512, .f32⟩ : BufTy).Contents (Elt F)),
    StableHlo.binary main_v50 main_v51 main_v52 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v53 (broadcastInDim S1x512 ![1] bcast_S512_S1x512_1 : (⟨S512, .f32⟩ : BufTy).Contents (Elt F) → (⟨S1x512, .f32⟩ : BufTy).Contents (Elt F)),
    StableHlo.unary main_v53 main_v54 (broadcastInDim S4096x512 ![0, 1] bcast_S1x512_S4096x512_0_1 : (⟨S1x512, .f32⟩ : BufTy).Contents (Elt F) → (⟨S4096x512, .f32⟩ : BufTy).Contents (Elt F)),
    StableHlo.binary main_v52 main_v54 main_v55 (addf : (⟨S4096x512, .f32⟩ : BufTy).Contents (Elt F) → (⟨S4096x512, .f32⟩ : BufTy).Contents (Elt F) → (⟨S4096x512, .f32⟩ : BufTy).Contents (Elt F)),
    StableHlo.binary main_v55 main_v50 main_v56 (addf : (⟨S4096x512, .f32⟩ : BufTy).Contents (Elt F) → (⟨S4096x512, .f32⟩ : BufTy).Contents (Elt F) → (⟨S4096x512, .f32⟩ : BufTy).Contents (Elt F)) ]

/-- The second layer norm. -/
abbrev w7 : List (HloOp τ sig (Elt F)) :=
  [ StableHlo.nullary main_cst_12 (constant S_ .f32 0x00000000#32),
    StableHlo.binary main_v56 main_cst_12 main_v57 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v57 main_v58 (broadcastInDim S4096x1 ![0] bcast_S4096_S4096x1_0 : (⟨S4096, .f32⟩ : BufTy).Contents (Elt F) → (⟨S4096x1, .f32⟩ : BufTy).Contents (Elt F)),
    StableHlo.nullary main_cst_13 (constant S_ .f32 0x44000000#32),
    StableHlo.unary main_cst_13 main_v59 (broadcastInDim S4096x1 ![] bcast_S_S4096x1 : (⟨S_, .f32⟩ : BufTy).Contents (Elt F) → (⟨S4096x1, .f32⟩ : BufTy).Contents (Elt F)),
    StableHlo.binary main_v58 main_v59 main_v60 (Host.divf : (⟨S4096x1, .f32⟩ : BufTy).Contents (Elt F) → (⟨S4096x1, .f32⟩ : BufTy).Contents (Elt F) → (⟨S4096x1, .f32⟩ : BufTy).Contents (Elt F)),
    StableHlo.unary main_v60 main_v61 (broadcastInDim S4096x512 ![0, 1] bcast_S4096x1_S4096x512_0_1 : (⟨S4096x1, .f32⟩ : BufTy).Contents (Elt F) → (⟨S4096x512, .f32⟩ : BufTy).Contents (Elt F)),
    StableHlo.binary main_v56 main_v61 main_v62 (subf : (⟨S4096x512, .f32⟩ : BufTy).Contents (Elt F) → (⟨S4096x512, .f32⟩ : BufTy).Contents (Elt F) → (⟨S4096x512, .f32⟩ : BufTy).Contents (Elt F)),
    StableHlo.binary main_v62 main_v62 main_v63 (mulf : (⟨S4096x512, .f32⟩ : BufTy).Contents (Elt F) → (⟨S4096x512, .f32⟩ : BufTy).Contents (Elt F) → (⟨S4096x512, .f32⟩ : BufTy).Contents (Elt F)),
    StableHlo.nullary main_cst_14 (constant S_ .f32 0x00000000#32),
    StableHlo.binary main_v63 main_cst_14 main_v64 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    StableHlo.unary main_v64 main_v65 (broadcastInDim S4096x1 ![0] bcast_S4096_S4096x1_0 : (⟨S4096, .f32⟩ : BufTy).Contents (Elt F) → (⟨S4096x1, .f32⟩ : BufTy).Contents (Elt F)),
    StableHlo.nullary main_cst_15 (constant S_ .f32 0x44000000#32),
    StableHlo.unary main_cst_15 main_v66 (broadcastInDim S4096x1 ![] bcast_S_S4096x1 : (⟨S_, .f32⟩ : BufTy).Contents (Elt F) → (⟨S4096x1, .f32⟩ : BufTy).Contents (Elt F)),
    StableHlo.binary main_v65 main_v66 main_v67 (Host.divf : (⟨S4096x1, .f32⟩ : BufTy).Contents (Elt F) → (⟨S4096x1, .f32⟩ : BufTy).Contents (Elt F) → (⟨S4096x1, .f32⟩ : BufTy).Contents (Elt F)),
    StableHlo.unary main_v60 main_v68 (broadcastInDim S4096x512 ![0, 1] bcast_S4096x1_S4096x512_0_1 : (⟨S4096x1, .f32⟩ : BufTy).Contents (Elt F) → (⟨S4096x512, .f32⟩ : BufTy).Contents (Elt F)),
    StableHlo.binary main_v56 main_v68 main_v69 (subf : (⟨S4096x512, .f32⟩ : BufTy).Contents (Elt F) → (⟨S4096x512, .f32⟩ : BufTy).Contents (Elt F) → (⟨S4096x512, .f32⟩ : BufTy).Contents (Elt F)),
    StableHlo.unary main_arg8 main_v70 (broadcastInDim S1x512 ![1] bcast_S512_S1x512_1 : (⟨S512, .f32⟩ : BufTy).Contents (Elt F) → (⟨S1x512, .f32⟩ : BufTy).Contents (Elt F)),
    StableHlo.unary main_v70 main_v71 (broadcastInDim S4096x512 ![0, 1] bcast_S1x512_S4096x512_0_1 : (⟨S1x512, .f32⟩ : BufTy).Contents (Elt F) → (⟨S4096x512, .f32⟩ : BufTy).Contents (Elt F)),
    StableHlo.binary main_v71 main_v69 main_v72 (mulf : (⟨S4096x512, .f32⟩ : BufTy).Contents (Elt F) → (⟨S4096x512, .f32⟩ : BufTy).Contents (Elt F) → (⟨S4096x512, .f32⟩ : BufTy).Contents (Elt F)),
    StableHlo.nullary main_cst_16 (constant S_ .f32 0x358637BD#32),
    StableHlo.unary main_cst_16 main_v73 (broadcastInDim S4096x1 ![] bcast_S_S4096x1 : (⟨S_, .f32⟩ : BufTy).Contents (Elt F) → (⟨S4096x1, .f32⟩ : BufTy).Contents (Elt F)),
    StableHlo.binary main_v67 main_v73 main_v74 (addf : (⟨S4096x1, .f32⟩ : BufTy).Contents (Elt F) → (⟨S4096x1, .f32⟩ : BufTy).Contents (Elt F) → (⟨S4096x1, .f32⟩ : BufTy).Contents (Elt F)),
    StableHlo.unary main_v74 main_v75 (Host.sqrt : (⟨S4096x1, .f32⟩ : BufTy).Contents (Elt F) → (⟨S4096x1, .f32⟩ : BufTy).Contents (Elt F)),
    StableHlo.unary main_v75 main_v76 (broadcastInDim S4096x512 ![0, 1] bcast_S4096x1_S4096x512_0_1 : (⟨S4096x1, .f32⟩ : BufTy).Contents (Elt F) → (⟨S4096x512, .f32⟩ : BufTy).Contents (Elt F)),
    StableHlo.binary main_v72 main_v76 main_v77 (Host.divf : (⟨S4096x512, .f32⟩ : BufTy).Contents (Elt F) → (⟨S4096x512, .f32⟩ : BufTy).Contents (Elt F) → (⟨S4096x512, .f32⟩ : BufTy).Contents (Elt F)),
    StableHlo.unary main_arg9 main_v78 (broadcastInDim S1x512 ![1] bcast_S512_S1x512_1 : (⟨S512, .f32⟩ : BufTy).Contents (Elt F) → (⟨S1x512, .f32⟩ : BufTy).Contents (Elt F)),
    StableHlo.unary main_v78 main_v79 (broadcastInDim S4096x512 ![0, 1] bcast_S1x512_S4096x512_0_1 : (⟨S1x512, .f32⟩ : BufTy).Contents (Elt F) → (⟨S4096x512, .f32⟩ : BufTy).Contents (Elt F)),
    StableHlo.binary main_v77 main_v79 main_v80 (addf : (⟨S4096x512, .f32⟩ : BufTy).Contents (Elt F) → (⟨S4096x512, .f32⟩ : BufTy).Contents (Elt F) → (⟨S4096x512, .f32⟩ : BufTy).Contents (Elt F)) ]

/-- A property of every operation of two lines holds of every operation of the two in a row. -/
theorem forall_app {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The contents after two lines in a row are the second's after the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- An operation whose one written buffer is in a list writes inside the list. -/
theorem writes_sub_of {op : HloOp τ sig (Elt F)} {y : Ref sig .tc} {W : List (Ref sig .tc)}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

theorem w1_sub : (w1 : List (HloOp τ sig (Elt F))).Forall fun op => op.bufs ⊆ tcRefs τ sig :=
  ⟨unary_bufs_sub .., unary_bufs_sub .., nary_bufs_sub .., binary_bufs_sub ..⟩
theorem w1_fresh : (w1 : List (HloOp τ sig (Elt F))).Forall fun op => op.fresh = ∅ :=
  ⟨rfl, rfl, rfl, rfl⟩
/-- The buffers that window `w1` writes. -/
abbrev w1_W : List (Ref sig .tc) := [main_v0, main_v1, main_v2, main_v3]
theorem w1_writes : (w1 : List (HloOp τ sig (Elt F))).Forall fun op => op.writes ⊆ (w1_W.map (Proc.devRef (τ := τ) .tc)).toFinset :=
  ⟨writes_sub_of (y := main_v0) rfl (by decide),
   writes_sub_of (y := main_v1) rfl (by decide),
   writes_sub_of (y := main_v2) rfl (by decide),
   writes_sub_of (y := main_v3) rfl (by decide)⟩
/-- A buffer that window `w1` does not write keeps its contents through it. -/
theorem w1_keep (V : Valuation τ sig (Elt F)) (r : Ref sig .tc) (h : r ∉ w1_W) :
    after w1 V (Proc.devRef .tc r) = V (Proc.devRef .tc r) :=
  after_of_writes_sub w1 V w1_writes h

theorem w2_sub : (w2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem w2_fresh : (w2 : List (HloOp τ sig (Elt F))).Forall fun op => op.fresh = ∅ :=
  ⟨rfl, rfl, rfl, rfl, rfl, rfl, rfl, rfl⟩
/-- The buffers that window `w2` writes. -/
abbrev w2_W : List (Ref sig .tc) := [main_cst, main_call0_cst, main_call0_v0, main_call0_v1, main_call0_v2, main_call0_v3, main_call0_v4, main_v4]
theorem w2_writes : (w2 : List (HloOp τ sig (Elt F))).Forall fun op => op.writes ⊆ (w2_W.map (Proc.devRef (τ := τ) .tc)).toFinset :=
  ⟨writes_sub_of (y := main_cst) rfl (by decide),
   writes_sub_of (y := main_call0_cst) rfl (by decide),
   writes_sub_of (y := main_call0_v0) rfl (by decide),
   writes_sub_of (y := main_call0_v1) rfl (by decide),
   writes_sub_of (y := main_call0_v2) rfl (by decide),
   writes_sub_of (y := main_call0_v3) rfl (by decide),
   writes_sub_of (y := main_call0_v4) rfl (by decide),
   writes_sub_of (y := main_v4) rfl (by decide)⟩
/-- A buffer that window `w2` does not write keeps its contents through it. -/
theorem w2_keep (V : Valuation τ sig (Elt F)) (r : Ref sig .tc) (h : r ∉ w2_W) :
    after w2 V (Proc.devRef .tc r) = V (Proc.devRef .tc r) :=
  after_of_writes_sub w2 V w2_writes h

theorem w3_sub : (w3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem w3_fresh : (w3 : List (HloOp τ sig (Elt F))).Forall fun op => op.fresh = ∅ :=
  ⟨rfl, rfl, rfl, rfl, rfl, rfl, rfl, rfl, rfl, rfl, rfl, rfl, rfl, rfl⟩
/-- The buffers that window `w3` writes. -/
abbrev w3_W : List (Ref sig .tc) := [main_cst_0, main_v5, main_cst_1, main_v6, main_v7, main_v8, main_v9, main_v10, main_v11, main_cst_2, main_v12, main_v13, main_v14, main_v15]
theorem w3_writes : (w3 : List (HloOp τ sig (Elt F))).Forall fun op => op.writes ⊆ (w3_W.map (Proc.devRef (τ := τ) .tc)).toFinset :=
  ⟨writes_sub_of (y := main_cst_0) rfl (by decide),
   writes_sub_of (y := main_v5) rfl (by decide),
   writes_sub_of (y := main_cst_1) rfl (by decide),
   writes_sub_of (y := main_v6) rfl (by decide),
   writes_sub_of (y := main_v7) rfl (by decide),
   writes_sub_of (y := main_v8) rfl (by decide),
   writes_sub_of (y := main_v9) rfl (by decide),
   writes_sub_of (y := main_v10) rfl (by decide),
   writes_sub_of (y := main_v11) rfl (by decide),
   writes_sub_of (y := main_cst_2) rfl (by decide),
   writes_sub_of (y := main_v12) rfl (by decide),
   writes_sub_of (y := main_v13) rfl (by decide),
   writes_sub_of (y := main_v14) rfl (by decide),
   writes_sub_of (y := main_v15) rfl (by decide)⟩
/-- A buffer that window `w3` does not write keeps its contents through it. -/
theorem w3_keep (V : Valuation τ sig (Elt F)) (r : Ref sig .tc) (h : r ∉ w3_W) :
    after w3 V (Proc.devRef .tc r) = V (Proc.devRef .tc r) :=
  after_of_writes_sub w3 V w3_writes h

theorem w4_sub : (w4 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem w4_fresh : (w4 : List (HloOp τ sig (Elt F))).Forall fun op => op.fresh = ∅ :=
  ⟨rfl, rfl, rfl, rfl, rfl, rfl, rfl, rfl, rfl, rfl, rfl, rfl, rfl, rfl, rfl⟩
/-- The buffers that window `w4` writes. -/
abbrev w4_W : List (Ref sig .tc) := [main_v16, main_cst_3, main_v17, main_cst_4, main_v18, main_v19, main_v20, main_v21, main_cst_5, main_v22, main_v23, main_cst_6, main_v24, main_v25, main_v26]
theorem w4_writes : (w4 : List (HloOp τ sig (Elt F))).Forall fun op => op.writes ⊆ (w4_W.map (Proc.devRef (τ := τ) .tc)).toFinset :=
  ⟨writes_sub_of (y := main_v16) rfl (by decide),
   writes_sub_of (y := main_cst_3) rfl (by decide),
   writes_sub_of (y := main_v17) rfl (by decide),
   writes_sub_of (y := main_cst_4) rfl (by decide),
   writes_sub_of (y := main_v18) rfl (by decide),
   writes_sub_of (y := main_v19) rfl (by decide),
   writes_sub_of (y := main_v20) rfl (by decide),
   writes_sub_of (y := main_v21) rfl (by decide),
   writes_sub_of (y := main_cst_5) rfl (by decide),
   writes_sub_of (y := main_v22) rfl (by decide),
   writes_sub_of (y := main_v23) rfl (by decide),
   writes_sub_of (y := main_cst_6) rfl (by decide),
   writes_sub_of (y := main_v24) rfl (by decide),
   writes_sub_of (y := main_v25) rfl (by decide),
   writes_sub_of (y := main_v26) rfl (by decide)⟩
/-- A buffer that window `w4` does not write keeps its contents through it. -/
theorem w4_keep (V : Valuation τ sig (Elt F)) (r : Ref sig .tc) (h : r ∉ w4_W) :
    after w4 V (Proc.devRef .tc r) = V (Proc.devRef .tc r) :=
  after_of_writes_sub w4 V w4_writes h

theorem w5a_sub : (w5a : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub ..⟩
theorem w5a_fresh : (w5a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- The buffers that window `w5a` writes. -/
abbrev w5a_W : List (Ref sig .tc) := [main_cst_7, main_v27, main_v28, main_cst_8, main_v29, main_v30, main_v31, main_v32, main_v33, main_cst_9, main_v34, main_v35, main_cst_10, main_v36, main_v37, main_v38, main_v39, main_v40, main_v41, main_v42, main_cst_11, main_v43, main_v44, main_v45, main_v46]
theorem w5a_writes : (w5a : List (HloOp τ sig (Elt F))).Forall fun op => op.writes ⊆ (w5a_W.map (Proc.devRef (τ := τ) .tc)).toFinset :=
  ⟨writes_sub_of (y := main_cst_7) rfl (by decide),
   writes_sub_of (y := main_v27) rfl (by decide),
   writes_sub_of (y := main_v28) rfl (by decide),
   writes_sub_of (y := main_cst_8) rfl (by decide),
   writes_sub_of (y := main_v29) rfl (by decide),
   writes_sub_of (y := main_v30) rfl (by decide),
   writes_sub_of (y := main_v31) rfl (by decide),
   writes_sub_of (y := main_v32) rfl (by decide),
   writes_sub_of (y := main_v33) rfl (by decide),
   writes_sub_of (y := main_cst_9) rfl (by decide),
   writes_sub_of (y := main_v34) rfl (by decide),
   writes_sub_of (y := main_v35) rfl (by decide),
   writes_sub_of (y := main_cst_10) rfl (by decide),
   writes_sub_of (y := main_v36) rfl (by decide),
   writes_sub_of (y := main_v37) rfl (by decide),
   writes_sub_of (y := main_v38) rfl (by decide),
   writes_sub_of (y := main_v39) rfl (by decide),
   writes_sub_of (y := main_v40) rfl (by decide),
   writes_sub_of (y := main_v41) rfl (by decide),
   writes_sub_of (y := main_v42) rfl (by decide),
   writes_sub_of (y := main_cst_11) rfl (by decide),
   writes_sub_of (y := main_v43) rfl (by decide),
   writes_sub_of (y := main_v44) rfl (by decide),
   writes_sub_of (y := main_v45) rfl (by decide),
   writes_sub_of (y := main_v46) rfl (by decide)⟩
/-- A buffer that window `w5a` does not write keeps its contents through it. -/
theorem w5a_keep (V : Valuation τ sig (Elt F)) (r : Ref sig .tc) (h : r ∉ w5a_W) :
    after w5a V (Proc.devRef .tc r) = V (Proc.devRef .tc r) :=
  after_of_writes_sub w5a V w5a_writes h

theorem w5b_sub : (w5b : List (HloOp τ sig (Elt F))).Forall fun op => op.bufs ⊆ tcRefs τ sig :=
  ⟨binary_bufs_sub .., unary_bufs_sub .., unary_bufs_sub .., binary_bufs_sub ..⟩
theorem w5b_fresh : (w5b : List (HloOp τ sig (Elt F))).Forall fun op => op.fresh = ∅ :=
  ⟨rfl, rfl, rfl, rfl⟩
/-- The buffers that window `w5b` writes. -/
abbrev w5b_W : List (Ref sig .tc) := [main_v47, main_v48, main_v49, main_v50]
theorem w5b_writes : (w5b : List (HloOp τ sig (Elt F))).Forall fun op => op.writes ⊆ (w5b_W.map (Proc.devRef (τ := τ) .tc)).toFinset :=
  ⟨writes_sub_of (y := main_v47) rfl (by decide),
   writes_sub_of (y := main_v48) rfl (by decide),
   writes_sub_of (y := main_v49) rfl (by decide),
   writes_sub_of (y := main_v50) rfl (by decide)⟩
/-- A buffer that window `w5b` does not write keeps its contents through it. -/
theorem w5b_keep (V : Valuation τ sig (Elt F)) (r : Ref sig .tc) (h : r ∉ w5b_W) :
    after w5b V (Proc.devRef .tc r) = V (Proc.devRef .tc r) :=
  after_of_writes_sub w5b V w5b_writes h

theorem w6_sub : (w6 : List (HloOp τ sig (Elt F))).Forall fun op => op.bufs ⊆ tcRefs τ sig :=
  ⟨unary_bufs_sub .., binary_bufs_sub .., unary_bufs_sub .., unary_bufs_sub .., binary_bufs_sub .., binary_bufs_sub ..⟩
theorem w6_fresh : (w6 : List (HloOp τ sig (Elt F))).Forall fun op => op.fresh = ∅ :=
  ⟨rfl, rfl, rfl, rfl, rfl, rfl⟩
/-- The buffers that window `w6` writes. -/
abbrev w6_W : List (Ref sig .tc) := [main_v51, main_v52, main_v53, main_v54, main_v55, main_v56]
theorem w6_writes : (w6 : List (HloOp τ sig (Elt F))).Forall fun op => op.writes ⊆ (w6_W.map (Proc.devRef (τ := τ) .tc)).toFinset :=
  ⟨writes_sub_of (y := main_v51) rfl (by decide),
   writes_sub_of (y := main_v52) rfl (by decide),
   writes_sub_of (y := main_v53) rfl (by decide),
   writes_sub_of (y := main_v54) rfl (by decide),
   writes_sub_of (y := main_v55) rfl (by decide),
   writes_sub_of (y := main_v56) rfl (by decide)⟩
/-- A buffer that window `w6` does not write keeps its contents through it. -/
theorem w6_keep (V : Valuation τ sig (Elt F)) (r : Ref sig .tc) (h : r ∉ w6_W) :
    after w6 V (Proc.devRef .tc r) = V (Proc.devRef .tc r) :=
  after_of_writes_sub w6 V w6_writes h

theorem w7_sub : (w7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers that window `w7` writes. -/
abbrev w7_W : List (Ref sig .tc) := [main_cst_12, main_v57, main_v58, main_cst_13, main_v59, main_v60, main_v61, main_v62, main_v63, main_cst_14, main_v64, main_v65, main_cst_15, main_v66, main_v67, main_v68, main_v69, main_v70, main_v71, main_v72, main_cst_16, main_v73, main_v74, main_v75, main_v76, main_v77, main_v78, main_v79, main_v80]
theorem w7_writes : (w7 : List (HloOp τ sig (Elt F))).Forall fun op => op.writes ⊆ (w7_W.map (Proc.devRef (τ := τ) .tc)).toFinset :=
  ⟨writes_sub_of (y := main_cst_12) rfl (by decide),
   writes_sub_of (y := main_v57) rfl (by decide),
   writes_sub_of (y := main_v58) rfl (by decide),
   writes_sub_of (y := main_cst_13) rfl (by decide),
   writes_sub_of (y := main_v59) rfl (by decide),
   writes_sub_of (y := main_v60) rfl (by decide),
   writes_sub_of (y := main_v61) rfl (by decide),
   writes_sub_of (y := main_v62) rfl (by decide),
   writes_sub_of (y := main_v63) rfl (by decide),
   writes_sub_of (y := main_cst_14) rfl (by decide),
   writes_sub_of (y := main_v64) rfl (by decide),
   writes_sub_of (y := main_v65) rfl (by decide),
   writes_sub_of (y := main_cst_15) rfl (by decide),
   writes_sub_of (y := main_v66) rfl (by decide),
   writes_sub_of (y := main_v67) rfl (by decide),
   writes_sub_of (y := main_v68) rfl (by decide),
   writes_sub_of (y := main_v69) rfl (by decide),
   writes_sub_of (y := main_v70) rfl (by decide),
   writes_sub_of (y := main_v71) rfl (by decide),
   writes_sub_of (y := main_v72) rfl (by decide),
   writes_sub_of (y := main_cst_16) rfl (by decide),
   writes_sub_of (y := main_v73) rfl (by decide),
   writes_sub_of (y := main_v74) rfl (by decide),
   writes_sub_of (y := main_v75) rfl (by decide),
   writes_sub_of (y := main_v76) rfl (by decide),
   writes_sub_of (y := main_v77) rfl (by decide),
   writes_sub_of (y := main_v78) rfl (by decide),
   writes_sub_of (y := main_v79) rfl (by decide),
   writes_sub_of (y := main_v80) rfl (by decide)⟩
/-- A buffer that window `w7` does not write keeps its contents through it. -/
theorem w7_keep (V : Valuation τ sig (Elt F)) (r : Ref sig .tc) (h : r ∉ w7_W) :
    after w7 V (Proc.devRef .tc r) = V (Proc.devRef .tc r) :=
  after_of_writes_sub w7 V w7_writes h

/-- The first window of @main: the stages up to the first layer norm's standard deviation. -/
abbrev p0 : List (HloOp τ sig (Elt F)) := w1 ++ w2 ++ w3 ++ w4 ++ w5a
/-- The second window of @main. -/
abbrev p1 : List (HloOp τ sig (Elt F)) := w5b ++ w6 ++ w7
/-- @main's operations, in order. -/
abbrev ops : List (HloOp τ sig (Elt F)) := p0 ++ p1

theorem main_part1_eq (c : Dev nD) : main_part1 (F := F) c = seq p1 := rfl

-- the outlined function's body and its nested call unfold at the call, and the sequencing reassociates, by computation
set_option maxRecDepth 4096 in
theorem main_part0_eq (c : Dev nD) : main_part0 (F := F) c = seq p0 := rfl

/-- @main is the straight line of its operations. -/
theorem main_eq (c : Dev nD) : main (F := F) c = seq ops := by
  show (main_part0 (F := F) c >>= fun _ => main_part1 (F := F) c) = seq (p0 ++ p1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app (forall_app (forall_app (forall_app w1_sub w2_sub) w3_sub) w4_sub) w5a_sub)
    (forall_app (forall_app w5b_sub w6_sub) w7_sub)

theorem ops_fresh : ∀ op ∈ (ops : List (HloOp τ sig (Elt F))), op.fresh = ∅ :=
  List.forall_iff_forall_mem.mp
    (forall_app (forall_app (forall_app (forall_app (forall_app w1_fresh w2_fresh) w3_fresh) w4_fresh) w5a_fresh)
      (forall_app (forall_app w5b_fresh w6_fresh) w7_fresh))

/-- The contents after @main's operations, stage by stage. -/
theorem after_ops (V : Valuation τ sig (Elt F)) :
    after ops V = after w7 (after w6 (after w5b (after w5a (after w4 (after w3 (after w2 (after w1 V))))))) := by
  simp only [ops, p0, p1, after_app]

/-- A buffer that no window writes keeps its contents through @main. -/
theorem ops_keep (V : Valuation τ sig (Elt F)) (r : Ref sig .tc) (h1 : r ∉ w1_W) (h2 : r ∉ w2_W) (h3 : r ∉ w3_W) (h4 : r ∉ w4_W)
    (h5a : r ∉ w5a_W) (h5b : r ∉ w5b_W) (h6 : r ∉ w6_W) (h7 : r ∉ w7_W) :
    after ops V (Proc.devRef .tc r) = V (Proc.devRef .tc r) := by
  rw [after_ops, w7_keep _ r h7, w6_keep _ r h6, w5b_keep _ r h5b, w5a_keep _ r h5a, w4_keep _ r h4, w3_keep _ r h3,
    w2_keep _ r h2, w1_keep _ r h1]

end Cert.ReferenceIdeal.RefValue

end
-- ==== Proof.RefTerm.lean ====
/-
  The reference's host operations composed as pure functions of its argument arrays, stage by stage:
  the scores (query repeated over the points, joined with the keys and spatial vectors along the last axis,
  one contraction with the attention matrix), the leaky rectifier, the softmax over the points, the pooled
  keys summed over the heads, the logistic function with the residual, the layer norm, the affine map with
  its residual, and the layer norm again. Each stage lists its operations in the program's order.
-/
import proofs.«109109_j40484361732519_2_alg».proof.ReferenceIdeal
import proofs.«109109_j40484361732519_2_alg».proof.Proof.Gen.ReferenceIdeal
import Idealize.ShloMosaic.PureOps.Ideal

noncomputable section

namespace Cert.ReferenceIdeal.RefTerm

open Idealize.ShloMosaic Cert.ReferenceIdeal Cert.ReferenceIdeal.Facts₀

/-- The scores: [4096, 32, 4]. -/
def rScore (a0 : FVec Ideal S4096x32x512 .f32) (a1 : FVec Ideal S4096x32x64 .f32) (a2 : FVec Ideal S4096x512 .f32)
    (a3 : FVec Ideal S1088x4 .f32) : FVec Ideal S4096x32x4 .f32 :=
  have v0 : FVec Ideal S4096x1x512 .f32 := broadcastInDim S4096x1x512 ![0, 2] bcast_S4096x512_S4096x1x512_0_2 a2
  have v1 : FVec Ideal S4096x32x512 .f32 := broadcastInDim S4096x32x512 ![0, 1, 2] bcast_S4096x1x512_S4096x32x512_0_1_2 v0
  have v2 : FVec Ideal S4096x32x1088 .f32 := concatenate S4096x32x1088 2 [⟨S4096x32x512, v1⟩, ⟨S4096x32x512, a0⟩, ⟨S4096x32x64, a1⟩] concatenates_S4096x32x512_S4096x32x512_S4096x32x64_S4096x32x1088_d2
  Host.dotGeneral dot_S4096x32x1088_S1088x4_S4096x32x4_2_0_01_1_n_n none v2 a3

/-- The leaky rectifier on the scores (the outlined function's operations, then its select). -/
def rLeaky (v3 : FVec Ideal S4096x32x4 .f32) : FVec Ideal S4096x32x4 .f32 :=
  have cst : FVec Ideal S_ .f32 := constant (F := Ideal) S_ .f32 0x3C23D70A#32
  have c_cst : FVec Ideal S_ .f32 := constant (F := Ideal) S_ .f32 0x00000000#32
  have c_v0 : FVec Ideal S4096x32x4 .f32 := broadcastInDim S4096x32x4 ![] bcast_S_S4096x32x4 c_cst
  have c_v1 : IVec S4096x32x4 1 := cmpf .oge v3 c_v0
  have c_v2 : FVec Ideal S_ .f32 := id cst
  have c_v3 : FVec Ideal S4096x32x4 .f32 := broadcastInDim S4096x32x4 ![] bcast_S_S4096x32x4 c_v2
  have c_v4 : FVec Ideal S4096x32x4 .f32 := mulf c_v3 v3
  select c_v1 v3 c_v4

/-- The softmax over the points (axis 1) of the rectified scores. -/
def rAtt (v4 : FVec Ideal S4096x32x4 .f32) : FVec Ideal S4096x32x4 .f32 :=
  have cst_0 : FVec Ideal S_ .f32 := constant (F := Ideal) S_ .f32 0xFF800000#32
  have v5 : FVec Ideal S4096x4 .f32 := Host.reduce FloatOps.maximumf v4 cst_0 reducesTo_S4096x32x4_S4096x4_d1 h_S_
  have cst_1 : FVec Ideal S_ .f32 := constant (F := Ideal) S_ .f32 0xFF800000#32
  have v6 : FVec Ideal S4096x4 .f32 := broadcastInDim S4096x4 ![] bcast_S_S4096x4 cst_1
  have v7 : FVec Ideal S4096x4 .f32 := maximumf v6 v5
  have v8 : FVec Ideal S4096x1x4 .f32 := broadcastInDim S4096x1x4 ![0, 2] bcast_S4096x4_S4096x1x4_0_2 v7
  have v9 : FVec Ideal S4096x32x4 .f32 := broadcastInDim S4096x32x4 ![0, 1, 2] bcast_S4096x1x4_S4096x32x4_0_1_2 v8
  have v10 : FVec Ideal S4096x32x4 .f32 := subf v4 v9
  have v11 : FVec Ideal S4096x32x4 .f32 := Host.exp v10
  have cst_2 : FVec Ideal S_ .f32 := constant (F := Ideal) S_ .f32 0x00000000#32
  have v12 : FVec Ideal S4096x4 .f32 := Host.reduceAdd v11 cst_2 reducesTo_S4096x32x4_S4096x4_d1 h_S_
  have v13 : FVec Ideal S4096x1x4 .f32 := broadcastInDim S4096x1x4 ![0, 2] bcast_S4096x4_S4096x1x4_0_2 v12
  have v14 : FVec Ideal S4096x32x4 .f32 := broadcastInDim S4096x32x4 ![0, 1, 2] bcast_S4096x1x4_S4096x32x4_0_1_2 v13
  Host.divf v11 v14

/-- The keys pooled per head, the heads summed, the 1/4, the logistic function spelt out, the residual. -/
def rX (v15 : FVec Ideal S4096x32x4 .f32) (a0 : FVec Ideal S4096x32x512 .f32) (a2 : FVec Ideal S4096x512 .f32) :
    FVec Ideal S4096x512 .f32 :=
  have v16 : FVec Ideal S4096x4x512 .f32 := Host.dotGeneral dot_S4096x32x4_S4096x32x512_S4096x4x512_1_1_2_2_0_0 none v15 a0
  have cst_3 : FVec Ideal S_ .f32 := constant (F := Ideal) S_ .f32 0x00000000#32
  have v17 : FVec Ideal S4096x512 .f32 := Host.reduceAdd v16 cst_3 reducesTo_S4096x4x512_S4096x512_d1 h_S_
  have cst_4 : FVec Ideal S_ .f32 := constant (F := Ideal) S_ .f32 0x3E800000#32
  have v18 : FVec Ideal S4096x512 .f32 := broadcastInDim S4096x512 ![] bcast_S_S4096x512 cst_4
  have v19 : FVec Ideal S4096x512 .f32 := mulf v17 v18
  have v20 : FVec Ideal S4096x512 .f32 := Host.negf v19
  have v21 : FVec Ideal S4096x512 .f32 := Host.exp v20
  have cst_5 : FVec Ideal S_ .f32 := constant (F := Ideal) S_ .f32 0x3F800000#32
  have v22 : FVec Ideal S4096x512 .f32 := broadcastInDim S4096x512 ![] bcast_S_S4096x512 cst_5
  have v23 : FVec Ideal S4096x512 .f32 := addf v22 v21
  have cst_6 : FVec Ideal S_ .f32 := constant (F := Ideal) S_ .f32 0x3F800000#32
  have v24 : FVec Ideal S4096x512 .f32 := broadcastInDim S4096x512 ![] bcast_S_S4096x512 cst_6
  have v25 : FVec Ideal S4096x512 .f32 := Host.divf v24 v23
  addf v25 a2

/-- The layer norm of the rows of `x` with scale `g` and shift `b` (the program's operations, in its order). -/
def rNorm (v26 : FVec Ideal S4096x512 .f32) (g b : FVec Ideal S512 .f32) : FVec Ideal S4096x512 .f32 :=
  have cst_7 : FVec Ideal S_ .f32 := constant (F := Ideal) S_ .f32 0x00000000#32
  have v27 : FVec Ideal S4096 .f32 := Host.reduceAdd v26 cst_7 reducesTo_S4096x512_S4096_d1 h_S_
  have v28 : FVec Ideal S4096x1 .f32 := broadcastInDim S4096x1 ![0] bcast_S4096_S4096x1_0 v27
  have cst_8 : FVec Ideal S_ .f32 := constant (F := Ideal) S_ .f32 0x44000000#32
  have v29 : FVec Ideal S4096x1 .f32 := broadcastInDim S4096x1 ![] bcast_S_S4096x1 cst_8
  have v30 : FVec Ideal S4096x1 .f32 := Host.divf v28 v29
  have v31 : FVec Ideal S4096x512 .f32 := broadcastInDim S4096x512 ![0, 1] bcast_S4096x1_S4096x512_0_1 v30
  have v32 : FVec Ideal S4096x512 .f32 := subf v26 v31
  have v33 : FVec Ideal S4096x512 .f32 := mulf v32 v32
  have cst_9 : FVec Ideal S_ .f32 := constant (F := Ideal) S_ .f32 0x00000000#32
  have v34 : FVec Ideal S4096 .f32 := Host.reduceAdd v33 cst_9 reducesTo_S4096x512_S4096_d1 h_S_
  have v35 : FVec Ideal S4096x1 .f32 := broadcastInDim S4096x1 ![0] bcast_S4096_S4096x1_0 v34
  have cst_10 : FVec Ideal S_ .f32 := constant (F := Ideal) S_ .f32 0x44000000#32
  have v36 : FVec Ideal S4096x1 .f32 := broadcastInDim S4096x1 ![] bcast_S_S4096x1 cst_10
  have v37 : FVec Ideal S4096x1 .f32 := Host.divf v35 v36
  have v38 : FVec Ideal S4096x512 .f32 := broadcastInDim S4096x512 ![0, 1] bcast_S4096x1_S4096x512_0_1 v30
  have v39 : FVec Ideal S4096x512 .f32 := subf v26 v38
  have v40 : FVec Ideal S1x512 .f32 := broadcastInDim S1x512 ![1] bcast_S512_S1x512_1 g
  have v41 : FVec Ideal S4096x512 .f32 := broadcastInDim S4096x512 ![0, 1] bcast_S1x512_S4096x512_0_1 v40
  have v42 : FVec Ideal S4096x512 .f32 := mulf v41 v39
  have cst_11 : FVec Ideal S_ .f32 := constant (F := Ideal) S_ .f32 0x358637BD#32
  have v43 : FVec Ideal S4096x1 .f32 := broadcastInDim S4096x1 ![] bcast_S_S4096x1 cst_11
  have v44 : FVec Ideal S4096x1 .f32 := addf v37 v43
  have v45 : FVec Ideal S4096x1 .f32 := Host.sqrt v44
  have v46 : FVec Ideal S4096x512 .f32 := broadcastInDim S4096x512 ![0, 1] bcast_S4096x1_S4096x512_0_1 v45
  have v47 : FVec Ideal S4096x512 .f32 := Host.divf v42 v46
  have v48 : FVec Ideal S1x512 .f32 := broadcastInDim S1x512 ![1] bcast_S512_S1x512_1 b
  have v49 : FVec Ideal S4096x512 .f32 := broadcastInDim S4096x512 ![0, 1] bcast_S1x512_S4096x512_0_1 v48
  addf v47 v49

/-- The affine map with its residual: (y · wᵀ + bias) + y. -/
def rAffine (v50 : FVec Ideal S4096x512 .f32) (a4 : FVec Ideal S512x512 .f32) (a5 : FVec Ideal S512 .f32) :
    FVec Ideal S4096x512 .f32 :=
  have v51 : FVec Ideal S512x512 .f32 := (transpose S512x512 [1, 0] · transposes_S512x512_S512x512_1_0) a4
  have v52 : FVec Ideal S4096x512 .f32 := Host.dotGeneral dot_S4096x512_S512x512_S4096x512_1_0_0_1_n_n none v50 v51
  have v53 : FVec Ideal S1x512 .f32 := broadcastInDim S1x512 ![1] bcast_S512_S1x512_1 a5
  have v54 : FVec Ideal S4096x512 .f32 := broadcastInDim S4096x512 ![0, 1] bcast_S1x512_S4096x512_0_1 v53
  have v55 : FVec Ideal S4096x512 .f32 := addf v52 v54
  addf v55 v50

/-- The reference's result as one function of its ten argument arrays. -/
def rOut (a0 : FVec Ideal S4096x32x512 .f32) (a1 : FVec Ideal S4096x32x64 .f32) (a2 : FVec Ideal S4096x512 .f32)
    (a3 : FVec Ideal S1088x4 .f32) (a4 : FVec Ideal S512x512 .f32) (a5 a6 a7 a8 a9 : FVec Ideal S512 .f32) :
    FVec Ideal S4096x512 .f32 :=
  rNorm (rAffine (rNorm (rX (rAtt (rLeaky (rScore a0 a1 a2 a3))) a0 a2) a6 a7) a4 a5) a8 a9

end Cert.ReferenceIdeal.RefTerm

end
-- ==== Proof.RefRun.lean ====
/-
  The run of the reference program: every weakly fair execution of @main terminates with the result buffer at
  the composed function of the ten argument arrays and with the arguments unchanged. Each stage window of the
  operation list leaves its last buffer at the stage's function of the buffers it reads (the fold of the
  operations' results, read off one operation at a time); the stages compose through the buffers each window
  leaves untouched.
-/
import proofs.«109109_j40484361732519_2_alg».proof.Proof.RefRunOps
import proofs.«109109_j40484361732519_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

/-- After the first window the scores' buffer holds the scores of the four arrays the window reads. -/
theorem w1_v3 (V : Valuation τ sig (Elt Ideal)) :
    after (w1 (F := Ideal)) V (Proc.devRef .tc main_v3)
      = RefTerm.rScore (V (Proc.devRef .tc main_arg0)) (V (Proc.devRef .tc main_arg1)) (V (Proc.devRef .tc main_arg2)) (V (Proc.devRef .tc main_arg3)) := by
  simp only [w1]
  after_results_simp
  rfl

/-- After the second window the rectifier's buffer holds the leaky rectifier of the scores. -/
theorem w2_v4 (V : Valuation τ sig (Elt Ideal)) :
    after (w2 (F := Ideal)) V (Proc.devRef .tc main_v4) = RefTerm.rLeaky (V (Proc.devRef .tc main_v3)) := by
  simp only [w2]
  after_results_simp
  rfl

/-- After the third window the weights' buffer holds the softmax over the points of the rectified scores. -/
theorem w3_v15 (V : Valuation τ sig (Elt Ideal)) :
    after (w3 (F := Ideal)) V (Proc.devRef .tc main_v15) = RefTerm.rAtt (V (Proc.devRef .tc main_v4)) := by
  simp only [w3]
  after_results_simp
  rfl

/-- After the fourth window: the pooled keys through the logistic function, plus the query. -/
theorem w4_v26 (V : Valuation τ sig (Elt Ideal)) :
    after (w4 (F := Ideal)) V (Proc.devRef .tc main_v26) = RefTerm.rX (V (Proc.devRef .tc main_v15)) (V (Proc.devRef .tc main_arg0)) (V (Proc.devRef .tc main_arg2)) := by
  simp only [w4]
  after_results_simp
  rfl

/-- After the two windows of the first layer norm: the norm of the rows with the first scale and shift. -/
theorem w5_v50 (V : Valuation τ sig (Elt Ideal)) :
    after (w5b (F := Ideal)) (after w5a V) (Proc.devRef .tc main_v50) = RefTerm.rNorm (V (Proc.devRef .tc main_v26)) (V (Proc.devRef .tc main_arg6)) (V (Proc.devRef .tc main_arg7)) := by
  rw [← after_app]
  simp only [w5a, w5b, List.cons_append, List.nil_append]
  after_results_simp
  rfl

/-- After the sixth window: the affine map of the normed rows, plus the normed rows. -/
theorem w6_v56 (V : Valuation τ sig (Elt Ideal)) :
    after (w6 (F := Ideal)) V (Proc.devRef .tc main_v56) = RefTerm.rAffine (V (Proc.devRef .tc main_v50)) (V (Proc.devRef .tc main_arg4)) (V (Proc.devRef .tc main_arg5)) := by
  simp only [w6]
  after_results_simp
  rfl

/-- After the last window: the norm of the rows with the second scale and shift. -/
theorem w7_v80 (V : Valuation τ sig (Elt Ideal)) :
    after (w7 (F := Ideal)) V (Proc.devRef .tc main_v80) = RefTerm.rNorm (V (Proc.devRef .tc main_v56)) (V (Proc.devRef .tc main_arg8)) (V (Proc.devRef .tc main_arg9)) := by
  simp only [w7]
  after_results_simp
  rfl

/-- The result buffer after @main's operations is the reference's composed function of the ten argument arrays. -/
theorem out_eq (V : Valuation τ sig (Elt Ideal)) :
    after (ops (F := Ideal)) V (Proc.devRef .tc main_v80)
      = RefTerm.rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, w7_v80, w6_v56, w5_v50, w4_v26, w3_v15, w2_v4, w1_v3,
    w3_keep _ main_arg0 (by decide), w2_keep _ main_arg0 (by decide), w1_keep _ main_arg0 (by decide),
    w3_keep _ main_arg2 (by decide), w2_keep _ main_arg2 (by decide), w1_keep _ main_arg2 (by decide),
    w4_keep _ main_arg6 (by decide), w3_keep _ main_arg6 (by decide), w2_keep _ main_arg6 (by decide), w1_keep _ main_arg6 (by decide),
    w4_keep _ main_arg7 (by decide), w3_keep _ main_arg7 (by decide), w2_keep _ main_arg7 (by decide), w1_keep _ main_arg7 (by decide),
    w5b_keep _ main_arg4 (by decide), w5a_keep _ main_arg4 (by decide), w4_keep _ main_arg4 (by decide), w3_keep _ main_arg4 (by decide), w2_keep _ main_arg4 (by decide), w1_keep _ main_arg4 (by decide),
    w5b_keep _ main_arg5 (by decide), w5a_keep _ main_arg5 (by decide), w4_keep _ main_arg5 (by decide), w3_keep _ main_arg5 (by decide), w2_keep _ main_arg5 (by decide), w1_keep _ main_arg5 (by decide),
    w6_keep _ main_arg8 (by decide), w5b_keep _ main_arg8 (by decide), w5a_keep _ main_arg8 (by decide), w4_keep _ main_arg8 (by decide), w3_keep _ main_arg8 (by decide), w2_keep _ main_arg8 (by decide), w1_keep _ main_arg8 (by decide),
    w6_keep _ main_arg9 (by decide), w5b_keep _ main_arg9 (by decide), w5a_keep _ main_arg9 (by decide), w4_keep _ main_arg9 (by decide), w3_keep _ main_arg9 (by decide), w2_keep _ main_arg9 (by decide), w1_keep _ main_arg9 (by decide)]
  rfl

/-- No operation writes an argument array. -/
theorem arg0_keep (V : Valuation τ sig (Elt Ideal)) : after (ops (F := Ideal)) V (Proc.devRef .tc main_arg0) = V (Proc.devRef .tc main_arg0) :=
  ops_keep V main_arg0 (by decide) (by decide) (by decide) (by decide) (by decide) (by decide) (by decide) (by decide)
theorem arg1_keep (V : Valuation τ sig (Elt Ideal)) : after (ops (F := Ideal)) V (Proc.devRef .tc main_arg1) = V (Proc.devRef .tc main_arg1) :=
  ops_keep V main_arg1 (by decide) (by decide) (by decide) (by decide) (by decide) (by decide) (by decide) (by decide)
theorem arg2_keep (V : Valuation τ sig (Elt Ideal)) : after (ops (F := Ideal)) V (Proc.devRef .tc main_arg2) = V (Proc.devRef .tc main_arg2) :=
  ops_keep V main_arg2 (by decide) (by decide) (by decide) (by decide) (by decide) (by decide) (by decide) (by decide)
theorem arg3_keep (V : Valuation τ sig (Elt Ideal)) : after (ops (F := Ideal)) V (Proc.devRef .tc main_arg3) = V (Proc.devRef .tc main_arg3) :=
  ops_keep V main_arg3 (by decide) (by decide) (by decide) (by decide) (by decide) (by decide) (by decide) (by decide)
theorem arg4_keep (V : Valuation τ sig (Elt Ideal)) : after (ops (F := Ideal)) V (Proc.devRef .tc main_arg4) = V (Proc.devRef .tc main_arg4) :=
  ops_keep V main_arg4 (by decide) (by decide) (by decide) (by decide) (by decide) (by decide) (by decide) (by decide)
theorem arg5_keep (V : Valuation τ sig (Elt Ideal)) : after (ops (F := Ideal)) V (Proc.devRef .tc main_arg5) = V (Proc.devRef .tc main_arg5) :=
  ops_keep V main_arg5 (by decide) (by decide) (by decide) (by decide) (by decide) (by decide) (by decide) (by decide)
theorem arg6_keep (V : Valuation τ sig (Elt Ideal)) : after (ops (F := Ideal)) V (Proc.devRef .tc main_arg6) = V (Proc.devRef .tc main_arg6) :=
  ops_keep V main_arg6 (by decide) (by decide) (by decide) (by decide) (by decide) (by decide) (by decide) (by decide)
theorem arg7_keep (V : Valuation τ sig (Elt Ideal)) : after (ops (F := Ideal)) V (Proc.devRef .tc main_arg7) = V (Proc.devRef .tc main_arg7) :=
  ops_keep V main_arg7 (by decide) (by decide) (by decide) (by decide) (by decide) (by decide) (by decide) (by decide)
theorem arg8_keep (V : Valuation τ sig (Elt Ideal)) : after (ops (F := Ideal)) V (Proc.devRef .tc main_arg8) = V (Proc.devRef .tc main_arg8) :=
  ops_keep V main_arg8 (by decide) (by decide) (by decide) (by decide) (by decide) (by decide) (by decide) (by decide)
theorem arg9_keep (V : Valuation τ sig (Elt Ideal)) : after (ops (F := Ideal)) V (Proc.devRef .tc main_arg9) = V (Proc.devRef .tc main_arg9) :=
  ops_keep V main_arg9 (by decide) (by decide) (by decide) (by decide) (by decide) (by decide) (by decide) (by decide)

/-- From any memory with zero counters, every weakly fair execution of @main terminates with the result buffer at the
    composed function of the argument arrays as memory held them, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = RefTerm.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v80).trans (out_eq (launchContents m c)),
      (h c main_arg0).trans (arg0_keep (launchContents m c)),
      (h c main_arg1).trans (arg1_keep (launchContents m c)),
      (h c main_arg2).trans (arg2_keep (launchContents m c)),
      (h c main_arg3).trans (arg3_keep (launchContents m c)),
      (h c main_arg4).trans (arg4_keep (launchContents m c)),
      (h c main_arg5).trans (arg5_keep (launchContents m c)),
      (h c main_arg6).trans (arg6_keep (launchContents m c)),
      (h c main_arg7).trans (arg7_keep (launchContents m c)),
      (h c main_arg8).trans (arg8_keep (launchContents m c)),
      (h c main_arg9).trans (arg9_keep (launchContents m c))⟩)
    (run_seq scopedRefs_eq scopedSems_eq defs main (fun _ => ops) main_eq (fun _ => ops_sub) m ρ (fun _ => ops_fresh))

end Cert.ReferenceIdeal.RefValue

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibTreeHost.lean ====
/-
  The host operations of a child-sum recurrence over a 4-ary forest, read at an index on the extended reals.

  Besides plain matrix products and row biases, one level of the recurrence spells on the host:
    • a sum along the MIDDLE axis of an `[a, b, c]` array (the children of a node), from the zero word — at `(p, q)`
      the sum over `j` of the operand at `(p, j, q)`;
    • a vector `[c]` given two unit leading axes `[1, 1, c]` and repeated over `[a, k, c]` — at `(p, j, q)` the
      vector at `q`;
    • `dot_general` contracting the last axis of an `[A, K, D]` array with the rows of a `[D, P]` matrix into
      `[A, K, P]` — at `(p, j, q)` the sum over `d` of `l (p, j, d) * r (d, q)`;
    • an `[m, c]` matrix regrouped row-major as `[n, k, c]` — at `(r, j, q)` the matrix at row `r * k + j`;
    • the logistic function written `1 / (1 + e^(-z))` with the ones literal scalars repeated over the shape;
    • a matrix product whose left operand is the zero word repeated: zero.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«109109_j40484361732519_2_alg».proof.Proof.LibPlainDot
import proofs.«109109_j40484361732519_2_alg».proof.Proof.LibHostRead

namespace TreeHost.Lib

open Idealize.ShloMosaic Idealize.ShloMosaic.ValueIdx

variable {a b c k : ℕ}

/-! ## A sum along the middle axis -/

/-- Over the middle axis of an `[a, b, c]` array: `(p, q)` with the middle coordinate `j` put back is `(p, j, q)`. -/
theorem lift_abc_axis1 (h : Shape.Reduces ⟨3, ![a, b, c]⟩ [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an `[a, b, c]` array along its middle axis, from the zero word: at `(p, q)` the sum over the
    middle coordinate. -/
theorem hostReduceAdd_abc_axis1_apply {u : Shape} (x : FVec Ideal ⟨3, ![a, b, c]⟩ .f32)
    (h' : Shape.ReducesTo ⟨3, ![a, b, c]⟩ [1] ⟨2, ![a, c]⟩) (hu : 0 < u.numel) (p : Fin a) (q : Fin c) :
    Host.reduceAdd x (constant u .f32 0x00000000#32) h' hu (ix2 p q) = ∑ j : Fin b, x (ix3 p j q) := by
  have h : Shape.Reduces ⟨3, ![a, b, c]⟩ [1] ⟨2, ![a, c]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis1 h p q j)

/-! ## A vector repeated over the two leading axes of a rank-3 array -/

section Broadcast
variable {α : Type}

/-- A vector `[c]` given two unit leading axes `[1, 1, c]`: `(u, v, q) ↦ q`. -/
theorem bcast_c_11c_apply (x : (⟨1, ![c]⟩ : Shape).Idx → α)
    (h : (⟨1, ![c]⟩ : Shape).BroadcastsInDim ⟨3, ![1, 1, c]⟩ (![2] : Fin 1 → Fin 3)) (u v : Fin 1) (q : Fin c) :
    broadcastInDim ⟨3, ![1, 1, c]⟩ ![2] h x (ix3 u v q) = x (ix1 q) := by
  refine broadcastInDim_apply _ h x _ (ix1 q) fun ax => ?_
  match ax with
  | ⟨0, _⟩ =>
    show q.val = if c = 1 then 0 else q.val
    split
    · have := q.isLt; omega
    · rfl

/-- A `[1, 1, c]` array repeated along its two leading axes over `[a, k, c]`: `(p, j, q) ↦ (0, 0, q)`. -/
theorem bcast_11c_akc_apply (x : (⟨3, ![1, 1, c]⟩ : Shape).Idx → α)
    (h : (⟨3, ![1, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 (0 : Fin 1) (0 : Fin 1) q) := by
  refine broadcastInDim_apply _ h x _ (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- A per-coordinate vector `[c]` spread over `[a, k, c]` through `[1, 1, c]`: `(p, j, q) ↦ q`. -/
theorem bcastLast_apply (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![1, 1, c]⟩ ![2] h1 x) (ix3 p j q) = x (ix1 q) :=
  (bcast_11c_akc_apply _ h2 p j q).trans (bcast_c_11c_apply x h1 0 0 q)

end Broadcast

/-! ## A stack of row families against a matrix: `[A, K, D] × [D, P] → [A, K, P]` -/

section Dot
variable {A K D P : ℕ}

/-- The dimension numbers "contract the left operand's last axis with the right operand's rows, no batch axis",
    over any extents; the shape conditions are the caller's fact. -/
def dotAKDxDP (A K D P : ℕ)
    (wf : DotDims.WF ⟨3, ![A, K, D]⟩ ⟨2, ![D, P]⟩ ⟨3, ![A, K, P]⟩ [2] [0] [0, 1] [1] [] []) :
    DotDims ⟨3, ![A, K, D]⟩ ⟨2, ![D, P]⟩ ⟨3, ![A, K, P]⟩ where
  lhsContracting := [2]
  rhsContracting := [0]
  lhsNonContracting := [0, 1]
  rhsNonContracting := [1]
  lhsBatch := []
  rhsBatch := []
  wf := wf

variable (wf : DotDims.WF ⟨3, ![A, K, D]⟩ ⟨2, ![D, P]⟩ ⟨3, ![A, K, P]⟩ [2] [0] [0, 1] [1] [] [])

/-- The left operand's index at output entry `(p, j, q)` and contracted coordinate `d` is `(p, j, d)`. -/
theorem dotAKDxDP_lhsIdx (p : Fin A) (j : Fin K) (q : Fin P) (d : Fin D) :
    (dotAKDxDP A K D P wf).lhsIdx (ix3 p j q) ((contrEquiv1 (dotAKDxDP A K D P wf) D rfl rfl).symm d) = ix3 p j d := by
  have hk := contrEquiv1_symm_val (dotAKDxDP A K D P wf) D rfl rfl d
  funext ax
  apply Fin.ext
  match ax with
  | ⟨0, _⟩ => rfl
  | ⟨1, _⟩ => rfl
  | ⟨2, _⟩ => exact ((dotAKDxDP A K D P wf).lhsIdx_val_of_single (cl := 2) rfl _ _).trans hk

/-- The right operand's index at output entry `(p, j, q)` and contracted coordinate `d` is `(d, q)`. -/
theorem dotAKDxDP_rhsIdx (p : Fin A) (j : Fin K) (q : Fin P) (d : Fin D) :
    (dotAKDxDP A K D P wf).rhsIdx (ix3 p j q) ((contrEquiv1 (dotAKDxDP A K D P wf) D rfl rfl).symm d) = ix2 d q := by
  have hk := contrEquiv1_symm_val (dotAKDxDP A K D P wf) D rfl rfl d
  funext ax
  apply Fin.ext
  match ax with
  | ⟨0, _⟩ => exact ((dotAKDxDP A K D P wf).rhsIdx_val_of_single (cr := 0) rfl _ _).trans hk
  | ⟨1, _⟩ => rfl

/-- The host's `dot_general` with these dimension numbers, read at `(p, j, q)`: the sum over the contracted coordinate
    of the left operand's fibre `(p, j)` against the right operand's column `q`. -/
theorem dotAKDxDP_apply {φ₁ φ₂ : FTy} (l : FVec Ideal ⟨3, ![A, K, D]⟩ φ₁) (r : FVec Ideal ⟨2, ![D, P]⟩ φ₂)
    (prec : Option ContractPrecision) (sched : HostSchedule) (p : Fin A) (j : Fin K) (q : Fin P) :
    FloatOps.dotGeneral (dotAKDxDP A K D P wf) prec sched l r (ix3 p j q) = ∑ d : Fin D, l (ix3 p j d) * r (ix2 d q) := by
  refine (Ideal.dotGeneral_apply (dotAKDxDP A K D P wf) prec sched l r (ix3 p j q)).trans ?_
  rw [← Equiv.sum_comp (contrEquiv1 (dotAKDxDP A K D P wf) D rfl rfl).symm]
  refine Finset.sum_congr rfl fun d _ => ?_
  rw [dotAKDxDP_lhsIdx, dotAKDxDP_rhsIdx]

end Dot

/-! ## A matrix regrouped by blocks of consecutive rows -/

/-- An `[m, c]` matrix regrouped row-major as `[n, k, c]` reads, at `(r, j, q)`, the matrix at row `r * k + j`. -/
theorem shapeCast_mc_nkc_apply {α : Type} {m n : ℕ} (x : (⟨2, ![m, c]⟩ : Shape).Idx → α)
    (h : (⟨2, ![m, c]⟩ : Shape).ShapeCasts ⟨3, ![n, k, c]⟩) (r : Fin n) (j : Fin k) (q : Fin c) (i : Fin m)
    (hi : i.val = r.val * k + j.val) : shapeCast ⟨3, ![n, k, c]⟩ x h (ix3 r j q) = x (ix2 i q) :=
  shapeCast_apply x h _ _ (by
    rw [Shape.rowMajor_val_two, Shape.rowMajor_val_three]
    show i.val * c + q.val = (r.val * k + j.val) * c + q.val
    rw [hi])

/-! ## The logistic function as the host spells it, and a product with the zero matrix -/

/-- `1 / (1 + e^(-z))` with each one a literal scalar repeated over the shape: at an index, the logistic function of
    the element. -/
theorem hostLogistic_apply {T : Shape} (h : (⟨0, ![]⟩ : Shape).BroadcastsInDim T ![]) (z : FVec Ideal T .f32) (i : T.Idx) :
    Host.divf (broadcastInDim T ![] h (constant (F := Ideal) ⟨0, ![]⟩ .f32 0x3F800000#32))
        (addf (broadcastInDim T ![] h (constant (F := Ideal) ⟨0, ![]⟩ .f32 0x3F800000#32)) (Host.exp (Host.negf z))) i
      = Ideal.logistic (z i) := by
  show Ideal.div (broadcastInDim T ![] h (constant (F := Ideal) ⟨0, ![]⟩ .f32 0x3F800000#32) i)
      (broadcastInDim T ![] h (constant (F := Ideal) ⟨0, ![]⟩ .f32 0x3F800000#32) i + Ideal.exp (-(z i))) = _
  rw [Hmu.Lib.bcast_const_apply, Ideal.ofBits_one_f32]
  rfl

/-- The zero word repeated over an `[M, K]` matrix, multiplied by any `[K, N]` matrix, is zero at every entry. -/
theorem zero_dotGeneral_apply {M K N : ℕ} (h : (⟨0, ![]⟩ : Shape).BroadcastsInDim ⟨2, ![M, K]⟩ ![])
    (w : FVec Ideal ⟨2, ![K, N]⟩ .f32) (prec : Option ContractPrecision) (sched : HostSchedule) (p : Fin M) (q : Fin N) :
    FloatOps.dotGeneral (DotDims.plain M K N) prec sched
        (broadcastInDim ⟨2, ![M, K]⟩ ![] h (constant (F := Ideal) ⟨0, ![]⟩ .f32 0x00000000#32)) w (ix2 p q) = 0 := by
  refine (Gcn.Lib.plain_dotGeneral_apply _ w prec sched p q).trans ?_
  refine Finset.sum_eq_zero fun j _ => ?_
  rw [Hmu.Lib.bcast_const_apply, Ideal.ofBits_zero_f32, zero_mul]

end TreeHost.Lib
-- ==== Proof.LibAttnHost.lean ====
/-
  Host operations of an attention-pooling layer read at an index, on the extended reals.

  Besides what the imported modules read, such a layer spells on the host:
    • three arrays `[a, b, c₁]`, `[a, b, c₂]`, `[a, b, c₃]` of UNEQUAL last extents laid end to end along the last
      axis into `[a, b, w]` — position `k` falls in the first piece when `k < c₁`, in the second at `k - c₁` when
      `c₁ ≤ k < c₁ + c₂`, in the third at `k - (c₁ + c₂)` otherwise;
    • a one-axis `reduce` with a `maximum` body along the MIDDLE axis of an `[a, b, c]` array — at `(p, q)` the fold
      of `max` from the initial value over the entries `x (p, j, q)`;
    • `dot_general` with one batch axis contracting the middle axes: `[B, N, K] × [B, N, D] → [B, K, D]` — at
      `(p, j, q)` the sum over `n` of `l (p, n, j) * r (p, n, q)`;
    • the word of minus infinity, which is the bottom element.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«109109_j40484361732519_2_alg».proof.Proof.LibTreeHost

namespace AttnHost.Lib

open Idealize.ShloMosaic Idealize.ShloMosaic.ValueIdx

/-! ## The word of minus infinity -/

/-- The f32 pattern `0xFF800000` is the bottom element of the extended reals. -/
theorem ofBits_neg_inf_f32 : Ideal.ofBits .f32 0xFF800000#32 = (⊥ : EReal) := by
  simp [Ideal.ofBits, Ideal.ieee]

/-! ## Three pieces of unequal extents along the last axis of a rank-3 array -/

section Concat3
variable {α : Type} {a b c₁ c₂ c₃ w : ℕ}

/-- A position below the first extent reads the first piece at that position. -/
theorem last3_fst (x₁ : (⟨3, ![a, b, c₁]⟩ : Shape).Idx → α) (x₂ : (⟨3, ![a, b, c₂]⟩ : Shape).Idx → α)
    (x₃ : (⟨3, ![a, b, c₃]⟩ : Shape).Idx → α)
    (h : Shape.Concatenates [⟨3, ![a, b, c₁]⟩, ⟨3, ![a, b, c₂]⟩, ⟨3, ![a, b, c₃]⟩] ⟨3, ![a, b, w]⟩ (2 : Fin 3))
    (p : Fin a) (r : Fin b) (k : Fin w) (hk : k.val < c₁) :
    concatenate ⟨3, ![a, b, w]⟩ (2 : Fin 3)
        [⟨⟨3, ![a, b, c₁]⟩, x₁⟩, ⟨⟨3, ![a, b, c₂]⟩, x₂⟩, ⟨⟨3, ![a, b, c₃]⟩, x₃⟩] h (ix3 p r k)
      = x₁ (ix3 p r ⟨k.val, hk⟩) := by
  refine concatenate_apply_piece (t := ⟨3, ![a, b, w]⟩) (2 : Fin 3)
    [⟨⟨3, ![a, b, c₁]⟩, x₁⟩, ⟨⟨3, ![a, b, c₂]⟩, x₂⟩, ⟨⟨3, ![a, b, c₃]⟩, x₃⟩] h (ix3 p r k) 0 (by show (0 : ℕ) < 3; omega)
    ⟨3, ![a, b, c₁]⟩ x₁ rfl rfl 0 rfl (ix3 p r ⟨k.val, hk⟩) (fun d hd => ?_) ?_
  · match d with
    | ⟨0, _⟩ => rfl
    | ⟨1, _⟩ => rfl
    | ⟨2, _⟩ => exact absurd rfl hd
  · show 0 + k.val = k.val
    omega

/-- A position from the first extent up to the first two together reads the second piece, the first extent less. -/
theorem last3_snd (x₁ : (⟨3, ![a, b, c₁]⟩ : Shape).Idx → α) (x₂ : (⟨3, ![a, b, c₂]⟩ : Shape).Idx → α)
    (x₃ : (⟨3, ![a, b, c₃]⟩ : Shape).Idx → α)
    (h : Shape.Concatenates [⟨3, ![a, b, c₁]⟩, ⟨3, ![a, b, c₂]⟩, ⟨3, ![a, b, c₃]⟩] ⟨3, ![a, b, w]⟩ (2 : Fin 3))
    (p : Fin a) (r : Fin b) (k : Fin w) (hlo : c₁ ≤ k.val) (hk : k.val - c₁ < c₂) :
    concatenate ⟨3, ![a, b, w]⟩ (2 : Fin 3)
        [⟨⟨3, ![a, b, c₁]⟩, x₁⟩, ⟨⟨3, ![a, b, c₂]⟩, x₂⟩, ⟨⟨3, ![a, b, c₃]⟩, x₃⟩] h (ix3 p r k)
      = x₂ (ix3 p r ⟨k.val - c₁, hk⟩) := by
  refine concatenate_apply_piece (t := ⟨3, ![a, b, w]⟩) (2 : Fin 3)
    [⟨⟨3, ![a, b, c₁]⟩, x₁⟩, ⟨⟨3, ![a, b, c₂]⟩, x₂⟩, ⟨⟨3, ![a, b, c₃]⟩, x₃⟩] h (ix3 p r k) 1 (by show (1 : ℕ) < 3; omega)
    ⟨3, ![a, b, c₂]⟩ x₂ rfl rfl c₁ rfl (ix3 p r ⟨k.val - c₁, hk⟩) (fun d hd => ?_) ?_
  · match d with
    | ⟨0, _⟩ => rfl
    | ⟨1, _⟩ => rfl
    | ⟨2, _⟩ => exact absurd rfl hd
  · show c₁ + (k.val - c₁) = k.val
    omega

/-- A position at or past the first two extents together reads the third piece, those two extents less. -/
theorem last3_thd (x₁ : (⟨3, ![a, b, c₁]⟩ : Shape).Idx → α) (x₂ : (⟨3, ![a, b, c₂]⟩ : Shape).Idx → α)
    (x₃ : (⟨3, ![a, b, c₃]⟩ : Shape).Idx → α)
    (h : Shape.Concatenates [⟨3, ![a, b, c₁]⟩, ⟨3, ![a, b, c₂]⟩, ⟨3, ![a, b, c₃]⟩] ⟨3, ![a, b, w]⟩ (2 : Fin 3))
    (p : Fin a) (r : Fin b) (k : Fin w) (hlo : c₁ + c₂ ≤ k.val) (hk : k.val - (c₁ + c₂) < c₃) :
    concatenate ⟨3, ![a, b, w]⟩ (2 : Fin 3)
        [⟨⟨3, ![a, b, c₁]⟩, x₁⟩, ⟨⟨3, ![a, b, c₂]⟩, x₂⟩, ⟨⟨3, ![a, b, c₃]⟩, x₃⟩] h (ix3 p r k)
      = x₃ (ix3 p r ⟨k.val - (c₁ + c₂), hk⟩) := by
  refine concatenate_apply_piece (t := ⟨3, ![a, b, w]⟩) (2 : Fin 3)
    [⟨⟨3, ![a, b, c₁]⟩, x₁⟩, ⟨⟨3, ![a, b, c₂]⟩, x₂⟩, ⟨⟨3, ![a, b, c₃]⟩, x₃⟩] h (ix3 p r k) 2 (by show (2 : ℕ) < 3; omega)
    ⟨3, ![a, b, c₃]⟩ x₃ rfl rfl (c₁ + c₂) ?_ (ix3 p r ⟨k.val - (c₁ + c₂), hk⟩) (fun d hd => ?_) ?_
  · show c₁ + (c₂ + 0) = c₁ + c₂
    omega
  · match d with
    | ⟨0, _⟩ => rfl
    | ⟨1, _⟩ => rfl
    | ⟨2, _⟩ => exact absurd rfl hd
  · show c₁ + c₂ + (k.val - (c₁ + c₂)) = k.val
    omega

end Concat3

/-! ## The host's maximum along the middle axis -/

section MaxMiddle
variable {a b c : ℕ}

/-- The host's `reduce` with a `maximum` body along the middle axis of an `[a, b, c]` array, at `(p, q)`: the fold of
    `max` from the initial value over the entries `x (p, j, q)`. -/
theorem hostMaxMiddle_apply {u : Shape} (x : (⟨3, ![a, b, c]⟩ : Shape).Idx → EReal) (init : u.Idx → EReal)
    (h' : Shape.ReducesTo ⟨3, ![a, b, c]⟩ [1] ⟨2, ![a, c]⟩) (hu : 0 < u.numel) (p : Fin a) (q : Fin c) :
    Host.reduce (FloatOps.maximumf (F := Ideal) (φ := .f32)) x init h' hu (ix2 p q)
      = (Finset.univ : Finset (Fin b)).fold max (init (Shape.Idx.first hu)) (fun j => x (ix3 p j q)) := by
  have h : Shape.Reduces ⟨3, ![a, b, c]⟩ [1] ⟨2, ![a, c]⟩ := ⟨h'.1, Nat.two_pos, h'.2⟩
  refine (Host.reduce_eq_fold_single (FloatOps.maximumf (F := Ideal) (φ := .f32)) x init h' h hu (ix2 p q)).trans ?_
  show (Finset.univ : Finset (Fin b)).fold max (init (Shape.Idx.first hu)) (x ∘ h.lift (ix2 p q)) = _
  exact congrArg (fun f => (Finset.univ : Finset (Fin b)).fold max (init (Shape.Idx.first hu)) f)
    (funext fun j => congrArg x (TreeHost.Lib.lift_abc_axis1 h p q j))

end MaxMiddle

/-! ## One batch axis, the middle axes contracted: `[B, N, K] × [B, N, D] → [B, K, D]` -/

section BatchDot
variable {B N K D : ℕ}

/-- The dimension numbers "axis 0 of both operands is the batch axis, contract axis 1 with axis 1", over any extents;
    the shape conditions are the caller's fact. -/
def dotBNKxBND (B N K D : ℕ)
    (wf : DotDims.WF ⟨3, ![B, N, K]⟩ ⟨3, ![B, N, D]⟩ ⟨3, ![B, K, D]⟩ [1] [1] [2] [2] [0] [0]) :
    DotDims ⟨3, ![B, N, K]⟩ ⟨3, ![B, N, D]⟩ ⟨3, ![B, K, D]⟩ where
  lhsContracting := [1]
  rhsContracting := [1]
  lhsNonContracting := [2]
  rhsNonContracting := [2]
  lhsBatch := [0]
  rhsBatch := [0]
  wf := wf

variable (wf : DotDims.WF ⟨3, ![B, N, K]⟩ ⟨3, ![B, N, D]⟩ ⟨3, ![B, K, D]⟩ [1] [1] [2] [2] [0] [0])

/-- The left operand's index at output entry `(p, j, q)` and contracted coordinate `n` is `(p, n, j)`. -/
theorem dotBNKxBND_lhsIdx (p : Fin B) (j : Fin K) (q : Fin D) (n : Fin N) :
    (dotBNKxBND B N K D wf).lhsIdx (ix3 p j q) ((contrEquiv1 (dotBNKxBND B N K D wf) N rfl rfl).symm n) = ix3 p n j := by
  have hk := contrEquiv1_symm_val (dotBNKxBND B N K D wf) N rfl rfl n
  funext ax
  apply Fin.ext
  match ax with
  | ⟨0, _⟩ => rfl
  | ⟨1, _⟩ => exact ((dotBNKxBND B N K D wf).lhsIdx_val_of_single (cl := 1) rfl _ _).trans hk
  | ⟨2, _⟩ => rfl

/-- The right operand's index at output entry `(p, j, q)` and contracted coordinate `n` is `(p, n, q)`. -/
theorem dotBNKxBND_rhsIdx (p : Fin B) (j : Fin K) (q : Fin D) (n : Fin N) :
    (dotBNKxBND B N K D wf).rhsIdx (ix3 p j q) ((contrEquiv1 (dotBNKxBND B N K D wf) N rfl rfl).symm n) = ix3 p n q := by
  have hk := contrEquiv1_symm_val (dotBNKxBND B N K D wf) N rfl rfl n
  funext ax
  apply Fin.ext
  match ax with
  | ⟨0, _⟩ => rfl
  | ⟨1, _⟩ => exact ((dotBNKxBND B N K D wf).rhsIdx_val_of_single (cr := 1) rfl _ _).trans hk
  | ⟨2, _⟩ => rfl

/-- The host's `dot_general` with these dimension numbers, read at `(p, j, q)`: the sum over the contracted coordinate
    of the left operand's column `j` of batch `p` against the right operand's column `q` of the same batch. -/
theorem dotBNKxBND_apply {φ₁ φ₂ : FTy} (l : FVec Ideal ⟨3, ![B, N, K]⟩ φ₁) (r : FVec Ideal ⟨3, ![B, N, D]⟩ φ₂)
    (prec : Option ContractPrecision) (sched : HostSchedule) (p : Fin B) (j : Fin K) (q : Fin D) :
    FloatOps.dotGeneral (dotBNKxBND B N K D wf) prec sched l r (ix3 p j q) = ∑ n : Fin N, l (ix3 p n j) * r (ix3 p n q) := by
  refine (Ideal.dotGeneral_apply (dotBNKxBND B N K D wf) prec sched l r (ix3 p j q)).trans ?_
  rw [← Equiv.sum_comp (contrEquiv1 (dotBNKxBND B N K D wf) N rfl rfl).symm]
  refine Finset.sum_congr rfl fun n _ => ?_
  rw [dotBNKxBND_lhsIdx, dotBNKxBND_rhsIdx]

end BatchDot

end AttnHost.Lib
-- ==== Proof.RefReadScore.lean ====
/-
  The reference's scores read at an index: the query repeated over the points and joined with the keys and the
  spatial vectors along the last axis is, at position `j`, the concatenation (q, ke n, ks n) at `j`; the contraction
  with the attention matrix is the inner product of length 1088.
-/
import proofs.«109109_j40484361732519_2_alg».proof.Proof.RefTerm
import proofs.«109109_j40484361732519_2_alg».proof.Proof.Spec
import proofs.«109109_j40484361732519_2_alg».proof.Proof.LibAttnHost

namespace Cert.ReferenceIdeal.RefRead

open Idealize.ShloMosaic Idealize.ShloMosaic.ValueIdx Cert.ReferenceIdeal Cert.ReferenceIdeal.Facts₀
  Cert.ReferenceIdeal.RefTerm

/-- The joined array at `(r, n, j)`: the query of row `r` below 512, the key of point `n` from 512 to 1023, the
    spatial vector of point `n` from 1024 on. -/
theorem cat_apply (a0 : FVec Ideal S4096x32x512 .f32) (a1 : FVec Ideal S4096x32x64 .f32) (a2 : FVec Ideal S4096x512 .f32)
    (r : Fin 4096) (n : Fin 32) (j : Fin 1088) :
    concatenate S4096x32x1088 2
        [⟨S4096x32x512, broadcastInDim S4096x32x512 ![0, 1, 2] bcast_S4096x1x512_S4096x32x512_0_1_2
            (broadcastInDim S4096x1x512 ![0, 2] bcast_S4096x512_S4096x1x512_0_2 a2)⟩,
          ⟨S4096x32x512, a0⟩, ⟨S4096x32x64, a1⟩]
        concatenates_S4096x32x512_S4096x32x512_S4096x32x64_S4096x32x1088_d2 (ix3 r n j)
      = Cert.Spec.cat (fun d => a2 (ix2 r d)) (fun n d => a0 (ix3 r n d)) (fun n d => a1 (ix3 r n d)) n j := by
  unfold Cert.Spec.cat
  split
  · next h =>
    refine (AttnHost.Lib.last3_fst _ a0 a1 _ r n j h).trans ?_
    exact Hmu.Lib.bcastMiddle_apply a2 _ _ r n ⟨j.val, h⟩
  · split
    · next h1 h2 => exact AttnHost.Lib.last3_snd _ a0 a1 _ r n j (by omega) (by omega)
    · next h1 h2 => exact AttnHost.Lib.last3_thd _ a0 a1 _ r n j (by omega) (by have := j.isLt; omega)

/-- The scores at `(r, n, k)`: the inner product of the concatenation with column `k` of the attention matrix. -/
theorem rScore_apply (a0 : FVec Ideal S4096x32x512 .f32) (a1 : FVec Ideal S4096x32x64 .f32)
    (a2 : FVec Ideal S4096x512 .f32) (a3 : FVec Ideal S1088x4 .f32) (r : Fin 4096) (n : Fin 32) (k : Fin 4) :
    rScore a0 a1 a2 a3 (ix3 r n k)
      = Cert.Spec.scoreR (fun d => a2 (ix2 r d)) (fun n d => a0 (ix3 r n d)) (fun n d => a1 (ix3 r n d))
          (fun j k => a3 (ix2 j k)) n k := by
  unfold rScore Cert.Spec.scoreR
  refine (TreeHost.Lib.dotAKDxDP_apply dot_S4096x32x1088_S1088x4_S4096x32x4_2_0_01_1_n_n_wf _ a3 none .single r n k).trans ?_
  refine Finset.sum_congr rfl fun j _ => ?_
  rw [cat_apply]

end Cert.ReferenceIdeal.RefRead
-- ==== Proof.RefReadAtt.lean ====
/-
  The leaky rectifier and the softmax over the points, read at an index.

  The rectifier compares each score with the zero word and selects the score or the slope word times it. The
  softmax takes, for each row and head, the largest rectified score over the 32 points (a fold of `max` from minus
  infinity; the further maximum with minus infinity changes nothing), subtracts it, exponentiates, sums over the
  points from zero and divides.
-/
import proofs.«109109_j40484361732519_2_alg».proof.Proof.RefTerm
import proofs.«109109_j40484361732519_2_alg».proof.Proof.Spec
import proofs.«109109_j40484361732519_2_alg».proof.Proof.LibAttnHost

namespace Cert.ReferenceIdeal.RefRead

open Idealize.ShloMosaic Idealize.ShloMosaic.ValueIdx Cert.ReferenceIdeal Cert.ReferenceIdeal.Facts₀
  Cert.ReferenceIdeal.RefTerm

/-- The rectifier at an index is the leaky rectifier of the entry. -/
theorem rLeaky_apply (v : FVec Ideal S4096x32x4 .f32) (i : S4096x32x4.Idx) : rLeaky v i = Cert.Spec.leaky (v i) := by
  show Scalar.select
      (FloatOps.cmpf .oge (v i)
        (broadcastInDim S4096x32x4 ![] bcast_S_S4096x32x4 (constant (F := Ideal) S_ .f32 0x00000000#32) i))
      (v i)
      (broadcastInDim S4096x32x4 ![] bcast_S_S4096x32x4 (constant (F := Ideal) S_ .f32 0x3C23D70A#32) i * v i)
    = Cert.Spec.leaky (v i)
  rw [Hmu.Lib.bcast_const_apply, Hmu.Lib.bcast_const_apply]
  rfl

/-- The array of largest rectified scores, one per row and head. -/
noncomputable def topArr (v : FVec Ideal S4096x32x4 .f32) : FVec Ideal S4096x4 .f32 :=
  maximumf (broadcastInDim S4096x4 ![] bcast_S_S4096x4 (constant (F := Ideal) S_ .f32 0xFF800000#32))
    (Host.reduce FloatOps.maximumf v (constant (F := Ideal) S_ .f32 0xFF800000#32) reducesTo_S4096x32x4_S4096x4_d1 h_S_)

/-- The array of e^(score − largest). -/
noncomputable def exArr (v : FVec Ideal S4096x32x4 .f32) : FVec Ideal S4096x32x4 .f32 :=
  Host.exp (subf v (broadcastInDim S4096x32x4 ![0, 1, 2] bcast_S4096x1x4_S4096x32x4_0_1_2
    (broadcastInDim S4096x1x4 ![0, 2] bcast_S4096x4_S4096x1x4_0_2 (topArr v))))

/-- The array of normalizers, one per row and head. -/
noncomputable def denArr (v : FVec Ideal S4096x32x4 .f32) : FVec Ideal S4096x4 .f32 :=
  Host.reduceAdd (exArr v) (constant (F := Ideal) S_ .f32 0x00000000#32) reducesTo_S4096x32x4_S4096x4_d1 h_S_

/-- The softmax stage is the quotient of those arrays, the normalizer repeated over the points. -/
theorem rAtt_eq (v : FVec Ideal S4096x32x4 .f32) :
    rAtt v = Host.divf (exArr v) (broadcastInDim S4096x32x4 ![0, 1, 2] bcast_S4096x1x4_S4096x32x4_0_1_2
      (broadcastInDim S4096x1x4 ![0, 2] bcast_S4096x4_S4096x1x4_0_2 (denArr v))) := rfl

/-- The largest rectified score of row `r` under head `k`. -/
theorem topArr_apply (v : FVec Ideal S4096x32x4 .f32) (r : Fin 4096) (k : Fin 4) :
    topArr v (ix2 r k) = Cert.Spec.top (fun n k => v (ix3 r n k)) k := by
  unfold topArr Cert.Spec.top
  rw [maximumf_apply, Hmu.Lib.bcast_const_apply, AttnHost.Lib.hostMaxMiddle_apply, constant_apply,
    AttnHost.Lib.ofBits_neg_inf_f32, max_bot_left]

/-- e^(score − largest) at `(r, n, k)`. -/
theorem exArr_apply (v : FVec Ideal S4096x32x4 .f32) (r : Fin 4096) (n : Fin 32) (k : Fin 4) :
    exArr v (ix3 r n k) = Cert.Spec.ex (fun n k => v (ix3 r n k)) n k := by
  unfold exArr Cert.Spec.ex
  rw [Hmu.Lib.hostExp_apply, subf_apply, Hmu.Lib.bcastMiddle_apply, topArr_apply]

/-- The normalizer of row `r` under head `k`. -/
theorem denArr_apply (v : FVec Ideal S4096x32x4 .f32) (r : Fin 4096) (k : Fin 4) :
    denArr v (ix2 r k) = Cert.Spec.den (fun n k => v (ix3 r n k)) k := by
  unfold denArr Cert.Spec.den
  rw [TreeHost.Lib.hostReduceAdd_abc_axis1_apply]
  exact Finset.sum_congr rfl fun n _ => exArr_apply v r n k

/-- The attention weight at `(r, n, k)`. -/
theorem rAtt_apply (v : FVec Ideal S4096x32x4 .f32) (r : Fin 4096) (n : Fin 32) (k : Fin 4) :
    rAtt v (ix3 r n k) = Cert.Spec.att (fun n k => v (ix3 r n k)) n k := by
  rw [rAtt_eq, hostDivf_apply, Hmu.Lib.bcastMiddle_apply, exArr_apply, denArr_apply]
  rfl

end Cert.ReferenceIdeal.RefRead
-- ==== Proof.RefReadX.lean ====
/-
  The pooled keys, the logistic function spelt out and the residual, read at an index.

  The contraction with one batch axis gives, for each row and head, the attention-weighted sum of the keys over the
  32 points; the sum over the middle axis adds the four heads; then the 1/4 word, the negation, the exponential,
  one plus it, one divided by that, and the query added.
-/
import proofs.«109109_j40484361732519_2_alg».proof.Proof.RefTerm
import proofs.«109109_j40484361732519_2_alg».proof.Proof.Spec
import proofs.«109109_j40484361732519_2_alg».proof.Proof.LibAttnHost

namespace Cert.ReferenceIdeal.RefRead

open Idealize.ShloMosaic Idealize.ShloMosaic.ValueIdx Cert.ReferenceIdeal Cert.ReferenceIdeal.Facts₀
  Cert.ReferenceIdeal.RefTerm

/-- The keys pooled under head `k` for row `r`, at coordinate `d`. -/
theorem rPool_apply (v : FVec Ideal S4096x32x4 .f32) (a0 : FVec Ideal S4096x32x512 .f32) (r : Fin 4096) (k : Fin 4)
    (d : Fin 512) :
    Host.dotGeneral dot_S4096x32x4_S4096x32x512_S4096x4x512_1_1_2_2_0_0 none v a0 (ix3 r k d)
      = ∑ n : Fin 32, v (ix3 r n k) * a0 (ix3 r n d) :=
  AttnHost.Lib.dotBNKxBND_apply dot_S4096x32x4_S4096x32x512_S4096x4x512_1_1_2_2_0_0_wf v a0 none .single r k d

/-- The pooled vector with the logistic function and the residual, at `(r, d)`. -/
theorem rX_apply (v : FVec Ideal S4096x32x4 .f32) (a0 : FVec Ideal S4096x32x512 .f32) (a2 : FVec Ideal S4096x512 .f32)
    (r : Fin 4096) (d : Fin 512) :
    rX v a0 a2 (ix2 r d)
      = Ideal.div Cert.Spec.wOne
          (Cert.Spec.wOne + Ideal.exp (-(Cert.Spec.poolR (fun n k => v (ix3 r n k)) (fun n d => a0 (ix3 r n d)) d
            * Cert.Spec.wQuarter))) + a2 (ix2 r d) := by
  show Ideal.div
      (broadcastInDim S4096x512 ![] bcast_S_S4096x512 (constant (F := Ideal) S_ .f32 0x3F800000#32) (ix2 r d))
      (broadcastInDim S4096x512 ![] bcast_S_S4096x512 (constant (F := Ideal) S_ .f32 0x3F800000#32) (ix2 r d)
        + Ideal.exp (-(Host.reduceAdd
              (Host.dotGeneral dot_S4096x32x4_S4096x32x512_S4096x4x512_1_1_2_2_0_0 none v a0)
              (constant (F := Ideal) S_ .f32 0x00000000#32) reducesTo_S4096x4x512_S4096x512_d1 h_S_ (ix2 r d)
            * broadcastInDim S4096x512 ![] bcast_S_S4096x512 (constant (F := Ideal) S_ .f32 0x3E800000#32) (ix2 r d))))
      + a2 (ix2 r d) = _
  rw [Hmu.Lib.bcast_const_apply, Hmu.Lib.bcast_const_apply, TreeHost.Lib.hostReduceAdd_abc_axis1_apply]
  unfold Cert.Spec.poolR
  simp only [rPool_apply]

end Cert.ReferenceIdeal.RefRead
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«109109_j40484361732519_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.RefReadNorm.lean ====
/-
  The layer norm and the affine map with its residual, read at an index.

  The norm of a row: the sum over the 512 coordinates divided by the width word is the mean; the centred squares
  summed and divided by the width word are the second central moment; the scaled centred entry is divided by the
  square root of that moment plus the small word, and the shift is added. The affine map contracts the row with the
  transposed square matrix, adds the bias and the row itself.
-/
import proofs.«109109_j40484361732519_2_alg».proof.Proof.RefTerm
import proofs.«109109_j40484361732519_2_alg».proof.Proof.Spec
import proofs.«109109_j40484361732519_2_alg».proof.Proof.LibAttnHost
import proofs.«109109_j40484361732519_2_alg».proof.Proof.LibHostSlab

namespace Cert.ReferenceIdeal.RefRead

open Idealize.ShloMosaic Idealize.ShloMosaic.ValueIdx Cert.ReferenceIdeal Cert.ReferenceIdeal.Facts₀
  Cert.ReferenceIdeal.RefTerm

/-- The host's square root at an index is the extended square root of the element. -/
theorem hostSqrt_apply {s : Shape} {φ : FTy} (x : FVec Ideal s φ) (i : s.Idx) : Host.sqrt x i = Ideal.sqrt (x i) := rfl

/-- The column of row means. -/
noncomputable def meanCol (x : FVec Ideal S4096x512 .f32) : FVec Ideal S4096x1 .f32 :=
  Host.divf
    (broadcastInDim S4096x1 ![0] bcast_S4096_S4096x1_0
      (Host.reduceAdd x (constant (F := Ideal) S_ .f32 0x00000000#32) reducesTo_S4096x512_S4096_d1 h_S_))
    (broadcastInDim S4096x1 ![] bcast_S_S4096x1 (constant (F := Ideal) S_ .f32 0x44000000#32))

/-- The rows with their means subtracted. -/
noncomputable def centred (x : FVec Ideal S4096x512 .f32) : FVec Ideal S4096x512 .f32 :=
  subf x (broadcastInDim S4096x512 ![0, 1] bcast_S4096x1_S4096x512_0_1 (meanCol x))

/-- The column of second central moments. -/
noncomputable def varCol (x : FVec Ideal S4096x512 .f32) : FVec Ideal S4096x1 .f32 :=
  Host.divf
    (broadcastInDim S4096x1 ![0] bcast_S4096_S4096x1_0
      (Host.reduceAdd (mulf (centred x) (centred x)) (constant (F := Ideal) S_ .f32 0x00000000#32)
        reducesTo_S4096x512_S4096_d1 h_S_))
    (broadcastInDim S4096x1 ![] bcast_S_S4096x1 (constant (F := Ideal) S_ .f32 0x44000000#32))

/-- The norm stage in terms of those arrays. -/
theorem rNorm_eq (x : FVec Ideal S4096x512 .f32) (g b : FVec Ideal S512 .f32) :
    rNorm x g b
      = addf
          (Host.divf
            (mulf (broadcastInDim S4096x512 ![0, 1] bcast_S1x512_S4096x512_0_1
                (broadcastInDim S1x512 ![1] bcast_S512_S1x512_1 g)) (centred x))
            (broadcastInDim S4096x512 ![0, 1] bcast_S4096x1_S4096x512_0_1
              (Host.sqrt (addf (varCol x)
                (broadcastInDim S4096x1 ![] bcast_S_S4096x1 (constant (F := Ideal) S_ .f32 0x358637BD#32))))))
          (broadcastInDim S4096x512 ![0, 1] bcast_S1x512_S4096x512_0_1
            (broadcastInDim S1x512 ![1] bcast_S512_S1x512_1 b)) := rfl

/-- The mean of row `r`. -/
theorem meanCol_apply (x : FVec Ideal S4096x512 .f32) (r : Fin 4096) (u : Fin 1) :
    meanCol x (ix2 r u) = Cert.Spec.mean (fun d => x (ix2 r d)) := by
  unfold meanCol Cert.Spec.mean
  rw [hostDivf_apply, Hmu.Lib.bcast_a_a1_apply, Hmu.Lib.bcast_const_apply, Hmu.Lib.hostReduceAdd_ab_axis1_apply]

/-- The centred entry at `(r, c)`. -/
theorem centred_apply (x : FVec Ideal S4096x512 .f32) (r : Fin 4096) (c : Fin 512) :
    centred x (ix2 r c) = x (ix2 r c) - Cert.Spec.mean (fun d => x (ix2 r d)) := by
  unfold centred
  rw [subf_apply, Hmu.Lib.bcast_a1_ab_apply, meanCol_apply]

/-- The second central moment of row `r`. -/
theorem varCol_apply (x : FVec Ideal S4096x512 .f32) (r : Fin 4096) (u : Fin 1) :
    varCol x (ix2 r u) = Cert.Spec.var (fun d => x (ix2 r d)) := by
  unfold varCol Cert.Spec.var
  rw [hostDivf_apply, Hmu.Lib.bcast_a_a1_apply, Hmu.Lib.bcast_const_apply, Hmu.Lib.hostReduceAdd_ab_axis1_apply]
  refine congrArg (fun s => Ideal.div s _) (Finset.sum_congr rfl fun j _ => ?_)
  rw [mulf_apply, centred_apply]

/-- The layer norm at `(r, c)`. -/
theorem rNorm_apply (x : FVec Ideal S4096x512 .f32) (g b : FVec Ideal S512 .f32) (r : Fin 4096) (c : Fin 512) :
    rNorm x g b (ix2 r c)
      = Cert.Spec.normR (fun d => g (ix1 d)) (fun d => b (ix1 d)) (fun d => x (ix2 r d)) c := by
  rw [rNorm_eq, addf_apply, hostDivf_apply, mulf_apply, Hmu.Lib.bcastCols_apply, centred_apply,
    Hmu.Lib.bcast_a1_ab_apply, hostSqrt_apply, addf_apply, varCol_apply, Hmu.Lib.bcast_const_apply,
    Hmu.Lib.bcastCols_apply]
  rfl

/-- The affine map with its residual at `(r, c)`: the matrix is read transposed, so its entry `(j, c)` is the square
    matrix at `(c, j)`. -/
theorem rAffine_apply (y : FVec Ideal S4096x512 .f32) (a4 : FVec Ideal S512x512 .f32) (a5 : FVec Ideal S512 .f32)
    (r : Fin 4096) (c : Fin 512) :
    rAffine y a4 a5 (ix2 r c)
      = Cert.Spec.affine (fun o i => a4 (ix2 o i)) (fun d => a5 (ix1 d)) (fun d => y (ix2 r d)) c := by
  show (Host.dotGeneral dot_S4096x512_S512x512_S4096x512_1_0_0_1_n_n none y
          (transpose S512x512 [1, 0] a4 transposes_S512x512_S512x512_1_0) (ix2 r c)
        + broadcastInDim S4096x512 ![0, 1] bcast_S1x512_S4096x512_0_1
            (broadcastInDim S1x512 ![1] bcast_S512_S1x512_1 a5) (ix2 r c))
      + y (ix2 r c) = _
  rw [Bilinear.Host.dot_apply _ rfl rfl rfl rfl rfl rfl, Hmu.Lib.bcastCols_apply]
  unfold Cert.Spec.affine
  refine congrArg (fun s => s + a5 (ix1 c) + y (ix2 r c)) (Finset.sum_congr rfl fun j _ => ?_)
  exact congrArg (fun t => y (ix2 r j) * t) (transpose_ix2_apply a4 transposes_S512x512_S512x512_1_0 j c)

end Cert.ReferenceIdeal.RefRead
-- ==== Proof.RefRead.lean ====
/-
  The reference's result read at an index is the row function of the specification: the stages composed, each read
  at an index in terms of the previous stage's array along the same row.
-/
import proofs.«109109_j40484361732519_2_alg».proof.Proof.RefReadScore
import proofs.«109109_j40484361732519_2_alg».proof.Proof.RefReadAtt
import proofs.«109109_j40484361732519_2_alg».proof.Proof.RefReadX
import proofs.«109109_j40484361732519_2_alg».proof.Proof.RefReadNorm

namespace Cert.ReferenceIdeal.RefRead

open Idealize.ShloMosaic Idealize.ShloMosaic.ValueIdx Cert.ReferenceIdeal Cert.ReferenceIdeal.Facts₀
  Cert.ReferenceIdeal.RefTerm

/-- Entry `(r, c)` of the reference's result is coordinate `c` of the specification's row function at row `r` of the
    argument arrays. -/
theorem rOut_apply (a0 : FVec Ideal S4096x32x512 .f32) (a1 : FVec Ideal S4096x32x64 .f32) (a2 : FVec Ideal S4096x512 .f32)
    (a3 : FVec Ideal S1088x4 .f32) (a4 : FVec Ideal S512x512 .f32) (a5 a6 a7 a8 a9 : FVec Ideal S512 .f32)
    (r : Fin 4096) (c : Fin 512) :
    Cert.ReferenceIdeal.RefTerm.rOut a0 a1 a2 a3 a4 a5 a6 a7 a8 a9 (ValueIdx.ix2 r c)
      = Cert.Spec.outR (fun d => a2 (ValueIdx.ix2 r d)) (fun n d => a0 (ValueIdx.ix3 r n d))
          (fun n d => a1 (ValueIdx.ix3 r n d)) (fun j k => a3 (ValueIdx.ix2 j k))
          (fun o i => a4 (ValueIdx.ix2 o i)) (fun d => a5 (ValueIdx.ix1 d)) (fun d => a6 (ValueIdx.ix1 d))
          (fun d => a7 (ValueIdx.ix1 d)) (fun d => a8 (ValueIdx.ix1 d)) (fun d => a9 (ValueIdx.ix1 d)) c := by
  unfold rOut Cert.Spec.outR
  simp only [rNorm_apply, rAffine_apply, rX_apply, rAtt_apply, rLeaky_apply, rScore_apply]

end Cert.ReferenceIdeal.RefRead
-- ==== Proof.LibSoftmaxLaw.lean ====
/-
  Softmax-weighted sums on the extended reals: dividing late or early.

  For a row of scores s and a row of values v, write m for the row's maximum (the fold of max from ⊥),
  p j = exp (s j - m) for the weights and l = ∑ j, p j for their sum. One program forms (∑ j, p j * v j) / l, the
  other ∑ j, (p j / l) * v j. On the extended reals these agree as soon as every score and every value is a real
  number: then m is a real, every weight is a positive real, l is a positive real, and the identity is the real one
  (a sum times a constant is the sum of the products). Without that hypothesis it can fail (an infinite score makes
  a weight infinite and the quotient junk).

  Also here: the coercion of a finite real sum, that a finite sum of products of reals is a real, and the three float
  patterns the two programs spell for the score scale, with 1024 ^ (-1/2) = 1/32.
-/
import Idealize.ShloMosaic.PureOps.Ideal

noncomputable section

namespace Attn

open Idealize.ShloMosaic

/-! ## Real sums and real maxima inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose F hF using hf
  choose G hG using hg
  refine ⟨∑ i, F i * G i, ?_⟩
  rw [coe_sum]
  exact Finset.sum_congr rfl fun i _ => by rw [hF, hG, EReal.coe_mul]

/-- The fold of max from ⊥ over finitely many reals is ⊥ or a real. -/
theorem fold_max_bot_or_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; rfl
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

variable {T : ℕ}

/-- The row maximum: the fold of max from ⊥ over the row. -/
def rowMax (s : Fin T → EReal) : EReal := (Finset.univ : Finset (Fin T)).fold max ⊥ s

/-- The maximum of a nonempty row of reals is a real. -/
theorem rowMax_real (S : Fin T → ℝ) (j0 : Fin T) : ∃ M : ℝ, rowMax (fun j => (S j : EReal)) = M := by
  rcases fold_max_bot_or_real Finset.univ S with h | h
  · exfalso
    have hle : ((S j0 : ℝ) : EReal) ≤ (Finset.univ : Finset (Fin T)).fold max (⊥ : EReal) (fun i => (S i : EReal)) :=
      (_root_.Finset.le_fold_max (c := ((S j0 : ℝ) : EReal))).2 (Or.inr ⟨j0, Finset.mem_univ _, le_rfl⟩)
    rw [h] at hle
    exact EReal.coe_ne_bot _ (le_bot_iff.mp hle)
  · exact h

/-- The weight of entry j: exp of the score minus the row maximum. -/
def weight (s : Fin T → EReal) (j : Fin T) : EReal := Ideal.exp (s j - rowMax s)

/-- The sum of the row's weights. -/
def denom (s : Fin T → EReal) : EReal := ∑ j, weight s j

/-- Divide late: the weighted sum of the values, divided by the sum of the weights. -/
def outLate (s v : Fin T → EReal) : EReal := Ideal.div (∑ j, weight s j * v j) (denom s)

/-- Divide early: every weight divided by the sum of the weights, then the weighted sum of the values. -/
def outEarly (s v : Fin T → EReal) : EReal := ∑ j, Ideal.div (weight s j) (denom s) * v j

/-- For a nonempty row of real scores and real values the two forms agree. -/
theorem outEarly_eq_outLate (s v : Fin T → EReal) (j0 : Fin T) (hs : ∀ j, ∃ r : ℝ, s j = r) (hv : ∀ j, ∃ r : ℝ, v j = r) :
    outEarly s v = outLate s v := by
  choose S hS using hs
  choose V hV using hv
  have hs' : s = fun j => (S j : EReal) := funext hS
  obtain ⟨M, hM⟩ := rowMax_real S j0
  have hw : ∀ j, weight s j = ((Real.exp (S j - M) : ℝ) : EReal) := fun j => by
    unfold weight
    rw [hs', hM, ← EReal.coe_sub, Ideal.exp_coe]
  have hL : denom s = ((∑ j, Real.exp (S j - M) : ℝ) : EReal) := by
    unfold denom
    rw [coe_sum]
    exact Finset.sum_congr rfl fun j _ => hw j
  have hpos : (0 : ℝ) < ∑ j, Real.exp (S j - M) :=
    Finset.sum_pos (fun j _ => Real.exp_pos _) ⟨j0, Finset.mem_univ _⟩
  unfold outEarly outLate
  rw [hL, Ideal.div_coe hpos.ne']
  have e1 : ∀ j, Ideal.div (weight s j) ((∑ j, Real.exp (S j - M) : ℝ) : EReal) * v j
      = ((Real.exp (S j - M) * (1 / ∑ j, Real.exp (S j - M)) * V j : ℝ) : EReal) := fun j => by
    rw [Ideal.div_coe hpos.ne', hw, hV, ← EReal.coe_mul, ← EReal.coe_mul]
  have e2 : ∀ j, weight s j * v j = ((Real.exp (S j - M) * V j : ℝ) : EReal) := fun j => by
    rw [hw, hV, ← EReal.coe_mul]
  rw [Finset.sum_congr rfl fun j _ => e1 j, Finset.sum_congr rfl fun j _ => e2 j, ← coe_sum, ← coe_sum, ← EReal.coe_mul]
  congr 1
  rw [Finset.sum_mul]
  exact Finset.sum_congr rfl fun j _ => by ring

/-! ## The float patterns of the score scale -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of -∞ denotes ⊥. -/
theorem ofBits_neg_inf : Ideal.ofBits .f32 0xFF800000#32 = ⊥ := by simp [Ideal.ofBits, Ideal.ieee]

/-- 1024 to the power -1/2 is 1/32: 1024 is the square of 32. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale, the power of the two patterns, is the kernel's literal. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Attn

end
-- ==== Proof.LibAttnLaws.lean ====
/-
  General laws on the extended reals for an attention-pooling layer followed by a layer norm.

  * Splitting a range: a sum over `a + b + c` consecutive coordinates is the sum of the sums over the three
    consecutive ranges. Only associativity and commutativity of the addition enter.
  * Distributing a factor over a sum of non-negative terms: `(∑ i, a i) * x = ∑ i, a i * x` as soon as every
    `a i` is non-negative, for EVERY extended real `x` (the infinities and the negatives included). Without the
    sign hypothesis the law fails on the extended reals (`(1 + (-1)) * ⊤ = 0` against `1 * ⊤ + (-1) * ⊤ = ⊥`).
  * A square is non-negative on the extended reals, the infinities included; the quotient of a non-negative
    extended real by a positive real is non-negative.
  * The reciprocal square root as a divisor: for `0 < s` (`+∞` included) `y * rsqrt s = y / sqrt s` for every
    extended real `y`. At `s = 0` the two sides differ for `y = 0` (`0 * ⊤ = 0` against `0 / 0`, which is
    `⊥`), so the hypothesis is strict.
  * The softmax weights of a non-empty row of real scores are non-negative.
-/
import Idealize.ShloMosaic.PureOps.Ideal
import Idealize.ShloMosaic.Lib.ValueIdx
import proofs.«109109_j40484361732519_2_alg».proof.Proof.LibSoftmaxLaw

noncomputable section

namespace AttnLaws

open Idealize.ShloMosaic

/-! ## Splitting a range -/

/-- A sum over `N = (a + b) + c` consecutive coordinates is the sum over the first `a`, plus the sum over the
    next `b`, plus the sum over the last `c`, associated to the left. -/
theorem sum_fin_split3 {β : Type*} [AddCommMonoid β] {a b c ab N : ℕ} (hab : a + b = ab) (h : ab + c = N)
    (f : Fin N → β) :
    ∑ j : Fin N, f j
      = ((∑ i : Fin a, f ⟨i.val, by omega⟩) + ∑ i : Fin b, f ⟨a + i.val, by omega⟩)
        + ∑ i : Fin c, f ⟨ab + i.val, by omega⟩ := by
  subst hab
  subst h
  rw [Fin.sum_univ_add, Fin.sum_univ_add]
  rfl

/-! ## A factor distributed over non-negative terms -/

/-- On the extended reals a factor distributes over a finite sum of non-negative terms, whatever the factor. -/
theorem sum_mul_of_nonneg {ι : Type*} (s : Finset ι) (a : ι → EReal) (x : EReal) (ha : ∀ i ∈ s, 0 ≤ a i) :
    (∑ i ∈ s, a i) * x = ∑ i ∈ s, a i * x := by
  classical
  induction s using Finset.induction_on with
  | empty => simp
  | insert j s hj ih =>
    rw [Finset.sum_insert hj, Finset.sum_insert hj,
      EReal.right_distrib_of_nonneg (ha j (Finset.mem_insert_self j s))
        (Finset.sum_nonneg fun i hi => ha i (Finset.mem_insert_of_mem hi)),
      ih fun i hi => ha i (Finset.mem_insert_of_mem hi)]

/-! ## Signs -/

/-- A square is non-negative on the extended reals: `⊥ * ⊥ = ⊤ * ⊤ = ⊤`. -/
theorem mul_self_nonneg (z : EReal) : 0 ≤ z * z :=
  EReal.mul_nonneg_iff.mpr ((le_total 0 z).elim (fun h => Or.inl ⟨h, h⟩) (fun h => Or.inr ⟨h, h⟩))

/-- A non-negative extended real divided by a positive real is non-negative. -/
theorem div_nonneg_of_pos_real {x : EReal} {w : ℝ} (hx : 0 ≤ x) (hw : 0 < w) : 0 ≤ Ideal.div x (w : EReal) := by
  rw [Ideal.div_coe hw.ne']
  exact EReal.mul_nonneg hx (by exact_mod_cast (one_div_pos.mpr hw).le)

/-! ## The reciprocal square root as a divisor -/

/-- For a positive extended real `s` (`+∞` included), multiplying by the reciprocal square root of `s` is
    dividing by the square root of `s`, for every extended real `y`. -/
theorem mul_rsqrt_eq_div_sqrt {s : EReal} (hs : 0 < s) (y : EReal) :
    y * Ideal.rsqrt s = Ideal.div y (Ideal.sqrt s) := by
  induction s using EReal.rec with
  | bot => exact absurd hs (by simp)
  | top => rw [Ideal.rsqrt_top, Ideal.sqrt_top, Ideal.div, if_neg (by simp), EReal.inv_top]
  | coe r =>
    have hr : 0 < r := by exact_mod_cast hs
    have hpos : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hpos.ne'), EReal.coe_inv]

/-! ## Softmax weights are non-negative -/

/-- For a non-empty row of real scores every softmax weight — the exponential of the score minus the row's
    maximum, divided by the sum of these exponentials — is a non-negative extended real. -/
theorem weight_div_denom_nonneg {T : ℕ} (s : Fin T → EReal) (j0 : Fin T) (hs : ∀ j, ∃ r : ℝ, s j = r) (j : Fin T) :
    0 ≤ Ideal.div (Attn.weight s j) (Attn.denom s) := by
  choose S hS using hs
  have hs' : s = fun j => (S j : EReal) := funext hS
  obtain ⟨M, hM⟩ := Attn.rowMax_real S j0
  have hw : ∀ j, Attn.weight s j = ((Real.exp (S j - M) : ℝ) : EReal) := fun j => by
    unfold Attn.weight
    rw [hs', hM, ← EReal.coe_sub, Ideal.exp_coe]
  have hL : Attn.denom s = ((∑ j, Real.exp (S j - M) : ℝ) : EReal) := by
    unfold Attn.denom
    rw [Attn.coe_sum]
    exact Finset.sum_congr rfl fun j _ => hw j
  have hpos : (0 : ℝ) < ∑ j, Real.exp (S j - M) :=
    Finset.sum_pos (fun j _ => Real.exp_pos _) ⟨j0, Finset.mem_univ _⟩
  rw [hL, Ideal.div_coe hpos.ne', hw, ← EReal.coe_mul]
  exact_mod_cast mul_nonneg (Real.exp_pos _).le (one_div_pos.mpr hpos).le

end AttnLaws

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibInverseRoot.lean ====
/-
  The reciprocal square root against the quotient of one by the square root, on the extended reals.

  For a non-negative extended real `s` — zero and `+∞` included — the reciprocal square root of `s` is the
  quotient of `1` by the square root of `s`:
    * `s = 0`: the root is `0`, and a positive number divided by zero is `+∞`, the reciprocal root's value at `0`;
    * `s = +∞`: the root is `+∞`, whose inverse is `0`, the reciprocal root's value at `+∞`;
    * `0 < s < +∞`: the root is a positive real, and `1 · (√s)⁻¹ = (√s)⁻¹`.
  Below zero the two differ (the quotient by the junk root is `0`, the reciprocal root is the junk value), so the
  hypothesis `0 ≤ s` is needed; a maximum with zero supplies it.
  Also: the `f32` pattern of `1.0` denotes `1`.
-/
import Idealize.ShloMosaic.PureOps.Ideal
import Idealize.ShloMosaic.PureOps.IdealRules

namespace InverseRoot

open Idealize.ShloMosaic

/-- The `f32` pattern `0x3F800000` denotes the extended real `1`. -/
theorem ofBits_one_f32 : Ideal.ofBits .f32 0x3F800000#32 = 1 :=
  IdealRules.sign_bit.ideal_onePat .f32

/-- On a non-negative extended real the reciprocal square root is one divided by the square root. -/
theorem rsqrt_eq_one_div_sqrt {s : EReal} (h : 0 ≤ s) : Ideal.rsqrt s = Ideal.div 1 (Ideal.sqrt s) := by
  induction s using EReal.rec with
  | bot => exact absurd h (by simp)
  | top =>
    rw [Ideal.rsqrt_top, Ideal.sqrt_top, Ideal.div, if_neg (by simp), EReal.inv_top, mul_zero]
  | coe r =>
    have hr : 0 ≤ r := by exact_mod_cast h
    rw [Ideal.rsqrt_coe, Ideal.sqrt_coe, if_neg (not_lt.mpr hr), if_neg (not_lt.mpr hr)]
    by_cases h0 : r = 0
    · subst h0
      rw [if_pos rfl, Real.sqrt_zero, Ideal.div, if_pos (by simp), if_pos (by simp)]
    · have hpos : 0 < Real.sqrt r := Real.sqrt_pos.mpr (lt_of_le_of_ne hr (Ne.symm h0))
      rw [if_neg h0, Ideal.div, if_neg (by exact_mod_cast hpos.ne'), one_mul, EReal.coe_inv]

/-- The same with the `f32` pattern of `1.0` as the numerator, as a host program prints it. -/
theorem rsqrt_eq_ofBits_one_div_sqrt {s : EReal} (h : 0 ≤ s) :
    Ideal.rsqrt s = Ideal.div (Ideal.ofBits .f32 0x3F800000#32) (Ideal.sqrt s) := by
  rw [ofBits_one_f32]; exact rsqrt_eq_one_div_sqrt h

end InverseRoot
-- ==== Proof.Algebra.lean ====
/-
  The two arrangements of the attention-pooling layer agree on the extended reals.

  With the query, the keys, the spatial vectors and the attention matrix real (the other six arrays arbitrary
  extended reals), the row function `outK` equals the row function `outR`. Piece by piece:

  * the score: one inner product of length 1088 is the sum of the inner products over its three consecutive
    ranges (only associativity and commutativity of the addition);
  * the rectified scores are reals, so every softmax weight is a non-negative extended real;
  * the pooling: with non-negative weights the key distributes over the sum of the four heads' weights, whatever
    the key; the sums over heads and points commute; four groups of eight points are the thirty-two points;
  * the logistic function is by definition `1 / (1 + e^(-z))`, and the printed word of `1.0` denotes `1`;
  * the layer norm: the second central moment is non-negative for EVERY vector (a square is non-negative, the
    infinities included), the printed `1e-6` is a positive real, so the argument of the root is positive and the
    product with the reciprocal root is the quotient by the root.
-/
import proofs.«109109_j40484361732519_2_alg».proof.Proof.Spec
import proofs.«109109_j40484361732519_2_alg».proof.Proof.LibAttnLaws
import proofs.«109109_j40484361732519_2_alg».proof.Proof.LibGroupedSum
import proofs.«109109_j40484361732519_2_alg».proof.Proof.LibSoftmaxLaw
import proofs.«109109_j40484361732519_2_alg».proof.Proof.LibInverseRoot

noncomputable section

namespace Cert.Algebra

open Idealize.ShloMosaic Cert.Spec

/-! ## The printed words -/

/-- The word of `0.0` denotes `0`. -/
theorem wZero_eq : wZero = 0 := Attn.ofBits_zero

/-- The word of `1.0` denotes `1`. -/
theorem wOne_eq : wOne = 1 := InverseRoot.ofBits_one_f32

/-- The word of `512.0` denotes the real `512`. -/
theorem wWidth_eq : wWidth = ((512 : ℝ) : EReal) := by
  simp [wWidth, Ideal.ofBits, Ideal.ieee, -EReal.coe_mul]; norm_num

/-- The rectifier's slope is a real. -/
theorem wSlope_real : ∃ r : ℝ, wSlope = (r : EReal) := by
  simp [wSlope, Ideal.ofBits, Ideal.ieee, -EReal.coe_mul]

/-- The norm's shift is a positive real. -/
theorem wEps_pos : ∃ r : ℝ, 0 < r ∧ wEps = (r : EReal) := by
  simp [wEps, Ideal.ofBits, Ideal.ieee, -EReal.coe_mul]

/-! ## The score -/

variable (q : Fin 512 → EReal) (ke : Fin 32 → Fin 512 → EReal) (ks : Fin 32 → Fin 64 → EReal)
  (av : Fin 1088 → Fin 4 → EReal)

/-- The concatenation on its first range is the query. -/
theorem cat_lo (n : Fin 32) (d : Fin 512) (h : d.val < 1088) : cat q ke ks n ⟨d.val, h⟩ = q d := by
  unfold cat
  rw [dif_pos d.isLt]

/-- The concatenation on its second range is the key. -/
theorem cat_mid (n : Fin 32) (d : Fin 512) (h : 512 + d.val < 1088) : cat q ke ks n ⟨512 + d.val, h⟩ = ke n d := by
  unfold cat
  have h1 : ¬ ((⟨512 + d.val, h⟩ : Fin 1088).val < 512) := by simp
  have h2 : (⟨512 + d.val, h⟩ : Fin 1088).val < 1024 := by have := d.isLt; simp; omega
  rw [dif_neg h1, dif_pos h2]
  congr 1
  exact Fin.ext (by simp)

/-- The concatenation on its third range is the spatial vector. -/
theorem cat_hi (n : Fin 32) (d : Fin 64) (h : 1024 + d.val < 1088) : cat q ke ks n ⟨1024 + d.val, h⟩ = ks n d := by
  unfold cat
  have h1 : ¬ ((⟨1024 + d.val, h⟩ : Fin 1088).val < 512) := by simp; omega
  have h2 : ¬ ((⟨1024 + d.val, h⟩ : Fin 1088).val < 1024) := by simp
  rw [dif_neg h1, dif_neg h2]
  congr 1
  exact Fin.ext (by simp)

/-- Three inner products added up are the one inner product of length 1088, for all extended reals. -/
theorem scoreK_eq_scoreR (n : Fin 32) (k : Fin 4) : scoreK q ke ks av n k = scoreR q ke ks av n k := by
  unfold scoreK scoreR
  rw [AttnLaws.sum_fin_split3 (a := 512) (b := 512) (c := 64) (ab := 1024) (by norm_num) (by norm_num)
    (fun j => cat q ke ks n j * av j k)]
  exact congrArg₂ (· + ·)
    (congrArg₂ (· + ·) (Finset.sum_congr rfl fun d _ => by rw [cat_lo]) (Finset.sum_congr rfl fun d _ => by rw [cat_mid]))
    (Finset.sum_congr rfl fun d _ => by rw [cat_hi])

/-- With real inputs every entry of the concatenation is a real. -/
theorem cat_real (hq : ∀ d, ∃ r : ℝ, q d = (r : EReal)) (hke : ∀ n d, ∃ r : ℝ, ke n d = (r : EReal))
    (hks : ∀ n d, ∃ r : ℝ, ks n d = (r : EReal)) (n : Fin 32) (j : Fin 1088) :
    ∃ r : ℝ, cat q ke ks n j = (r : EReal) := by
  unfold cat
  split_ifs
  · exact hq _
  · exact hke _ _
  · exact hks _ _

/-- With real inputs the score is a real: a finite sum of products of reals. -/
theorem scoreR_real (hq : ∀ d, ∃ r : ℝ, q d = (r : EReal)) (hke : ∀ n d, ∃ r : ℝ, ke n d = (r : EReal))
    (hks : ∀ n d, ∃ r : ℝ, ks n d = (r : EReal)) (hav : ∀ j k, ∃ r : ℝ, av j k = (r : EReal))
    (n : Fin 32) (k : Fin 4) : ∃ r : ℝ, scoreR q ke ks av n k = (r : EReal) :=
  Attn.sum_mul_real (fun j => cat q ke ks n j) (fun j => av j k) (cat_real q ke ks hq hke hks n)
    (fun j => hav j k)

/-! ## The rectifier and the softmax weights -/

/-- The rectifier of a real is a real: the number itself, or the slope times it. -/
theorem leaky_real {x : EReal} (hx : ∃ r : ℝ, x = (r : EReal)) : ∃ r : ℝ, leaky x = (r : EReal) := by
  obtain ⟨r, rfl⟩ := hx
  obtain ⟨c, hc⟩ := wSlope_real
  unfold leaky Scalar.select
  split_ifs
  · exact ⟨r, rfl⟩
  · exact ⟨c * r, by rw [hc, EReal.coe_mul]⟩

/-- The softmax weights of real scores are non-negative. -/
theorem att_nonneg (L : Fin 32 → Fin 4 → EReal) (hL : ∀ n k, ∃ r : ℝ, L n k = (r : EReal)) (n : Fin 32) (k : Fin 4) :
    0 ≤ att L n k :=
  AttnLaws.weight_div_denom_nonneg (fun m => L m k) 0 (fun m => hL m k) n

/-! ## The pooling -/

/-- Four groups of eight points accumulated from zero are the thirty-two points. -/
theorem poolK_eq (a : Fin 32 → Fin 4 → EReal) (d : Fin 512) :
    poolK a ke d = ∑ n : Fin 32, (∑ k : Fin 4, a n k) * ke n d := by
  unfold poolK
  rw [GroupedSum.sum_groups (J := 4) (B := 8) (K := 32) (by norm_num) (fun n => (∑ k : Fin 4, a n k) * ke n d),
    Fin.sum_univ_four, zero_add]
  rfl

/-- With non-negative weights, pooling each head and adding after is adding the heads' weights first. -/
theorem poolR_eq (a : Fin 32 → Fin 4 → EReal) (ha : ∀ n k, 0 ≤ a n k) (d : Fin 512) :
    poolR a ke d = ∑ n : Fin 32, (∑ k : Fin 4, a n k) * ke n d := by
  unfold poolR
  rw [Finset.sum_comm]
  exact Finset.sum_congr rfl fun n _ =>
    (AttnLaws.sum_mul_of_nonneg Finset.univ (fun k => a n k) (ke n d) (fun k _ => ha n k)).symm

/-- The two poolings agree for non-negative weights, whatever the keys. -/
theorem poolK_eq_poolR (a : Fin 32 → Fin 4 → EReal) (ha : ∀ n k, 0 ≤ a n k) (d : Fin 512) :
    poolK a ke d = poolR a ke d := by
  rw [poolK_eq, poolR_eq ke a ha]

/-! ## The logistic function -/

/-- The logistic function is the quotient of one by one plus the exponential of the opposite. -/
theorem logistic_eq (z : EReal) : Ideal.logistic z = Ideal.div wOne (wOne + Ideal.exp (-z)) := by
  rw [wOne_eq]
  rfl

/-! ## The layer norm -/

/-- The second central moment is non-negative, for every vector of extended reals. -/
theorem var_nonneg (x : Fin 512 → EReal) : 0 ≤ var x := by
  unfold var
  rw [wWidth_eq]
  exact AttnLaws.div_nonneg_of_pos_real (Finset.sum_nonneg fun d _ => AttnLaws.mul_self_nonneg _) (by norm_num)

/-- The argument of the root is positive. -/
theorem var_add_eps_pos (x : Fin 512 → EReal) : 0 < var x + wEps := by
  obtain ⟨e, he, hE⟩ := wEps_pos
  rw [hE]
  exact lt_of_lt_of_le (by exact_mod_cast he) (le_add_of_nonneg_left (var_nonneg x))

/-- The two layer norms agree for every scale, shift and vector. -/
theorem normK_eq_normR (g b x : Fin 512 → EReal) : normK g b x = normR g b x := by
  funext c
  unfold normK normR
  rw [AttnLaws.mul_rsqrt_eq_div_sqrt (var_add_eps_pos x)]

/-! ## One row of the result -/

theorem outK_eq_outR (q : Fin 512 → EReal) (ke : Fin 32 → Fin 512 → EReal) (ks : Fin 32 → Fin 64 → EReal)
    (av : Fin 1088 → Fin 4 → EReal) (pw : Fin 512 → Fin 512 → EReal) (pb g1 b1 g2 b2 : Fin 512 → EReal)
    (hq : ∀ d, ∃ r : ℝ, q d = (r : EReal)) (hke : ∀ n d, ∃ r : ℝ, ke n d = (r : EReal))
    (hks : ∀ n d, ∃ r : ℝ, ks n d = (r : EReal)) (hav : ∀ j k, ∃ r : ℝ, av j k = (r : EReal)) :
    Cert.Spec.outK q ke ks av pw pb g1 b1 g2 b2 = Cert.Spec.outR q ke ks av pw pb g1 b1 g2 b2 := by
  have hLr : ∀ n k, ∃ r : ℝ, (fun n k => leaky (scoreR q ke ks av n k)) n k = (r : EReal) := fun n k =>
    leaky_real (scoreR_real q ke ks av hq hke hks hav n k)
  have hatt : ∀ n k, 0 ≤ att (fun n k => leaky (scoreR q ke ks av n k)) n k := att_nonneg _ hLr
  have hx : (fun d => Ideal.logistic (poolK (att fun n k => leaky (scoreR q ke ks av n k)) ke d * wQuarter) + q d)
      = fun d => Ideal.div wOne (wOne + Ideal.exp (-(poolR (att fun n k => leaky (scoreR q ke ks av n k)) ke d * wQuarter)))
          + q d := by
    funext d
    rw [poolK_eq_poolR ke _ hatt, logistic_eq]
  simp only [outK, outR, scoreK_eq_scoreR, normK_eq_normR]
  rw [hx]

end Cert.Algebra

end
-- ==== Proof.Finite.lean ====
/-
  The precondition's finiteness, decoded at the exact-arithmetic instance.

  The precondition is the conjunction, over the ten float arguments, of "every entry x satisfies
  |x| < +∞". Over the extended reals |x| = max x (-x), and +∞ is what the pattern 0x7F800000
  denotes; |x| < ⊤ fails at x = ⊥ (where -x = ⊤) and at x = ⊤, and holds at every real. So the
  precondition says: every entry of every argument is the coercion of a real number.
-/
import proofs.«109109_j40484361732519_2_alg».proof.Pre_finite_inputs
import proofs.«109109_j40484361732519_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Cert.Pre_finite_inputs

/-- The scalar shape has one index. -/
instance : Subsingleton S_.Idx := ⟨fun a b => funext fun d => d.elim0⟩

/-- One element: an extended real whose absolute value is below +∞ is a real. -/
theorem real_of_abs_lt_inf (x : EReal)
    (e : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at e
  induction x using EReal.rec with
  | bot => simp [Ideal.cmp] at e
  | coe r => exact ⟨r, rfl⟩
  | top => simp [Ideal.cmp] at e

/-- One argument: if the conjunction over all entries of "|x| < +∞" is true, every entry is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu _ e i)

/-- The precondition, decoded: every entry of each of the ten arguments is a real. -/
theorem entries_real_all [Cert.Pre_finite_inputs.Facts]
    (a0 : FVec Ideal S4096x32x512 .f32) (a1 : FVec Ideal S4096x32x64 .f32) (a2 : FVec Ideal S4096x512 .f32)
    (a3 : FVec Ideal S1088x4 .f32) (a4 : FVec Ideal S512x512 .f32) (a5 a6 a7 a8 a9 : FVec Ideal S512 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8, all_real a9 _ _ _ e9⟩

/-- The four arguments the value law reads for finiteness: keys, spatial keys, query, attention vectors. -/
theorem entries_real [Cert.Pre_finite_inputs.Facts]
    (a0 : FVec Ideal S4096x32x512 .f32) (a1 : FVec Ideal S4096x32x64 .f32) (a2 : FVec Ideal S4096x512 .f32)
    (a3 : FVec Ideal S1088x4 .f32) (a4 : FVec Ideal S512x512 .f32) (a5 a6 a7 a8 a9 : FVec Ideal S512 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) :=
  let H := entries_real_all a0 a1 a2 a3 a4 a5 a6 a7 a8 a9 h
  ⟨H.1, H.2.1, H.2.2.1, H.2.2.2.1⟩

end Cert.Finite

end
-- ==== Proof.lean ====
/-
  The certificate of one attention-pooling layer: a kernel that streams the context points' keys through two
  scratch-carried loops against the plain array program.

  Both programs compute, for every batch row, the softmax over 32 context points (per head) of the leaky-rectified
  scores of the concatenation (query, key, spatial vector) against the attention matrix, pool the keys by those
  weights, average the four heads, apply the logistic function, add the query, normalize, apply one affine map with
  a residual, and normalize again. The kernel splits the score into three inner products, adds a point's four
  head weights before multiplying by its key, accumulates the pooled keys over four groups of eight points, takes the
  logistic function as one operation and multiplies by a reciprocal square root where the array program divides by a
  square root. On the extended reals these arrangements agree once the scores are real numbers, which the
  precondition (every input finite) gives: the softmax weights are then nonnegative reals, and a sum of nonnegative
  weights distributes over the product with a key, whatever the key; the norm's two spellings agree for every
  extended real because the second moment plus the positive constant is positive.

  The frames of the two kernel programs are the frame runs over the symbolic run of the body with the contents of
  the first scratch on entry as a parameter (the body's result does not depend on them: the first loop's four slabs
  tile that scratch before it is read); the reference's frame is its run with the result dropped.
-/
import proofs.«109109_j40484361732519_2_alg».proof.Defs
import proofs.«109109_j40484361732519_2_alg».proof.Proof.Gen.Kernel
import proofs.«109109_j40484361732519_2_alg».proof.Proof.Gen.KernelIdeal
import proofs.«109109_j40484361732519_2_alg».proof.Proof.Gen.ReferenceIdeal
import proofs.«109109_j40484361732519_2_alg».proof.Proof.Gen.Pre_finite_inputs
import proofs.«109109_j40484361732519_2_alg».proof.Proof.KBFrame
import proofs.«109109_j40484361732519_2_alg».proof.Proof.KFinal
import proofs.«109109_j40484361732519_2_alg».proof.Proof.RefRun
import proofs.«109109_j40484361732519_2_alg».proof.Proof.RefRead
import proofs.«109109_j40484361732519_2_alg».proof.Proof.Algebra
import proofs.«109109_j40484361732519_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- The kernel's and the reference's result arrays are one function of the argument arrays when the four arrays
    feeding the scores are real: row by row the K arrangement is the R arrangement. -/
theorem Gk_eq_rOut (a0 : FVec Ideal Cert.KernelIdeal.S4096x32x512 .f32) (a1 : FVec Ideal Cert.KernelIdeal.S4096x32x64 .f32)
    (a2 : FVec Ideal Cert.KernelIdeal.S4096x512 .f32) (a3 : FVec Ideal Cert.KernelIdeal.S1088x4 .f32)
    (a4 : FVec Ideal Cert.KernelIdeal.S512x512 .f32) (a5 a6 a7 a8 a9 : FVec Ideal Cert.KernelIdeal.S512 .f32)
    (f0 : ∀ i, ∃ r : ℝ, a0 i = (r : EReal)) (f1 : ∀ i, ∃ r : ℝ, a1 i = (r : EReal))
    (f2 : ∀ i, ∃ r : ℝ, a2 i = (r : EReal)) (f3 : ∀ i, ∃ r : ℝ, a3 i = (r : EReal)) :
    Cert.KernelIdeal.KFinal.Gk a0 a1 a2 a3 a4 a5 a6 a7 a8 a9
      = Cert.ReferenceIdeal.RefTerm.rOut a0 a1 a2 a3 a4 a5 a6 a7 a8 a9 := by
  funext j
  obtain ⟨r, cc, rfl⟩ : ∃ (r : Fin 4096) (cc : Fin 512), j = ix2 r cc := ⟨j 0, j 1, eq_ix2 (n0 := 4096) (n1 := 512) j⟩
  rw [Cert.ReferenceIdeal.RefRead.rOut_apply]
  exact congrFun (Cert.Algebra.outK_eq_outR _ _ _ _ _ _ _ _ _ _ (fun d => f2 _) (fun n d => f0 _) (fun n d => f1 _)
    (fun jj k => f3 _)) cc

/-- Both idealized programs run, from memories agreeing on the arguments, to the same result array. -/
theorem algebraic : Cert.algebraic_KernelIdeal_ReferenceIdeal := by
  intro m ρ m' ρ' hpre hagree
  refine ⟨fun c => Cert.KernelIdeal.KFinal.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KFinal.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9⟩ := hagree c
  rw [h0, h1, h2, h3, h4, h5, h6, h7, h8, h9]
  obtain ⟨f0, f1, f2, f3⟩ := Cert.Finite.entries_real _ _ _ _ _ _ _ _ _ _ (hpre c)
  exact (Gk_eq_rOut _ _ _ _ _ _ _ _ _ _ f0 f1 f2 f3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
